-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v82) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S320000 : Shape := ⟨1, ![320000]⟩
abbrev S20000 : Shape := ⟨1, ![20000]⟩
abbrev S256x256 : Shape := ⟨2, ![256, 256]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S320000 : S_.BroadcastsInDim S320000 (![] : Fin 0 → Fin S320000.rank)
  reducesTo_S320000_S_d0 : S320000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg10 : FVec F S256 .f32) (main_v33 : IVec S_ 1) : IVec S_ 1 :=
  let main_v34 : FVec F S256 .f32 := Host.absf main_arg10
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg7 : FVec F S256x256 .f32) (main_arg8 : FVec F S256 .f32) (main_arg9 : FVec F S256x256 .f32) (main_arg10 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg7
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg9
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg10 main_v33

def fn {F : FTy → Type} [FloatOps F] (main_arg0 : FVec F S20000x256 .f32) (main_arg1 : IVec S320000 32) (main_arg2 : IVec S320000 32) (main_arg3 : FVec F S320000 .f32) (main_arg4 : IVec S20000 32) (main_arg5 : FVec F S256x256 .f32) (main_arg6 : FVec F S256 .f32) (main_arg7 : FVec F S256x256 .f32) (main_arg8 : FVec F S256 .f32) (main_arg9 : FVec F S256x256 .f32) (main_arg10 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S320000 .f32 := Host.absf main_arg3
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S256x256 .f32 := Host.absf main_arg5
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg7 main_arg8 main_arg9 main_arg10 main_v13 main_v16
-- ==== Kernel.lean ====
abbrev S20000x256 : Shape := ⟨2, ![20000, 256]⟩
abbrev S320000 : Shape := ⟨1, ![320000]⟩
abbrev S20000 : Shape := ⟨1, ![20000]⟩
abbrev S256x256 : Shape := ⟨2, ![256, 256]⟩
abbrev S256 : Shape := ⟨1, ![256]⟩
abbrev S2000x256 : Shape := ⟨2, ![2000, 256]⟩
abbrev S_ : Shape := ⟨0, ![]⟩
abbrev S320000x1 : Shape := ⟨2, ![320000, 1]⟩
abbrev S320000x256 : Shape := ⟨2, ![320000, 256]⟩
abbrev S1x256 : Shape := ⟨2, ![1, 256]⟩
abbrev S4096 : Shape := ⟨1, ![4096]⟩
abbrev S20000x1 : Shape := ⟨2, ![20000, 1]⟩
abbrev S4096x1 : Shape := ⟨2, ![4096, 1]⟩
abbrev S4096x256 : Shape := ⟨2, ![4096, 256]⟩
abbrev S4096x4096 : Shape := ⟨2, ![4096, 4096]⟩
abbrev S512x256 : Shape := ⟨2, ![512, 256]⟩
abbrev S512x512 : Shape := ⟨2, ![512, 512]⟩

abbrev nBuf : Space → Nat
  | .hbm => 159
  | .vmem => 21
  | .smem => 0
  | _ => 0

abbrev hbmTy0_0 (i : Nat) : BufTy := match i % 128 with
  | 0 => ⟨S20000x256, .f32⟩
  | 1 => ⟨S320000, .i32⟩
  | 2 => ⟨S320000, .i32⟩
  | 3 => ⟨S320000, .f32⟩
  | 4 => ⟨S20000, .i32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S20000x256, .f32⟩
  | 12 => ⟨S_, .i32⟩
  | 13 => ⟨S320000, .i32⟩
  | 14 => ⟨S320000, .i1⟩
  | 15 => ⟨S_, .i32⟩
  | 16 => ⟨S320000, .i32⟩
  | 17 => ⟨S320000, .i32⟩
  | 18 => ⟨S320000, .i32⟩
  | 19 => ⟨S320000x1, .i32⟩
  | 20 => ⟨S320000x256, .f32⟩
  | 21 => ⟨S320000x1, .f32⟩
  | 22 => ⟨S320000x256, .f32⟩
  | 23 => ⟨S320000x256, .f32⟩
  | 24 => ⟨S_, .f32⟩
  | 25 => ⟨S20000x256, .f32⟩
  | 26 => ⟨S320000x1, .i32⟩
  | 27 => ⟨S20000x256, .f32⟩
  | 28 => ⟨S1x256, .f32⟩
  | 29 => ⟨S20000x256, .f32⟩
  | 30 => ⟨S20000x256, .f32⟩
  | 31 => ⟨S_, .f32⟩
  | 32 => ⟨S20000x256, .f32⟩
  | 33 => ⟨S20000x256, .f32⟩
  | 34 => ⟨S20000x256, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000x256, .f32⟩
  | 44 => ⟨S320000x1, .f32⟩
  | 45 => ⟨S320000x256, .f32⟩
  | 46 => ⟨S320000x256, .f32⟩
  | 47 => ⟨S_, .f32⟩
  | 48 => ⟨S20000x256, .f32⟩
  | 49 => ⟨S320000x1, .i32⟩
  | 50 => ⟨S20000x256, .f32⟩
  | 51 => ⟨S1x256, .f32⟩
  | 52 => ⟨S20000x256, .f32⟩
  | 53 => ⟨S20000x256, .f32⟩
  | 54 => ⟨S_, .i32⟩
  | 55 => ⟨S20000, .i32⟩
  | 56 => ⟨S20000, .i1⟩
  | 57 => ⟨S20000, .i32⟩
  | 58 => ⟨S_, .i32⟩
  | 59 => ⟨S_, .i32⟩
  | 60 => ⟨S20000, .i32⟩
  | 61 => ⟨S_, .i32⟩
  | 62 => ⟨S4096, .i32⟩
  | 63 => ⟨S_, .i32⟩
  | 64 => ⟨S_, .i32⟩
  | 65 => ⟨S20000, .i32⟩
  | 66 => ⟨S20000, .i32⟩
  | 67 => ⟨S_, .i32⟩
  | 68 => ⟨S20000, .i32⟩
  | 69 => ⟨S20000, .i1⟩
  | 70 => ⟨S_, .i32⟩
  | 71 => ⟨S20000, .i32⟩
  | 72 => ⟨S20000, .i32⟩
  | 73 => ⟨S20000, .i32⟩
  | 74 => ⟨S20000x1, .i32⟩
  | 75 => ⟨S_, .i32⟩
  | 76 => ⟨S20000, .i32⟩
  | 77 => ⟨S4096, .i32⟩
  | 78 => ⟨S_, .i32⟩
  | 79 => ⟨S_, .i32⟩
  | 80 => ⟨S4096, .i32⟩
  | 81 => ⟨S_, .i32⟩
  | 82 => ⟨S4096, .i32⟩
  | 83 => ⟨S4096, .i32⟩
  | 84 => ⟨S4096, .i32⟩
  | 85 => ⟨S_, .i32⟩
  | 86 => ⟨S4096, .i32⟩
  | 87 => ⟨S4096, .i1⟩
  | 88 => ⟨S4096, .i32⟩
  | 89 => ⟨S4096, .i32⟩
  | 90 => ⟨S_, .i32⟩
  | 91 => ⟨S4096, .i32⟩
  | 92 => ⟨S4096, .i1⟩
  | 93 => ⟨S4096, .i1⟩
  | 94 => ⟨S_, .i32⟩
  | 95 => ⟨S4096, .i32⟩
  | 96 => ⟨S4096, .i32⟩
  | 97 => ⟨S4096, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S4096, .i32⟩
  | 105 => ⟨S4096, .i32⟩
  | 106 => ⟨S_, .i32⟩
  | 107 => ⟨S4096, .i32⟩
  | 108 => ⟨S4096, .i1⟩
  | 109 => ⟨S_, .i32⟩
  | 110 => ⟨S4096, .i32⟩
  | 111 => ⟨S4096, .i1⟩
  | 112 => ⟨S_, .i32⟩
  | 113 => ⟨S_, .i1⟩
  | 114 => ⟨S4096, .i1⟩
  | 115 => ⟨S4096, .i1⟩
  | 116 => ⟨S4096, .i1⟩
  | 117 => ⟨S4096, .i32⟩
  | 118 => ⟨S4096, .i32⟩
  | 119 => ⟨S4096, .i32⟩
  | 120 => ⟨S_, .i32⟩
  | 121 => ⟨S4096, .i32⟩
  | 122 => ⟨S4096, .i1⟩
  | 123 => ⟨S_, .i32⟩
  | 124 => ⟨S4096, .i32⟩
  | 125 => ⟨S4096, .i32⟩
  | 126 => ⟨S4096, .i32⟩
  | 127 => ⟨S4096x1, .i32⟩
  | _ => ⟨S20000x256, .f32⟩

abbrev hbmTy0_1 (i : Nat) : BufTy := match i % 128 with
  | 0 => ⟨S4096x256, .f32⟩
  | 1 => ⟨S20000x256, .f32⟩
  | 2 => ⟨S_, .i32⟩
  | 3 => ⟨S320000, .i32⟩
  | 4 => ⟨S320000, .i1⟩
  | 5 => ⟨S_, .i32⟩
  | 6 => ⟨S320000, .i32⟩
  | 7 => ⟨S320000, .i32⟩
  | 8 => ⟨S320000, .i32⟩
  | 9 => ⟨S320000x1, .i32⟩
  | 10 => ⟨S320000x256, .f32⟩
  | 11 => ⟨S320000x1, .f32⟩
  | 12 => ⟨S320000x256, .f32⟩
  | 13 => ⟨S320000x256, .f32⟩
  | 14 => ⟨S_, .f32⟩
  | 15 => ⟨S20000x256, .f32⟩
  | 16 => ⟨S320000x1, .i32⟩
  | 17 => ⟨S20000x256, .f32⟩
  | 18 => ⟨S1x256, .f32⟩
  | 19 => ⟨S20000x256, .f32⟩
  | 20 => ⟨S20000x256, .f32⟩
  | 21 => ⟨S_, .i32⟩
  | 22 => ⟨S4096, .i32⟩
  | 23 => ⟨S4096, .i1⟩
  | 24 => ⟨S_, .i32⟩
  | 25 => ⟨S4096, .i32⟩
  | 26 => ⟨S4096, .i32⟩
  | 27 => ⟨S4096, .i32⟩
  | 28 => ⟨S4096x1, .i32⟩
  | 29 => ⟨S4096x256, .f32⟩
  | 30 => ⟨S4096x4096, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x512, .f32⟩
  | .local _ .vmem, ⟨20, _⟩ => ⟨S512x512, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_cst : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_4 : Ref sig .tc := ⟨.hbm, 54, rfl⟩
abbrev main_v35 : Ref sig .tc := ⟨.hbm, 55, rfl⟩
abbrev main_v36 : Ref sig .tc := ⟨.hbm, 56, rfl⟩
abbrev main_call1_v0 : Ref sig .tc := ⟨.hbm, 57, rfl⟩
abbrev main_call1_call0_c : Ref sig .tc := ⟨.hbm, 58, rfl⟩
abbrev main_call1_call0_v0 : Ref sig .tc := ⟨.hbm, 59, rfl⟩
abbrev main_v37 : Ref sig .tc := ⟨.hbm, 60, rfl⟩
abbrev main_c_5 : Ref sig .tc := ⟨.hbm, 61, rfl⟩
abbrev main_v38 : Ref sig .tc := ⟨.hbm, 62, rfl⟩
abbrev main_c_6 : Ref sig .tc := ⟨.hbm, 63, rfl⟩
abbrev main_call2_v0 : Ref sig .tc := ⟨.hbm, 64, rfl⟩
abbrev main_call2_v1 : Ref sig .tc := ⟨.hbm, 65, rfl⟩
abbrev main_v39 : Ref sig .tc := ⟨.hbm, 66, rfl⟩
abbrev main_c_7 : Ref sig .tc := ⟨.hbm, 67, rfl⟩
abbrev main_v40 : Ref sig .tc := ⟨.hbm, 68, rfl⟩
abbrev main_v41 : Ref sig .tc := ⟨.hbm, 69, rfl⟩
abbrev main_c_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_9 : Ref sig .tc := ⟨.hbm, 75, rfl⟩
abbrev main_v46 : Ref sig .tc := ⟨.hbm, 76, rfl⟩
abbrev main_v47 : Ref sig .tc := ⟨.hbm, 77, rfl⟩
abbrev main_call3_call0_c : Ref sig .tc := ⟨.hbm, 78, rfl⟩
abbrev main_call3_call0_v0 : Ref sig .tc := ⟨.hbm, 79, rfl⟩
abbrev main_v48 : Ref sig .tc := ⟨.hbm, 80, rfl⟩
abbrev main_c_10 : Ref sig .tc := ⟨.hbm, 81, rfl⟩
abbrev main_call4_v0 : Ref sig .tc := ⟨.hbm, 82, rfl⟩
abbrev main_call4_v1 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_v5 : Ref sig .tc := ⟨.hbm, 87, rfl⟩
abbrev main_call4_v6 : Ref sig .tc := ⟨.hbm, 88, rfl⟩
abbrev main_call4_v7 : Ref sig .tc := ⟨.hbm, 89, rfl⟩
abbrev main_call4_c : Ref sig .tc := ⟨.hbm, 90, rfl⟩
abbrev main_call4_v8 : Ref sig .tc := ⟨.hbm, 91, rfl⟩
abbrev main_call4_v9 : Ref sig .tc := ⟨.hbm, 92, rfl⟩
abbrev main_call4_v10 : Ref sig .tc := ⟨.hbm, 93, rfl⟩
abbrev main_call4_c_0 : Ref sig .tc := ⟨.hbm, 94, rfl⟩
abbrev main_call4_v11 : Ref sig .tc := ⟨.hbm, 95, rfl⟩
abbrev main_call4_v12 : Ref sig .tc := ⟨.hbm, 96, rfl⟩
abbrev main_v49 : Ref sig .tc := ⟨.hbm, 97, rfl⟩
abbrev main_c_11 : Ref sig .tc := ⟨.hbm, 98, rfl⟩
abbrev main_call5_v0 : Ref sig .tc := ⟨.hbm, 99, rfl⟩
abbrev main_call5_c : Ref sig .tc := ⟨.hbm, 100, rfl⟩
abbrev main_call5_v1 : Ref sig .tc := ⟨.hbm, 101, rfl⟩
abbrev main_call5_c_0 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_call5_c_1 : Ref sig .tc := ⟨.hbm, 106, rfl⟩
abbrev main_call5_v5 : Ref sig .tc := ⟨.hbm, 107, rfl⟩
abbrev main_call5_v6 : Ref sig .tc := ⟨.hbm, 108, rfl⟩
abbrev main_call5_c_2 : Ref sig .tc := ⟨.hbm, 109, rfl⟩
abbrev main_call5_v7 : Ref sig .tc := ⟨.hbm, 110, rfl⟩
abbrev main_call5_v8 : Ref sig .tc := ⟨.hbm, 111, rfl⟩
abbrev main_call5_c_3 : Ref sig .tc := ⟨.hbm, 112, rfl⟩
abbrev main_call5_v9 : Ref sig .tc := ⟨.hbm, 113, rfl⟩
abbrev main_call5_v10 : Ref sig .tc := ⟨.hbm, 114, rfl⟩
abbrev main_call5_v11 : Ref sig .tc := ⟨.hbm, 115, rfl⟩
abbrev main_call5_v12 : Ref sig .tc := ⟨.hbm, 116, rfl⟩
abbrev main_call5_v13 : Ref sig .tc := ⟨.hbm, 117, rfl⟩
abbrev main_call5_v14 : Ref sig .tc := ⟨.hbm, 118, rfl⟩
abbrev main_v50 : Ref sig .tc := ⟨.hbm, 119, rfl⟩
abbrev main_c_12 : Ref sig .tc := ⟨.hbm, 120, rfl⟩
abbrev main_v51 : Ref sig .tc := ⟨.hbm, 121, rfl⟩
abbrev main_v52 : Ref sig .tc := ⟨.hbm, 122, rfl⟩
abbrev main_c_13 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_c_14 : Ref sig .tc := ⟨.hbm, 130, rfl⟩
abbrev main_v59 : Ref sig .tc := ⟨.hbm, 131, rfl⟩
abbrev main_v60 : Ref sig .tc := ⟨.hbm, 132, rfl⟩
abbrev main_c_15 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_cst_16 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_c_17 : Ref sig .tc := ⟨.hbm, 149, rfl⟩
abbrev main_v75 : Ref sig .tc := ⟨.hbm, 150, rfl⟩
abbrev main_v76 : Ref sig .tc := ⟨.hbm, 151, rfl⟩
abbrev main_c_18 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  shapeCasts_S2000x256_S2000x256 : S2000x256.ShapeCasts S2000x256
  bcast_S_S20000 : S_.BroadcastsInDim S20000 (![] : Fin 0 → Fin S20000.rank)
  natLt_1_32 : 1 < 32
  bcast_S_S_ : S_.BroadcastsInDim S_ (![] : Fin 0 → Fin S_.rank)
  reduceWindows_S20000_S20000_w20000s1p19999_0 : S20000.ReduceWindows (![20000] : Fin 1 → Nat) ![1] ![19999] ![0] S20000
  h_S_ : 0 < S_.numel
  bcast_S_S4096 : S_.BroadcastsInDim S4096 (![] : Fin 0 → Fin S4096.rank)
  bcast_S20000_S20000x1_0 : S20000.BroadcastsInDim S20000x1 (![0] : Fin 1 → Fin S20000x1.rank)
  reduceWindows_S4096_S4096_w4096s1p4095_0 : S4096.ReduceWindows (![4096] : Fin 1 → Nat) ![1] ![4095] ![0] S4096
  bcast_S4096_S4096x1_0 : S4096.BroadcastsInDim S4096x1 (![0] : Fin 1 → Fin S4096x1.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x512_S512x512_0_0 : ∀ a, (![0, 0] : Fin 2 → Nat) a + S512x512.size a ≤ S512x512.size a
  h_S512x512 : 0 < S512x512.numel
  dot_S2000x256_S256x256_S2000x256_1_0_0_1_n_n_wf : DotDims.WF S2000x256 S256x256 S2000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S4096_S20000x1_S20000_n_0_0_1_wf : ScatterDims.WF S4096 S20000x1 S20000 [] [0] [0] 1
  gather_S20000x256_S4096x1_S4096x256_1_0_n_n_0_1_1256_wf : GatherDims.WF S20000x256 S4096x1 S4096x256 [1] [0] [] [0] [] 1 ![1, 256]
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .f32 = 32 ∨ (Rect.block (s := S20000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S20000x256.size a
  hwx1_2 : ∀ i : grid1.Coords, EltTy.bits .f32 = 32 ∨ (Rect.block (s := S20000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S20000x256.size a
  hwx2_2 : ∀ i : grid2.Coords, EltTy.bits .f32 = 32 ∨ (Rect.block (s := S20000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x256.size a ≤ S4096x256.size a
  hwx3_0 : ∀ i : grid3.Coords, EltTy.bits .f32 = 32 ∨ (Rect.block (s := S4096x256) S512x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S4096x256.size a
  hwx3_1 : ∀ i : grid3.Coords, EltTy.bits .f32 = 32 ∨ (Rect.block (s := S4096x256) S512x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S4096x4096.size a
  hwx3_2 : ∀ i : grid3.Coords, EltTy.bits .f32 = 32 ∨ (Rect.block (s := S4096x4096) S512x512.size (cc3_transform_2 i) (hinb3_2 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S4096_S20000x1_S20000_n_0_0_1 : ScatterDims S4096 S20000x1 S20000 where
  updateWindowDims := []
  insertedWindowDims := [0]
  scatterDimsToOperandDims := [0]
  indexVectorDim := 1
  wf := scatter_S4096_S20000x1_S20000_n_0_0_1_wf
def gather_S20000x256_S4096x1_S4096x256_1_0_n_n_0_1_1256 : GatherDims S20000x256 S4096x1 S4096x256 where
  offsetDims := [1]
  collapsedSliceDims := [0]
  operandBatchingDims := []
  startIndicesBatchingDims := []
  startIndexMap := [0]
  indexVectorDim := 1
  sliceSizes := ![1, 256]
  wf := gather_S20000x256_S4096x1_S4096x256_1_0_n_n_0_1_1256_wf
def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v81) S512x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S512x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v82) S512x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S20000x256 : Shape := ⟨2, ![20000, 256]⟩
abbrev S320000 : Shape := ⟨1, ![320000]⟩
abbrev S20000 : Shape := ⟨1, ![20000]⟩
abbrev S256x256 : Shape := ⟨2, ![256, 256]⟩
abbrev S256 : Shape := ⟨1, ![256]⟩
abbrev S_ : Shape := ⟨0, ![]⟩
abbrev S4096 : Shape := ⟨1, ![4096]⟩
abbrev S20000x1 : Shape := ⟨2, ![20000, 1]⟩
abbrev S320000x1 : Shape := ⟨2, ![320000, 1]⟩
abbrev S320000x256 : Shape := ⟨2, ![320000, 256]⟩
abbrev S1x256 : Shape := ⟨2, ![1, 256]⟩
abbrev S4096x1 : Shape := ⟨2, ![4096, 1]⟩
abbrev S4096x256 : Shape := ⟨2, ![4096, 256]⟩
abbrev S256x4096 : Shape := ⟨2, ![256, 4096]⟩
abbrev S4096x4096 : Shape := ⟨2, ![4096, 4096]⟩

abbrev nBuf : Space → Nat
  | .hbm => 160
  | .vmem => 0
  | .smem => 0
  | _ => 0

abbrev hbmTy0_0 (i : Nat) : BufTy := match i % 128 with
  | 0 => ⟨S20000x256, .f32⟩
  | 1 => ⟨S320000, .i32⟩
  | 2 => ⟨S320000, .i32⟩
  | 3 => ⟨S320000, .f32⟩
  | 4 => ⟨S20000, .i32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S_, .i32⟩
  | 12 => ⟨S20000, .i32⟩
  | 13 => ⟨S20000, .i1⟩
  | 14 => ⟨S20000, .i32⟩
  | 15 => ⟨S_, .i32⟩
  | 16 => ⟨S_, .i32⟩
  | 17 => ⟨S20000, .i32⟩
  | 18 => ⟨S_, .i32⟩
  | 19 => ⟨S4096, .i32⟩
  | 20 => ⟨S_, .i32⟩
  | 21 => ⟨S_, .i32⟩
  | 22 => ⟨S20000, .i32⟩
  | 23 => ⟨S20000, .i32⟩
  | 24 => ⟨S_, .i32⟩
  | 25 => ⟨S20000, .i32⟩
  | 26 => ⟨S20000, .i1⟩
  | 27 => ⟨S_, .i32⟩
  | 28 => ⟨S20000, .i32⟩
  | 29 => ⟨S20000, .i32⟩
  | 30 => ⟨S20000, .i32⟩
  | 31 => ⟨S20000x1, .i32⟩
  | 32 => ⟨S_, .i32⟩
  | 33 => ⟨S20000, .i32⟩
  | 34 => ⟨S4096, .i32⟩
  | 35 => ⟨S_, .i32⟩
  | 36 => ⟨S_, .i32⟩
  | 37 => ⟨S4096, .i32⟩
  | 38 => ⟨S_, .i32⟩
  | 39 => ⟨S4096, .i32⟩
  | 40 => ⟨S4096, .i32⟩
  | 41 => ⟨S4096, .i32⟩
  | 42 => ⟨S_, .i32⟩
  | 43 => ⟨S4096, .i32⟩
  | 44 => ⟨S4096, .i1⟩
  | 45 => ⟨S4096, .i32⟩
  | 46 => ⟨S4096, .i32⟩
  | 47 => ⟨S_, .i32⟩
  | 48 => ⟨S4096, .i32⟩
  | 49 => ⟨S4096, .i1⟩
  | 50 => ⟨S4096, .i1⟩
  | 51 => ⟨S_, .i32⟩
  | 52 => ⟨S4096, .i32⟩
  | 53 => ⟨S4096, .i32⟩
  | 54 => ⟨S4096, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S4096, .i32⟩
  | 62 => ⟨S4096, .i32⟩
  | 63 => ⟨S_, .i32⟩
  | 64 => ⟨S4096, .i32⟩
  | 65 => ⟨S4096, .i1⟩
  | 66 => ⟨S_, .i32⟩
  | 67 => ⟨S4096, .i32⟩
  | 68 => ⟨S4096, .i1⟩
  | 69 => ⟨S_, .i32⟩
  | 70 => ⟨S_, .i1⟩
  | 71 => ⟨S4096, .i1⟩
  | 72 => ⟨S4096, .i1⟩
  | 73 => ⟨S4096, .i1⟩
  | 74 => ⟨S4096, .i32⟩
  | 75 => ⟨S4096, .i32⟩
  | 76 => ⟨S4096, .i32⟩
  | 77 => ⟨S20000x256, .f32⟩
  | 78 => ⟨S_, .i32⟩
  | 79 => ⟨S320000, .i32⟩
  | 80 => ⟨S320000, .i1⟩
  | 81 => ⟨S_, .i32⟩
  | 82 => ⟨S320000, .i32⟩
  | 83 => ⟨S320000, .i32⟩
  | 84 => ⟨S320000, .i32⟩
  | 85 => ⟨S320000x1, .i32⟩
  | 86 => ⟨S320000x256, .f32⟩
  | 87 => ⟨S320000x1, .f32⟩
  | 88 => ⟨S320000x256, .f32⟩
  | 89 => ⟨S320000x256, .f32⟩
  | 90 => ⟨S_, .f32⟩
  | 91 => ⟨S20000x256, .f32⟩
  | 92 => ⟨S320000x1, .i32⟩
  | 93 => ⟨S20000x256, .f32⟩
  | 94 => ⟨S1x256, .f32⟩
  | 95 => ⟨S20000x256, .f32⟩
  | 96 => ⟨S20000x256, .f32⟩
  | 97 => ⟨S_, .f32⟩
  | 98 => ⟨S20000x256, .f32⟩
  | 99 => ⟨S20000x256, .f32⟩
  | 100 => ⟨S20000x256, .f32⟩
  | 101 => ⟨S_, .i32⟩
  | 102 => ⟨S320000, .i32⟩
  | 103 => ⟨S320000, .i1⟩
  | 104 => ⟨S_, .i32⟩
  | 105 => ⟨S320000, .i32⟩
  | 106 => ⟨S320000, .i32⟩
  | 107 => ⟨S320000, .i32⟩
  | 108 => ⟨S320000x1, .i32⟩
  | 109 => ⟨S320000x256, .f32⟩
  | 110 => ⟨S320000x1, .f32⟩
  | 111 => ⟨S320000x256, .f32⟩
  | 112 => ⟨S320000x256, .f32⟩
  | 113 => ⟨S_, .f32⟩
  | 114 => ⟨S20000x256, .f32⟩
  | 115 => ⟨S320000x1, .i32⟩
  | 116 => ⟨S20000x256, .f32⟩
  | 117 => ⟨S1x256, .f32⟩
  | 118 => ⟨S20000x256, .f32⟩
  | 119 => ⟨S20000x256, .f32⟩
  | 120 => ⟨S_, .i32⟩
  | 121 => ⟨S4096, .i32⟩
  | 122 => ⟨S4096, .i1⟩
  | 123 => ⟨S_, .i32⟩
  | 124 => ⟨S4096, .i32⟩
  | 125 => ⟨S4096, .i32⟩
  | 126 => ⟨S4096, .i32⟩
  | 127 => ⟨S4096x1, .i32⟩
  | _ => ⟨S20000x256, .f32⟩

abbrev hbmTy0_1 (i : Nat) : BufTy := match i % 128 with
  | 0 => ⟨S4096x256, .f32⟩
  | 1 => ⟨S20000x256, .f32⟩
  | 2 => ⟨S_, .i32⟩
  | 3 => ⟨S320000, .i32⟩
  | 4 => ⟨S320000, .i1⟩
  | 5 => ⟨S_, .i32⟩
  | 6 => ⟨S320000, .i32⟩
  | 7 => ⟨S320000, .i32⟩
  | 8 => ⟨S320000, .i32⟩
  | 9 => ⟨S320000x1, .i32⟩
  | 10 => ⟨S320000x256, .f32⟩
  | 11 => ⟨S320000x1, .f32⟩
  | 12 => ⟨S320000x256, .f32⟩
  | 13 => ⟨S320000x256, .f32⟩
  | 14 => ⟨S_, .f32⟩
  | 15 => ⟨S20000x256, .f32⟩
  | 16 => ⟨S320000x1, .i32⟩
  | 17 => ⟨S20000x256, .f32⟩
  | 18 => ⟨S1x256, .f32⟩
  | 19 => ⟨S20000x256, .f32⟩
  | 20 => ⟨S20000x256, .f32⟩
  | 21 => ⟨S_, .i32⟩
  | 22 => ⟨S4096, .i32⟩
  | 23 => ⟨S4096, .i1⟩
  | 24 => ⟨S_, .i32⟩
  | 25 => ⟨S4096, .i32⟩
  | 26 => ⟨S4096, .i32⟩
  | 27 => ⟨S4096, .i32⟩
  | 28 => ⟨S4096x1, .i32⟩
  | 29 => ⟨S4096x256, .f32⟩
  | 30 => ⟨S256x4096, .f32⟩
  | 31 => ⟨S4096x4096, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_call0_v0 : Ref sig .tc := ⟨.hbm, 14, rfl⟩
abbrev main_call0_call0_c : Ref sig .tc := ⟨.hbm, 15, rfl⟩
abbrev main_call0_call0_v0 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_c_1 : Ref sig .tc := ⟨.hbm, 20, rfl⟩
abbrev main_call1_v0 : Ref sig .tc := ⟨.hbm, 21, rfl⟩
abbrev main_call1_v1 : Ref sig .tc := ⟨.hbm, 22, rfl⟩
abbrev main_v4 : Ref sig .tc := ⟨.hbm, 23, rfl⟩
abbrev main_c_2 : Ref sig .tc := ⟨.hbm, 24, rfl⟩
abbrev main_v5 : Ref sig .tc := ⟨.hbm, 25, rfl⟩
abbrev main_v6 : Ref sig .tc := ⟨.hbm, 26, rfl⟩
abbrev main_c_3 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_4 : Ref sig .tc := ⟨.hbm, 32, rfl⟩
abbrev main_v11 : Ref sig .tc := ⟨.hbm, 33, rfl⟩
abbrev main_v12 : Ref sig .tc := ⟨.hbm, 34, rfl⟩
abbrev main_call2_call0_c : Ref sig .tc := ⟨.hbm, 35, rfl⟩
abbrev main_call2_call0_v0 : Ref sig .tc := ⟨.hbm, 36, rfl⟩
abbrev main_v13 : Ref sig .tc := ⟨.hbm, 37, rfl⟩
abbrev main_c_5 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_call3_v5 : Ref sig .tc := ⟨.hbm, 44, rfl⟩
abbrev main_call3_v6 : Ref sig .tc := ⟨.hbm, 45, rfl⟩
abbrev main_call3_v7 : Ref sig .tc := ⟨.hbm, 46, rfl⟩
abbrev main_call3_c : Ref sig .tc := ⟨.hbm, 47, rfl⟩
abbrev main_call3_v8 : Ref sig .tc := ⟨.hbm, 48, rfl⟩
abbrev main_call3_v9 : Ref sig .tc := ⟨.hbm, 49, rfl⟩
abbrev main_call3_v10 : Ref sig .tc := ⟨.hbm, 50, rfl⟩
abbrev main_call3_c_0 : Ref sig .tc := ⟨.hbm, 51, rfl⟩
abbrev main_call3_v11 : Ref sig .tc := ⟨.hbm, 52, rfl⟩
abbrev main_call3_v12 : Ref sig .tc := ⟨.hbm, 53, rfl⟩
abbrev main_v14 : Ref sig .tc := ⟨.hbm, 54, rfl⟩
abbrev main_c_6 : Ref sig .tc := ⟨.hbm, 55, rfl⟩
abbrev main_call4_v0 : Ref sig .tc := ⟨.hbm, 56, rfl⟩
abbrev main_call4_c : Ref sig .tc := ⟨.hbm, 57, rfl⟩
abbrev main_call4_v1 : Ref sig .tc := ⟨.hbm, 58, rfl⟩
abbrev main_call4_c_0 : Ref sig .tc := ⟨.hbm, 59, rfl⟩
abbrev main_call4_v2 : Ref sig .tc := ⟨.hbm, 60, rfl⟩
abbrev main_call4_v3 : Ref sig .tc := ⟨.hbm, 61, rfl⟩
abbrev main_call4_v4 : Ref sig .tc := ⟨.hbm, 62, rfl⟩
abbrev main_call4_c_1 : Ref sig .tc := ⟨.hbm, 63, rfl⟩
abbrev main_call4_v5 : Ref sig .tc := ⟨.hbm, 64, rfl⟩
abbrev main_call4_v6 : Ref sig .tc := ⟨.hbm, 65, rfl⟩
abbrev main_call4_c_2 : Ref sig .tc := ⟨.hbm, 66, rfl⟩
abbrev main_call4_v7 : Ref sig .tc := ⟨.hbm, 67, rfl⟩
abbrev main_call4_v8 : Ref sig .tc := ⟨.hbm, 68, rfl⟩
abbrev main_call4_c_3 : Ref sig .tc := ⟨.hbm, 69, rfl⟩
abbrev main_call4_v9 : Ref sig .tc := ⟨.hbm, 70, rfl⟩
abbrev main_call4_v10 : Ref sig .tc := ⟨.hbm, 71, rfl⟩
abbrev main_call4_v11 : Ref sig .tc := ⟨.hbm, 72, rfl⟩
abbrev main_call4_v12 : Ref sig .tc := ⟨.hbm, 73, rfl⟩
abbrev main_call4_v13 : Ref sig .tc := ⟨.hbm, 74, rfl⟩
abbrev main_call4_v14 : Ref sig .tc := ⟨.hbm, 75, rfl⟩
abbrev main_v15 : Ref sig .tc := ⟨.hbm, 76, rfl⟩
abbrev main_v16 : Ref sig .tc := ⟨.hbm, 77, rfl⟩
abbrev main_c_7 : Ref sig .tc := ⟨.hbm, 78, rfl⟩
abbrev main_v17 : Ref sig .tc := ⟨.hbm, 79, rfl⟩
abbrev main_v18 : Ref sig .tc := ⟨.hbm, 80, rfl⟩
abbrev main_c_8 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_cst : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_call5_cst : Ref sig .tc := ⟨.hbm, 97, rfl⟩
abbrev main_call5_v0 : Ref sig .tc := ⟨.hbm, 98, rfl⟩
abbrev main_v33 : Ref sig .tc := ⟨.hbm, 99, rfl⟩
abbrev main_v34 : Ref sig .tc := ⟨.hbm, 100, rfl⟩
abbrev main_c_9 : Ref sig .tc := ⟨.hbm, 101, rfl⟩
abbrev main_v35 : Ref sig .tc := ⟨.hbm, 102, rfl⟩
abbrev main_v36 : Ref sig .tc := ⟨.hbm, 103, rfl⟩
abbrev main_c_10 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_cst_11 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_c_12 : Ref sig .tc := ⟨.hbm, 120, rfl⟩
abbrev main_v51 : Ref sig .tc := ⟨.hbm, 121, rfl⟩
abbrev main_v52 : Ref sig .tc := ⟨.hbm, 122, rfl⟩
abbrev main_c_13 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_c_14 : Ref sig .tc := ⟨.hbm, 130, rfl⟩
abbrev main_v59 : Ref sig .tc := ⟨.hbm, 131, rfl⟩
abbrev main_v60 : Ref sig .tc := ⟨.hbm, 132, rfl⟩
abbrev main_c_15 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_cst_16 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_c_17 : Ref sig .tc := ⟨.hbm, 149, rfl⟩
abbrev main_v75 : Ref sig .tc := ⟨.hbm, 150, rfl⟩
abbrev main_v76 : Ref sig .tc := ⟨.hbm, 151, rfl⟩
abbrev main_c_18 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩

abbrev nD : Nat := 1
abbrev τ : Topo := Topo.v7x

variable {F : FTy → Type} [FloatOps F]

class Facts₀ : Prop where
  bcast_S_S20000 : S_.BroadcastsInDim S20000 (![] : Fin 0 → Fin S20000.rank)
  natLt_1_32 : 1 < 32
  bcast_S_S_ : S_.BroadcastsInDim S_ (![] : Fin 0 → Fin S_.rank)
  reduceWindows_S20000_S20000_w20000s1p19999_0 : S20000.ReduceWindows (![20000] : Fin 1 → Nat) ![1] ![19999] ![0] S20000
  h_S_ : 0 < S_.numel
  bcast_S_S4096 : S_.BroadcastsInDim S4096 (![] : Fin 0 → Fin S4096.rank)
  bcast_S20000_S20000x1_0 : S20000.BroadcastsInDim S20000x1 (![0] : Fin 1 → Fin S20000x1.rank)
  reduceWindows_S4096_S4096_w4096s1p4095_0 : S4096.ReduceWindows (![4096] : Fin 1 → Nat) ![1] ![4095] ![0] S4096
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S4096_S4096x1_0 : S4096.BroadcastsInDim S4096x1 (![0] : Fin 1 → Fin S4096x1.rank)
  transposes_S4096x256_S256x4096_1_0 : S4096x256.Transposes [1, 0] S256x4096
  scatter_S4096_S20000x1_S20000_n_0_0_1_wf : ScatterDims.WF S4096 S20000x1 S20000 [] [0] [0] 1
  dot_S20000x256_S256x256_S20000x256_1_0_0_1_n_n_wf : DotDims.WF S20000x256 S256x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  gather_S20000x256_S4096x1_S4096x256_1_0_n_n_0_1_1256_wf : GatherDims.WF S20000x256 S4096x1 S4096x256 [1] [0] [] [0] [] 1 ![1, 256]
  dot_S4096x256_S256x4096_S4096x4096_1_0_0_1_n_n_wf : DotDims.WF S4096x256 S256x4096 S4096x4096 [1] [0] [0] [1] [] []

variable [Facts₀]

def scatter_S4096_S20000x1_S20000_n_0_0_1 : ScatterDims S4096 S20000x1 S20000 where
  updateWindowDims := []
  insertedWindowDims := [0]
  scatterDimsToOperandDims := [0]
  indexVectorDim := 1
  wf := scatter_S4096_S20000x1_S20000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def gather_S20000x256_S4096x1_S4096x256_1_0_n_n_0_1_1256 : GatherDims S20000x256 S4096x1 S4096x256 where
  offsetDims := [1]
  collapsedSliceDims := [0]
  operandBatchingDims := []
  startIndicesBatchingDims := []
  startIndexMap := [0]
  indexVectorDim := 1
  sliceSizes := ![1, 256]
  wf := gather_S20000x256_S4096x1_S4096x256_1_0_n_n_0_1_1256_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.K.Reg0.lean ====
/-
  Kernel region 0 of the program: one grid axis of ten points; at point t the body multiplies rows
  [2000 t, 2000 t + 2000) of a 20000 × 256 left operand by the whole 256 × 256 right operand, both rounded to
  bf16 on the way into the matrix unit, into a zero accumulator, and writes the 2000 × 256 product over the
  output window's staging buffer, which is written back as rows [2000 t, 2000 t + 2000) of the result.
  Stated at ANY contents V of the core's buffers when the region is entered and at any float instance F:
  what each window's staging buffer holds after the body at each point, the body's triple, and the
  per-point obligation the pipeline library asks of a region's body.
-/
import proofs.«120954_j58265526338342_1_alg».proof.Proof.Gen.Kernel.Launch
import proofs.«120954_j58265526338342_1_alg».proof.Proof.Gen.Kernel.Skeleton
import proofs.«120954_j58265526338342_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` stages, read off the entry contents. -/
def blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The whole 2000 × 256 buffer and the whole 256 × 256 buffer as rectangles: the body's only accesses. -/
abbrev lhsRect0 : Rect S2000x256 := Rect.unit (s := S2000x256) ![0, 0] S2000x256.size inb_S2000x256_S2000x256_0_0
abbrev rhsRect0 : Rect S256x256 := Rect.unit (s := S256x256) ![0, 0] S256x256.size inb_S256x256_S256x256_0_0

/-- What the body leaves in the output window's staging buffer, from the two input blocks: its one store, of the
    product of the loaded blocks, over the whole buffer. -/
def res0 (x : Vec F S2000x256 .f32) (w : Vec F S256x256 .f32) : Vec F S2000x256 .f32 :=
  View.canon [⟨lhsRect0, k0_pay1 (View.ld x lhsRect0) (View.ld w rhsRect0)⟩]

/-- The one store covers the buffer. -/
theorem res0_cover (p : Vec F S2000x256 .f32) (y : S2000x256.Idx) :
    ∃ pc ∈ ([⟨lhsRect0, p⟩] : List (View.Piece (Elt F) S2000x256 .f32)), y ∈ pc.1.set :=
  View.cover_of_tiled [⟨lhsRect0, p⟩] S2000x256.size (by rfl) y

set_option maxHeartbeats 1000000 in
/-- The body on whole staging memrefs: the inputs held at `x` and `w`, the output at anything; it ends with the inputs
    as they were and the output at `res0 x w`. -/
theorem body_triple0 (c : Dev nD) (E : Set ℕ) (i : grid0.Coords)
    (a1 : Memref sig .tc .vmem S2000x256 .f32) (h1 : a1.IsWhole) (a2 : Memref sig .tc .vmem S256x256 .f32) (h2 : a2.IsWhole)
    (a3 : Memref sig .tc .vmem S2000x256 .f32) (h3 : a3.IsWhole)
    (x : Vec F S2000x256 .f32) (w : Vec F S256x256 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (res0 x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (res0_cover _)

/-- The region's proof data on core `c`: the arrays as the region finds them; after the body each input window's
    buffer still holds its block and the output window's holds `res0` of the two blocks; the invariant is the scoped
    rest and the generator register; nothing is owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => res0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) :
    (dat0 V c).after 2 t = res0 (blk0 V c 0 t) (blk0 V c 1 t) := by dsimp only [dat0]

/-- An input window's current staging buffer holds its block at every point, whether the pipeline fetched it there
    or not (the right operand is fetched once; its block index never moves). -/
theorem dat0_before0 (c : Dev nD) (t : Fin cfg0.N) (d) : (dat0 V c).before 0 t d = blk0 V c 0 t :=
  ((dat0 V c).before_in_eq_fetched 0 rfl (fun _ => rfl) (fun _ _ _ => rfl)
    (fun t => by rw [dat0_after0]; unfold Dat.blockOf blk0; rw [dat0_A]; try rfl) t d).trans
    (by unfold Dat.fetched Dat.blockOf blk0; rw [dat0_A]; try rfl)
theorem dat0_before1 (c : Dev nD) (t : Fin cfg0.N) (d) : (dat0 V c).before 1 t d = blk0 V c 1 t :=
  ((dat0 V c).before_in_eq_fetched 1 rfl (fun _ => rfl) (fun _ _ _ => rfl)
    (fun t => by rw [dat0_after1]; unfold Dat.blockOf blk0; rw [dat0_A]; try rfl) t d).trans
    (by unfold Dat.fetched Dat.blockOf blk0; rw [dat0_A]; try rfl)

/-- The body at grid point `t` as the pipeline calls it: from the invariant, the core's dues and the three current
    staging buffers (the inputs at their blocks, the output at anything) to the same with the output at `res0`. -/
theorem body_at0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t))) := by
  unfold bodyAt0
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (body_triple0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation for this region, at every point. -/
theorem obl0 (c : Dev nD) : BodyObligation (dat0 (F := F) V c) (defs₀ (F := F)) Variants.none () Set.univ := fun t => by
  rw [bigSep_W0, bigSep_W0]
  exact body_at0 V c t

end Cert.Kernel.Fr

end
-- ==== Proof.K.Reg1.lean ====
/-
  Kernel region 1 of the program: one grid axis of ten points; at point t the body multiplies rows
  [2000 t, 2000 t + 2000) of a 20000 × 256 left operand by the whole 256 × 256 right operand, both rounded to
  bf16 on the way into the matrix unit, into a zero accumulator, and writes the 2000 × 256 product over the
  output window's staging buffer, which is written back as rows [2000 t, 2000 t + 2000) of the result.
  Stated at ANY contents V of the core's buffers when the region is entered and at any float instance F:
  what each window's staging buffer holds after the body at each point, the body's triple, and the
  per-point obligation the pipeline library asks of a region's body.
-/
import proofs.«120954_j58265526338342_1_alg».proof.Proof.Gen.Kernel.Launch
import proofs.«120954_j58265526338342_1_alg».proof.Proof.Gen.Kernel.Skeleton
import proofs.«120954_j58265526338342_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` stages, read off the entry contents. -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The whole 2000 × 256 buffer and the whole 256 × 256 buffer as rectangles: the body's only accesses. -/
abbrev lhsRect1 : Rect S2000x256 := Rect.unit (s := S2000x256) ![0, 0] S2000x256.size inb_S2000x256_S2000x256_0_0
abbrev rhsRect1 : Rect S256x256 := Rect.unit (s := S256x256) ![0, 0] S256x256.size inb_S256x256_S256x256_0_0

/-- What the body leaves in the output window's staging buffer, from the two input blocks: its one store, of the
    product of the loaded blocks, over the whole buffer. -/
def res1 (x : Vec F S2000x256 .f32) (w : Vec F S256x256 .f32) : Vec F S2000x256 .f32 :=
  View.canon [⟨lhsRect1, k1_pay1 (View.ld x lhsRect1) (View.ld w rhsRect1)⟩]

/-- The one store covers the buffer. -/
theorem res1_cover (p : Vec F S2000x256 .f32) (y : S2000x256.Idx) :
    ∃ pc ∈ ([⟨lhsRect1, p⟩] : List (View.Piece (Elt F) S2000x256 .f32)), y ∈ pc.1.set :=
  View.cover_of_tiled [⟨lhsRect1, p⟩] S2000x256.size (by rfl) y

set_option maxHeartbeats 1000000 in
/-- The body on whole staging memrefs: the inputs held at `x` and `w`, the output at anything; it ends with the inputs
    as they were and the output at `res1 x w`. -/
theorem body_triple1 (c : Dev nD) (E : Set ℕ) (i : grid1.Coords)
    (a1 : Memref sig .tc .vmem S2000x256 .f32) (h1 : a1.IsWhole) (a2 : Memref sig .tc .vmem S256x256 .f32) (h2 : a2.IsWhole)
    (a3 : Memref sig .tc .vmem S2000x256 .f32) (h3 : a3.IsWhole)
    (x : Vec F S2000x256 .f32) (w : Vec F S256x256 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (res1 x w)) -∗ K ⟨⟩))
      ⊢ wp frame (wpE (defs₀ (F := F)) Variants.none c none) E (cc1__matmul_kernel i a1 h1 a2 h2 a3 h3) K := by
  simp only [cc1__matmul_kernel_eq_skeleton]; unfold cc1__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (res1_cover _)

/-- The region's proof data on core `c`: the arrays as the region finds them; after the body each input window's
    buffer still holds its block and the output window's holds `res1` of the two blocks; the invariant is the scoped
    rest and the generator register; nothing is owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => res1 (blk1 V c 0 t) (blk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) :
    (dat1 V c).after 2 t = res1 (blk1 V c 0 t) (blk1 V c 1 t) := by dsimp only [dat1]

/-- An input window's current staging buffer holds its block at every point, whether the pipeline fetched it there
    or not (the right operand is fetched once; its block index never moves). -/
theorem dat1_before0 (c : Dev nD) (t : Fin cfg1.N) (d) : (dat1 V c).before 0 t d = blk1 V c 0 t :=
  ((dat1 V c).before_in_eq_fetched 0 rfl (fun _ => rfl) (fun _ _ _ => rfl)
    (fun t => by rw [dat1_after0]; unfold Dat.blockOf blk1; rw [dat1_A]; try rfl) t d).trans
    (by unfold Dat.fetched Dat.blockOf blk1; rw [dat1_A]; try rfl)
theorem dat1_before1 (c : Dev nD) (t : Fin cfg1.N) (d) : (dat1 V c).before 1 t d = blk1 V c 1 t :=
  ((dat1 V c).before_in_eq_fetched 1 rfl (fun _ => rfl) (fun _ _ _ => rfl)
    (fun t => by rw [dat1_after1]; unfold Dat.blockOf blk1; rw [dat1_A]; try rfl) t d).trans
    (by unfold Dat.fetched Dat.blockOf blk1; rw [dat1_A]; try rfl)

/-- The body at grid point `t` as the pipeline calls it: from the invariant, the core's dues and the three current
    staging buffers (the inputs at their blocks, the output at anything) to the same with the output at `res1`. -/
theorem body_at1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  unfold bodyAt1
  simp only [dat1_before0, dat1_before1]
  rw [show (dat1 V c).Φ t.succ = (dat1 V c).Φ t.castSucc from rfl,
    show (dat1 V c).owesAt () t.succ = (dat1 V c).owesAt () t.castSucc from rfl,
    dat1_after0, dat1_after1, dat1_after2]
  iintro ⟨HΦ, Ho, ⟨%d0, H0⟩, ⟨%d1, H1⟩, ⟨%d2, H2⟩⟩
  iapply (body_triple1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation for this region, at every point. -/
theorem obl1 (c : Dev nD) : BodyObligation (dat1 (F := F) V c) (defs₀ (F := F)) Variants.none () Set.univ := fun t => by
  rw [bigSep_W1, bigSep_W1]
  exact body_at1 V c t

end Cert.Kernel.Fr

end
-- ==== Proof.K.Reg2.lean ====
/-
  Kernel region 2 of the program: one grid axis of ten points; at point t the body multiplies rows
  [2000 t, 2000 t + 2000) of a 20000 × 256 left operand by the whole 256 × 256 right operand, both rounded to
  bf16 on the way into the matrix unit, into a zero accumulator, and writes the 2000 × 256 product over the
  output window's staging buffer, which is written back as rows [2000 t, 2000 t + 2000) of the result.
  Stated at ANY contents V of the core's buffers when the region is entered and at any float instance F:
  what each window's staging buffer holds after the body at each point, the body's triple, and the
  per-point obligation the pipeline library asks of a region's body.
-/
import proofs.«120954_j58265526338342_1_alg».proof.Proof.Gen.Kernel.Launch
import proofs.«120954_j58265526338342_1_alg».proof.Proof.Gen.Kernel.Skeleton
import proofs.«120954_j58265526338342_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` stages, read off the entry contents. -/
def blk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The whole 2000 × 256 buffer and the whole 256 × 256 buffer as rectangles: the body's only accesses. -/
abbrev lhsRect2 : Rect S2000x256 := Rect.unit (s := S2000x256) ![0, 0] S2000x256.size inb_S2000x256_S2000x256_0_0
abbrev rhsRect2 : Rect S256x256 := Rect.unit (s := S256x256) ![0, 0] S256x256.size inb_S256x256_S256x256_0_0

/-- What the body leaves in the output window's staging buffer, from the two input blocks: its one store, of the
    product of the loaded blocks, over the whole buffer. -/
def res2 (x : Vec F S2000x256 .f32) (w : Vec F S256x256 .f32) : Vec F S2000x256 .f32 :=
  View.canon [⟨lhsRect2, k2_pay1 (View.ld x lhsRect2) (View.ld w rhsRect2)⟩]

/-- The one store covers the buffer. -/
theorem res2_cover (p : Vec F S2000x256 .f32) (y : S2000x256.Idx) :
    ∃ pc ∈ ([⟨lhsRect2, p⟩] : List (View.Piece (Elt F) S2000x256 .f32)), y ∈ pc.1.set :=
  View.cover_of_tiled [⟨lhsRect2, p⟩] S2000x256.size (by rfl) y

set_option maxHeartbeats 1000000 in
/-- The body on whole staging memrefs: the inputs held at `x` and `w`, the output at anything; it ends with the inputs
    as they were and the output at `res2 x w`. -/
theorem body_triple2 (c : Dev nD) (E : Set ℕ) (i : grid2.Coords)
    (a1 : Memref sig .tc .vmem S2000x256 .f32) (h1 : a1.IsWhole) (a2 : Memref sig .tc .vmem S256x256 .f32) (h2 : a2.IsWhole)
    (a3 : Memref sig .tc .vmem S2000x256 .f32) (h3 : a3.IsWhole)
    (x : Vec F S2000x256 .f32) (w : Vec F S256x256 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (res2 x w)) -∗ K ⟨⟩))
      ⊢ wp frame (wpE (defs₀ (F := F)) Variants.none c none) E (cc2__matmul_kernel i a1 h1 a2 h2 a3 h3) K := by
  simp only [cc2__matmul_kernel_eq_skeleton]; unfold cc2__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (res2_cover _)

/-- The region's proof data on core `c`: the arrays as the region finds them; after the body each input window's
    buffer still holds its block and the output window's holds `res2` of the two blocks; the invariant is the scoped
    rest and the generator register; nothing is owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => res2 (blk2 V c 0 t) (blk2 V c 1 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) :
    (dat2 V c).after 2 t = res2 (blk2 V c 0 t) (blk2 V c 1 t) := by dsimp only [dat2]

/-- An input window's current staging buffer holds its block at every point, whether the pipeline fetched it there
    or not (the right operand is fetched once; its block index never moves). -/
theorem dat2_before0 (c : Dev nD) (t : Fin cfg2.N) (d) : (dat2 V c).before 0 t d = blk2 V c 0 t :=
  ((dat2 V c).before_in_eq_fetched 0 rfl (fun _ => rfl) (fun _ _ _ => rfl)
    (fun t => by rw [dat2_after0]; unfold Dat.blockOf blk2; rw [dat2_A]; try rfl) t d).trans
    (by unfold Dat.fetched Dat.blockOf blk2; rw [dat2_A]; try rfl)
theorem dat2_before1 (c : Dev nD) (t : Fin cfg2.N) (d) : (dat2 V c).before 1 t d = blk2 V c 1 t :=
  ((dat2 V c).before_in_eq_fetched 1 rfl (fun _ => rfl) (fun _ _ _ => rfl)
    (fun t => by rw [dat2_after1]; unfold Dat.blockOf blk2; rw [dat2_A]; try rfl) t d).trans
    (by unfold Dat.fetched Dat.blockOf blk2; rw [dat2_A]; try rfl)

/-- The body at grid point `t` as the pipeline calls it: from the invariant, the core's dues and the three current
    staging buffers (the inputs at their blocks, the output at anything) to the same with the output at `res2`. -/
theorem body_at2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d)))
      ⊢ wp frame (wpE (defs₀ (F := F)) Variants.none c none) Set.univ (bodyAt2 t) (fun _ =>
          iprop((dat2 V c).Φ t.succ ∗ (dat2 V c).owesAt () t.succ
            ∗ owns (c : Thread nD τ) (st2_0 t) fullShare ((dat2 V c).after 0 t)
            ∗ owns (c : Thread nD τ) (st2_1 t) fullShare ((dat2 V c).after 1 t)
            ∗ owns (c : Thread nD τ) (st2_2 t) fullShare ((dat2 V c).after 2 t))) := by
  unfold bodyAt2
  simp only [dat2_before0, dat2_before1]
  rw [show (dat2 V c).Φ t.succ = (dat2 V c).Φ t.castSucc from rfl,
    show (dat2 V c).owesAt () t.succ = (dat2 V c).owesAt () t.castSucc from rfl,
    dat2_after0, dat2_after1, dat2_after2]
  iintro ⟨HΦ, Ho, ⟨%d0, H0⟩, ⟨%d1, H1⟩, ⟨%d2, H2⟩⟩
  iapply (body_triple2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation for this region, at every point. -/
theorem obl2 (c : Dev nD) : BodyObligation (dat2 (F := F) V c) (defs₀ (F := F)) Variants.none () Set.univ := fun t => by
  rw [bigSep_W2, bigSep_W2]
  exact body_at2 V c t

end Cert.Kernel.Fr

end
-- ==== Proof.K.Reg3.lean ====
import proofs.«120954_j58265526338342_1_alg».proof.Proof.Gen.Kernel.Launch
import proofs.«120954_j58265526338342_1_alg».proof.Proof.Gen.Kernel.Skeleton
import proofs.«120954_j58265526338342_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

/-! The fourth kernel region: a grid of 8 × 8 points; at point (i, j) the body multiplies row block i
    of one array by the transpose of row block j of the SAME array and stores the product as block
    (i, j) of the output. This module states what each window's staging buffer holds after the body
    at every point, and the data the pipeline's loop is proved from. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks and the body's result -/

/-- Window `w`'s block at point `t`, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the body leaves in the output's staging buffer, from the two input blocks: its one store, which
    covers the whole buffer. -/
def res3 (a b : Vec F S512x256 .f32) : Vec F S512x512 .f32 :=
  View.canon [⟨Rect.unit (s := S512x512) ![0, 0] S512x512.size inb_S512x512_S512x512_0_0, Gen.k3_pay1 a b⟩]

/-! ## The pipeline's proof data -/

/-- The arrays as the region finds them; after the body at point `t` each input's buffer still at its
    block and the output's at the product of the two; nothing owed. The two input windows read one
    array, so each holds one half of the array's share. -/
def dat3 (c : Dev nD) : Pipeline.Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => res3 (blk3 V c 0 t) (blk3 V c 1 t)
  Φ _ := Pipeline.ΦA spec3 c
  q w := match w with
    | ⟨0, _⟩ => fullShare.left
    | ⟨1, _⟩ => fullShare.right
    | ⟨2, _⟩ => fullShare
  owed _ := 0

theorem dat3_A (c : Dev nD) (w : Fin cfg3.W) : (dat3 V c).A w = V c (Pipeline.arrRef spec3 w) := by
  dsimp only [dat3]

theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) :
    (dat3 V c).after 2 t = res3 (blk3 V c 0 t) (blk3 V c 1 t) := by dsimp only [dat3]

end Cert.Kernel.Fr

end
-- ==== Proof.K.Chain.lean ====
/-
  The contents of the core's buffers from the launch to the end of the program, item by item: a stretch of host
  operations is a fold over the contents, a kernel region replaces its result array by what its write-backs leave
  (what the region's proof data call the array after its last grid point) and leaves every other buffer alone.
  Each region's proof data are taken at the contents the region is entered from.
-/
import proofs.«120954_j58265526338342_1_alg».proof.Proof.K.Reg0
import proofs.«120954_j58265526338342_1_alg».proof.Proof.K.Reg1
import proofs.«120954_j58265526338342_1_alg».proof.Proof.K.Reg2
import proofs.«120954_j58265526338342_1_alg».proof.Proof.K.Reg3
import proofs.«120954_j58265526338342_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents from launch to the end

Between two regions the host operations are a fold over the buffers' contents; a region replaces its result
array by what its write-backs leave and touches nothing else. -/

/-- A valuation read at the TensorCore's references. -/
abbrev onTcRefs (W : Dev nD → Valuation τ sig (Elt F)) : (c : Dev nD) → (b : Ref sig .tc) → Buf (Elt F) ((c : Thread nD τ).loc b) :=
  fun c b => W c b

/-- At launch. -/
abbrev U0 (c : Dev nD) : Valuation τ sig (Elt F) := fun b => m (c, b)
/-- What region 0 leaves in its result array. -/
def X0 (c : Dev nD) : Buf (Elt F) ((c : Thread nD τ).loc main_v0) := (dat0 (onTcRefs (U0 m)) c).arrAt 2 cfg0.N
/-- After region 0. -/
abbrev U1 (c : Dev nD) : Valuation τ sig (Elt F) := Function.update (U0 m c) main_v0 (X0 m c)
/-- After the host operations up to region 1. -/
abbrev U3 (c : Dev nD) : Valuation τ sig (Elt F) := StableHlo.after hostOps1_1 (StableHlo.after hostOps1 (U1 m c))
/-- What region 1 leaves in its result array. -/
def X1 (c : Dev nD) : Buf (Elt F) ((c : Thread nD τ).loc main_v18) := (dat1 (onTcRefs (U3 m)) c).arrAt 2 cfg1.N
/-- After region 1. -/
abbrev U4 (c : Dev nD) : Valuation τ sig (Elt F) := Function.update (U3 m c) main_v18 (X1 m c)
/-- After the host operations up to region 2. -/
abbrev U15 (c : Dev nD) : Valuation τ sig (Elt F) :=
  StableHlo.after hostOps2_10 (StableHlo.after hostOps2_9 (StableHlo.after hostOps2_8 (StableHlo.after hostOps2_7
    (StableHlo.after hostOps2_6 (StableHlo.after hostOps2_5 (StableHlo.after hostOps2_4 (StableHlo.after hostOps2_3
      (StableHlo.after hostOps2_2 (StableHlo.after hostOps2_1 (StableHlo.after hostOps2 (U4 m c)))))))))))
/-- What region 2 leaves in its result array. -/
def X2 (c : Dev nD) : Buf (Elt F) ((c : Thread nD τ).loc main_v58) := (dat2 (onTcRefs (U15 m)) c).arrAt 2 cfg2.N
/-- After region 2. -/
abbrev U16 (c : Dev nD) : Valuation τ sig (Elt F) := Function.update (U15 m c) main_v58 (X2 m c)
/-- After the host operations up to region 3. -/
abbrev U17 (c : Dev nD) : Valuation τ sig (Elt F) := StableHlo.after hostOps3 (U16 m c)
/-- What region 3 leaves in its result array. -/
def X3 (c : Dev nD) : Buf (Elt F) ((c : Thread nD τ).loc main_v82) := (dat3 (onTcRefs (U17 m)) c).arrAt 2 cfg3.N
/-- After region 3: at the end. -/
abbrev U18 (c : Dev nD) : Valuation τ sig (Elt F) := Function.update (U17 m c) main_v82 (X3 m c)

/-- What the regions leave, item by item, as the generated conditional frame takes it: only the four result arrays
    are ever read off it. -/
def outs : Outs (F := F) := fun J r c =>
  match J with
  | 1 => U1 m c r
  | 4 => U4 m c r
  | 16 => U16 m c r
  | 18 => U18 m c r
  | _ => U0 m c r

theorem outs_1 (c : Dev nD) : outs m 1 main_v0 c = X0 m c := by
  show Function.update (U0 m c) main_v0 (X0 m c) main_v0 = X0 m c
  exact Function.update_self _ _ _
theorem outs_4 (c : Dev nD) : outs m 4 main_v18 c = X1 m c := by
  show Function.update (U3 m c) main_v18 (X1 m c) main_v18 = X1 m c
  exact Function.update_self _ _ _
theorem outs_16 (c : Dev nD) : outs m 16 main_v58 c = X2 m c := by
  show Function.update (U15 m c) main_v58 (X2 m c) main_v58 = X2 m c
  exact Function.update_self _ _ _
theorem outs_18 (c : Dev nD) : outs m 18 main_v82 c = X3 m c := by
  show Function.update (U17 m c) main_v82 (X3 m c) main_v82 = X3 m c
  exact Function.update_self _ _ _

/-- The generated valuations, at these contents, are the chain above. -/
theorem V1_eq (c : Dev nD) : V1 m (outs m) c = U1 m c := by
  show Function.update (V0 m c) main_v0 (outs m 1 main_v0 c) = _; rw [outs_1]
theorem V3_eq (c : Dev nD) : V3 m (outs m) c = U3 m c := by
  show StableHlo.after hostOps1_1 (StableHlo.after hostOps1 (V1 m (outs m) c)) = _; rw [V1_eq]
theorem V4_eq (c : Dev nD) : V4 m (outs m) c = U4 m c := by
  show Function.update (V3 m (outs m) c) main_v18 (outs m 4 main_v18 c) = _; rw [outs_4, V3_eq]
theorem V15_eq (c : Dev nD) : V15 m (outs m) c = U15 m c := by
  show StableHlo.after hostOps2_10 (StableHlo.after hostOps2_9 (StableHlo.after hostOps2_8 (StableHlo.after hostOps2_7
    (StableHlo.after hostOps2_6 (StableHlo.after hostOps2_5 (StableHlo.after hostOps2_4 (StableHlo.after hostOps2_3
      (StableHlo.after hostOps2_2 (StableHlo.after hostOps2_1 (StableHlo.after hostOps2 (V4 m (outs m) c))))))))))) = _
  rw [V4_eq]
theorem V16_eq (c : Dev nD) : V16 m (outs m) c = U16 m c := by
  show Function.update (V15 m (outs m) c) main_v58 (outs m 16 main_v58 c) = _; rw [outs_16, V15_eq]
theorem V17_eq (c : Dev nD) : V17 m (outs m) c = U17 m c := by
  show StableHlo.after hostOps3 (V16 m (outs m) c) = _; rw [V16_eq]
theorem V18_eq (c : Dev nD) : V18 m (outs m) c = U18 m c := by
  show Function.update (V17 m (outs m) c) main_v82 (outs m 18 main_v82 c) = _; rw [outs_18, V17_eq]

/-! ## The regions' proof data, each at its region's entry contents -/

def pdats : (p : Fin 4) → (c : Dev nD) → Dat τ (Elt F) Unit ℕ (UR sig nD τ) ℕ (cfgs p) c
  | ⟨0, _⟩ => fun c => dat0 (onTcRefs (U0 m)) c
  | ⟨1, _⟩ => fun c => dat1 (onTcRefs (U3 m)) c
  | ⟨2, _⟩ => fun c => dat2 (onTcRefs (U15 m)) c
  | ⟨3, _⟩ => fun c => dat3 (onTcRefs (U17 m)) c

/-- No core owes another anything: no level is assigned. -/
abbrev L₀ : GSem nD τ sig → Finset Unit := fun _ => ∅
abbrev lv₀ : GSem nD τ sig → Unit → ℕ := fun _ _ => 0

/-- What rides beside the buffers from item to item: the core's generator register at some state, and the core owing
    nothing. -/
abbrev Rest (c : Dev nD) : sProp 𝕄 :=
  iprop((∃ r, prngReg c r) ∗ ∃ W, owes (c : Thread nD τ) (0 : CellTallies nD τ sig Unit) W)

end Cert.Kernel.Fr

end
-- ==== Proof.K.Seg0.lean ====
/-
  Kernel region 0 as one segment of the program's run: entered with every unscoped buffer of the core held whole
  at the contents before it, left with the same buffers at the contents after it (only its result array changed).
-/
import proofs.«120954_j58265526338342_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## Region 0 as a segment of the run -/

/-- At region 0's exit each of its arrays holds what the pipeline leaves: the result array what the write-backs
    made of it, the two operands what they held (an input array is never written). -/
theorem exit_arr0 (c : Dev nD) (w : Fin cfg0.W) :
    (pdats m 0 c).arrAt w cfg0.N = onTcRefs (U1 m) c (Pipeline.arrRef spec0 w) :=
  match w with
  | ⟨0, _⟩ => ((pdats m 0 c).arrAt_in 0 rfl _).trans
      ((dat0_A (onTcRefs (U0 m)) c 0).trans (Function.update_of_ne (StableHlo.devRef_ne_of_ne (by decide)) _ _).symm)
  | ⟨1, _⟩ => ((pdats m 0 c).arrAt_in 1 rfl _).trans
      ((dat0_A (onTcRefs (U0 m)) c 1).trans (Function.update_of_ne (StableHlo.devRef_ne_of_ne (by decide)) _ _).symm)
  | ⟨2, _⟩ => by
      show X0 m c = Function.update (U0 m c) main_v0 (X0 m c) main_v0
      rw [Function.update_self]
/-- Every other buffer is as at entry. -/
theorem exit_rest0 (c : Dev nD) (b : Ref sig .tc) (hb : b ∉ Finset.univ.image (Pipeline.arrRef spec0)) :
    onTcRefs (U1 m) c b = onTcRefs (U0 m) c b :=
  Function.update_of_ne (StableHlo.devRef_ne_of_ne fun e => hb (Finset.mem_image.mpr ⟨2, Finset.mem_univ _, e.symm⟩)) _ _

set_option backward.isDefEq.respectTransparency.types false in
/-- Region 0 over the thread state "every unscoped buffer at the item's contents, the generator register at some
    state, nothing owed": its arrays are split out of the unscoped buffers on entry and put back, the result array at its
    new contents, on exit; the generator register goes into the kernel's invariant and comes back. -/
def reg0 : RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (obl0 (onTcRefs (U0 m)) c).loose
  hwaits := Pipeline.hwaits_of_owed_zero _ _ _ _ L₀ lv₀ 0 fun _ _ => rfl
  pre c := iprop(StableHlo.held (c : Thread nD τ) (Pipeline.ucRefs τ sig) (U0 m c) ∗ Rest c)
  post c := iprop(StableHlo.held (c : Thread nD τ) (Pipeline.ucRefs τ sig) (U1 m c) ∗ Rest c)
  X c := iprop(∃ r, prngReg c r)
  Y c := iprop(∃ r, prngReg c r)
  Z c := Pipeline.unscopedRest (Ix := Unit) (Name := ℕ) (U := UR sig nD τ) (Lvl := ℕ) spec0 c (onTcRefs (U0 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (onTcRefs (U0 m) c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 0 c).Φ 0 = Pipeline.ΦA spec0 c from rfl]; unfold Pipeline.ΦA
    iintro ⟨Hprng, -, Hscoped⟩
    isplitl [Hscoped]; · iexact Hscoped
    iexact Hprng
  hout c := by
    rw [Pipeline.ownSems0_none, show (pdats m 0 c).Φ (Fin.last _) = Pipeline.ΦA spec0 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (onTcRefs (U0 m) c) (onTcRefs (U1 m) c) ((pdats m 0 c).arrAt · cfg0.N) (exit_arr0 m c) (exit_rest0 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

end Cert.Kernel.Fr

end
-- ==== Proof.K.Seg1.lean ====
/-
  Kernel region 1 as one segment of the program's run: entered with every unscoped buffer of the core held whole
  at the contents before it, left with the same buffers at the contents after it (only its result array changed).
-/
import proofs.«120954_j58265526338342_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## Region 1 as a segment of the run -/

/-- At region 1's exit each of its arrays holds what the pipeline leaves: the result array what the write-backs
    made of it, the two operands what they held (an input array is never written). -/
theorem exit_arr1 (c : Dev nD) (w : Fin cfg1.W) :
    (pdats m 1 c).arrAt w cfg1.N = onTcRefs (U4 m) c (Pipeline.arrRef spec1 w) :=
  match w with
  | ⟨0, _⟩ => ((pdats m 1 c).arrAt_in 0 rfl _).trans
      ((dat1_A (onTcRefs (U3 m)) c 0).trans (Function.update_of_ne (StableHlo.devRef_ne_of_ne (by decide)) _ _).symm)
  | ⟨1, _⟩ => ((pdats m 1 c).arrAt_in 1 rfl _).trans
      ((dat1_A (onTcRefs (U3 m)) c 1).trans (Function.update_of_ne (StableHlo.devRef_ne_of_ne (by decide)) _ _).symm)
  | ⟨2, _⟩ => by
      show X1 m c = Function.update (U3 m c) main_v18 (X1 m c) main_v18
      rw [Function.update_self]
/-- Every other buffer is as at entry. -/
theorem exit_rest1 (c : Dev nD) (b : Ref sig .tc) (hb : b ∉ Finset.univ.image (Pipeline.arrRef spec1)) :
    onTcRefs (U4 m) c b = onTcRefs (U3 m) c b :=
  Function.update_of_ne (StableHlo.devRef_ne_of_ne fun e => hb (Finset.mem_image.mpr ⟨2, Finset.mem_univ _, e.symm⟩)) _ _

set_option backward.isDefEq.respectTransparency.types false in
/-- Region 1 over the thread state "every unscoped buffer at the item's contents, the generator register at some
    state, nothing owed": its arrays are split out of the unscoped buffers on entry and put back, the result array at its
    new contents, on exit; the generator register goes into the kernel's invariant and comes back. -/
def reg1 : RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (obl1 (onTcRefs (U3 m)) c).loose
  hwaits := Pipeline.hwaits_of_owed_zero _ _ _ _ L₀ lv₀ 1 fun _ _ => rfl
  pre c := iprop(StableHlo.held (c : Thread nD τ) (Pipeline.ucRefs τ sig) (U3 m c) ∗ Rest c)
  post c := iprop(StableHlo.held (c : Thread nD τ) (Pipeline.ucRefs τ sig) (U4 m c) ∗ Rest c)
  X c := iprop(∃ r, prngReg c r)
  Y c := iprop(∃ r, prngReg c r)
  Z c := Pipeline.unscopedRest (Ix := Unit) (Name := ℕ) (U := UR sig nD τ) (Lvl := ℕ) spec1 c (onTcRefs (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (onTcRefs (U3 m) c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 1 c).Φ 0 = Pipeline.ΦA spec1 c from rfl]; unfold Pipeline.ΦA
    iintro ⟨Hprng, -, Hscoped⟩
    isplitl [Hscoped]; · iexact Hscoped
    iexact Hprng
  hout c := by
    rw [Pipeline.ownSems0_none, show (pdats m 1 c).Φ (Fin.last _) = Pipeline.ΦA spec1 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (onTcRefs (U3 m) c) (onTcRefs (U4 m) c) ((pdats m 1 c).arrAt · cfg1.N) (exit_arr1 m c) (exit_rest1 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

end Cert.Kernel.Fr

end
-- ==== Proof.K.Seg2.lean ====
/-
  Kernel region 2 as one segment of the program's run: entered with every unscoped buffer of the core held whole
  at the contents before it, left with the same buffers at the contents after it (only its result array changed).
-/
import proofs.«120954_j58265526338342_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## Region 2 as a segment of the run -/

/-- At region 2's exit each of its arrays holds what the pipeline leaves: the result array what the write-backs
    made of it, the two operands what they held (an input array is never written). -/
theorem exit_arr2 (c : Dev nD) (w : Fin cfg2.W) :
    (pdats m 2 c).arrAt w cfg2.N = onTcRefs (U16 m) c (Pipeline.arrRef spec2 w) :=
  match w with
  | ⟨0, _⟩ => ((pdats m 2 c).arrAt_in 0 rfl _).trans
      ((dat2_A (onTcRefs (U15 m)) c 0).trans (Function.update_of_ne (StableHlo.devRef_ne_of_ne (by decide)) _ _).symm)
  | ⟨1, _⟩ => ((pdats m 2 c).arrAt_in 1 rfl _).trans
      ((dat2_A (onTcRefs (U15 m)) c 1).trans (Function.update_of_ne (StableHlo.devRef_ne_of_ne (by decide)) _ _).symm)
  | ⟨2, _⟩ => by
      show X2 m c = Function.update (U15 m c) main_v58 (X2 m c) main_v58
      rw [Function.update_self]
/-- Every other buffer is as at entry. -/
theorem exit_rest2 (c : Dev nD) (b : Ref sig .tc) (hb : b ∉ Finset.univ.image (Pipeline.arrRef spec2)) :
    onTcRefs (U16 m) c b = onTcRefs (U15 m) c b :=
  Function.update_of_ne (StableHlo.devRef_ne_of_ne fun e => hb (Finset.mem_image.mpr ⟨2, Finset.mem_univ _, e.symm⟩)) _ _

set_option backward.isDefEq.respectTransparency.types false in
/-- Region 2 over the thread state "every unscoped buffer at the item's contents, the generator register at some
    state, nothing owed": its arrays are split out of the unscoped buffers on entry and put back, the result array at its
    new contents, on exit; the generator register goes into the kernel's invariant and comes back. -/
def reg2 : RegionSeg (pcfgs (F := F)) adm (pdats m) () defs₀ Variants.none L₀ lv₀ 2 where
  win := launch2.win.to₀
  block_pos := launch2.block_pos
  stage_whole := launch2.stage_whole
  K := PEmpty
  osem k := k.elim
  ho := Pipeline.OwnSemFacts.none _
  hbody c := (obl2 (onTcRefs (U15 m)) c).loose
  hwaits := Pipeline.hwaits_of_owed_zero _ _ _ _ L₀ lv₀ 2 fun _ _ => rfl
  pre c := iprop(StableHlo.held (c : Thread nD τ) (Pipeline.ucRefs τ sig) (U15 m c) ∗ Rest c)
  post c := iprop(StableHlo.held (c : Thread nD τ) (Pipeline.ucRefs τ sig) (U16 m c) ∗ Rest c)
  X c := iprop(∃ r, prngReg c r)
  Y c := iprop(∃ r, prngReg c r)
  Z c := Pipeline.unscopedRest (Ix := Unit) (Name := ℕ) (U := UR sig nD τ) (Lvl := ℕ) spec2 c (onTcRefs (U15 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (onTcRefs (U15 m) c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 2 c).Φ 0 = Pipeline.ΦA spec2 c from rfl]; unfold Pipeline.ΦA
    iintro ⟨Hprng, -, Hscoped⟩
    isplitl [Hscoped]; · iexact Hscoped
    iexact Hprng
  hout c := by
    rw [Pipeline.ownSems0_none, show (pdats m 2 c).Φ (Fin.last _) = Pipeline.ΦA spec2 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (onTcRefs (U15 m) c) (onTcRefs (U16 m) c) ((pdats m 2 c).arrAt · cfg2.N) (exit_arr2 m c) (exit_rest2 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

end Cert.Kernel.Fr

end
-- ==== Proof.K.Reg3Body.lean ====
import proofs.«120954_j58265526338342_1_alg».proof.Proof.K.Reg3
import Idealize.ShloMosaic.Lib.Pipeline.Value

/-! The body of the fourth kernel region at one grid point. Each input buffer holds its window's block
    of the shared array (for the first input also at the points that do not fetch it, where the block
    index has not moved); the body reads both, never uses what the output buffer held, and overwrites
    the whole output buffer with the product of the first block and the transpose of the second. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the two input buffers -/

/-- The first input's current staging buffer holds its block at every point, although the block is
    fetched only when the row coordinate moves: where it is not fetched the block index is the one of
    the point before, and the body left the block in place there. -/
theorem before3_0 (c : Dev nD) (t : Fin cfg3.N) (d) : (dat3 V c).before 0 t d = blk3 V c 0 t :=
  ((dat3 V c).before_in_eq_fetched 0 rfl (fun _ => rfl) (fun _ _ _ => rfl)
    (fun t => by rw [dat3_after0]; unfold Dat.blockOf blk3; rw [dat3_A]; try rfl) t d).trans
    (by unfold Dat.fetched Dat.blockOf blk3; rw [dat3_A]; try rfl)

/-- The second input is fetched at every point. -/
theorem before3_1 (c : Dev nD) (t : Fin cfg3.N) (d) : (dat3 V c).before 1 t d = blk3 V c 1 t :=
  ((dat3 V c).before_in_eq_fetched 1 rfl (fun _ => rfl) (fun _ _ _ => rfl)
    (fun t => by rw [dat3_after1]; unfold Dat.blockOf blk3; rw [dat3_A]; try rfl) t d).trans
    (by unfold Dat.fetched Dat.blockOf blk3; rw [dat3_A]; try rfl)

/-! ## The body's triple -/

/-- The output's one store covers its buffer. -/
theorem cover3 (p : Vec F S512x512 .f32) (y : S512x512.Idx) :
    ∃ pc ∈ ([⟨Rect.unit (s := S512x512) ![0, 0] S512x512.size inb_S512x512_S512x512_0_0, p⟩] :
      List (View.Piece (Elt F) S512x512 .f32)), y ∈ pc.1.set :=
  View.cover_of_tiled [⟨Rect.unit (s := S512x512) ![0, 0] S512x512.size inb_S512x512_S512x512_0_0, p⟩] S512x512.size (by rfl) y

/-- A load through the whole-buffer rectangle reads the buffer. -/
theorem ld_whole3 (x : Vec F S512x256 .f32) :
    View.ld x (Rect.unit (s := S512x256) ![0, 0] S512x256.size inb_S512x256_S512x256_0_0) = x :=
  View.ld_unit_zero (S := S512x256) (funext fun a => by fin_cases a <;> rfl) inb_S512x256_S512x256_0_0 x

set_option maxHeartbeats 1000000 in
/-- The body on whole staging buffers, the inputs' reading `x0` and `x1` and the output's holding
    anything, ends with the inputs' as they were and the output's at the product of the two. -/
theorem sound_kernel3 (c : Dev nD) (E : Set ℕ) (i : grid3.Coords)
    (arg0 : Memref sig .tc .vmem S512x256 .f32) (harg0 : arg0.IsWhole)
    (arg1 : Memref sig .tc .vmem S512x256 .f32) (harg1 : arg1.IsWhole)
    (arg2 : Memref sig .tc .vmem S512x512 .f32) (harg2 : arg2.IsWhole)
    (x0 x1 : Vec F S512x256 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (res3 x0 x1)) -∗ K ⟨⟩))
      ⊢ wp frame (wpE (defs₀ (F := F)) Variants.none c none) E (cc3__ss_kernel i arg0 harg0 arg1 harg1 arg2 harg2) K := by
  simp only [cc3__ss_kernel_eq_skeleton]; unfold cc3__ss_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover3 _)).trans ?_
  unfold res3
  rw [View.readAt_eq_ld, View.readAt_eq_ld, ld_whole3, ld_whole3]

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: both inputs' buffers hold their blocks, the output's buffer holds something
    the body never reads; the invariant and what the core owes pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    dat3_after0, dat3_after1, dat3_after2]
  iintro ⟨HΦ, Ho, ⟨%d0, H0⟩, ⟨%d1, H1⟩, ⟨%d2, H2⟩⟩
  iapply (sound_kernel3 c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's loop, at every point. -/
theorem obl3 (c : Dev nD) : BodyObligation (dat3 (F := F) V c) (defs₀ (F := F)) Variants.none () Set.univ := fun t => by
  rw [bigSep_W3, bigSep_W3]
  exact sound_body3 V c t

end Cert.Kernel.Fr

end
-- ==== Proof.K.Reg3Arr.lean ====
import proofs.«120954_j58265526338342_1_alg».proof.Proof.K.Reg3

/-! Entering and leaving the fourth kernel region. Its two input windows read ONE array, so on entry
    that array's full share is split into two halves, one per window; the pipeline never writes an
    input's array, so on exit both halves still hold the entry contents and recombine to the full
    share. The output array is held whole throughout and ends at what the write-backs left. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The region's arrays among the core's unscoped buffers -/

/-- The two input windows read ONE array, so the buffers behind the three windows' arrays are two. -/
theorem img3 : Finset.univ.image (Pipeline.arrRef spec3) = {main_v81, main_v82} := by decide

theorem ne3 : main_v81 ∉ ({main_v82} : Finset (Ref sig .tc)) := by decide

/-- The core's unscoped buffers are the two buffers behind the region's arrays and the rest. -/
theorem unscoped_split3 (c : Dev nD) (Vc : (b : Ref sig .tc) → Buf (Elt F) ((c : Thread nD τ).loc b)) :
    (unscopedBufs c Vc : sProp 𝕄) = iprop(Pipeline.arrBufs spec3 c Vc ∗ Pipeline.unscopedRest spec3 c Vc) := by
  classical
  have hA : Finset.univ.image (Pipeline.arrRef spec3) ⊆ Finset.univ.filter fun b : Ref sig .tc => ¬ b.isScoped := fun b hb => by
    obtain ⟨w, -, rfl⟩ := Finset.mem_image.mp hb
    exact Finset.mem_filter.mpr ⟨Finset.mem_univ _, by simp [winFacts₀3.arr_unscoped w]⟩
  unfold unscopedBufs Pipeline.unscopedRest Pipeline.arrBufs
  rw [bigSep_sdiff_split hA]
  rfl

/-- The two buffers, each whole at the full share. -/
theorem arrBufs3 (c : Dev nD) (Vc : (b : Ref sig .tc) → Buf (Elt F) ((c : Thread nD τ).loc b)) :
    (Pipeline.arrBufs spec3 c Vc : sProp 𝕄)
      = iprop((((c : Thread nD τ).loc main_v81) ↦{fullShare} Vc main_v81) ∗ (((c : Thread nD τ).loc main_v82) ↦{fullShare} Vc main_v82)) := by
  unfold Pipeline.arrBufs
  rw [img3, bigSep_insert ne3, bigSep_singleton]
  rfl

/-- The proof data's arrays, window by window: the shared input array at one half of its share for each
    of the two windows on it, the output array at the full share. -/
theorem arrays3 (c : Dev nD) (G : (w : Fin cfg3.W) → Buf (Elt F) ((cfg3.win w).arr.view.loc (c.tc : Thread nD τ))) :
    ((dat3 V c).arrays G : sProp 𝕄)
      = iprop((((c : Thread nD τ).loc main_v81) ↦{fullShare.left} G 0) ∗ (((c : Thread nD τ).loc main_v81) ↦{fullShare.right} G 1)
          ∗ (((c : Thread nD τ).loc main_v82) ↦{fullShare} G 2)) := by
  unfold Dat.arrays
  rw [bigSep_W3, (arr_whole3 0).set_eq_univ, (arr_whole3 2).set_eq_univ]
  rfl

/-! ## Entering and leaving the region -/

/-- Entering: the shared input array's full share is split in two halves, one for each window on it. -/
theorem enter3 (c : Dev nD) :
    (unscopedBufs c (V c) : sProp 𝕄)
      ⊢ iprop((dat3 V c).arrays ((dat3 V c).arrAt · 0) ∗ Pipeline.unscopedRest spec3 c (V c)) := by
  rw [unscoped_split3, arrBufs3, arrays3]
  rw [show (dat3 V c).arrAt 0 0 = V c main_v81 from dat3_A V c 0,
    show (dat3 V c).arrAt 1 0 = V c main_v81 from dat3_A V c 1,
    show (dat3 V c).arrAt 2 0 = V c main_v82 from dat3_A V c 2]
  iintro ⟨⟨H81, H82⟩, HR⟩
  ihave H := (pointsTo_share (PosShare.mem_left_op_right fullShare)).1 $$ H81
  icases H with ⟨Hl, Hr⟩
  isplitr [HR]
  · isplitl [Hl]; · iexact Hl
    isplitl [Hr]; · iexact Hr
    iexact H82
  · iexact HR

/-- Leaving: an input window's array is never written, so both halves still hold the entry contents and
    recombine to the full share; the output array holds what the write-backs left. -/
theorem leave3 (c : Dev nD) (V' : (b : Ref sig .tc) → Buf (Elt F) ((c : Thread nD τ).loc b))
    (hout : V' main_v82 = (dat3 V c).arrAt 2 cfg3.N) (hrest : ∀ b : Ref sig .tc, b ≠ main_v82 → V' b = V c b) :
    iprop((dat3 V c).arrays ((dat3 V c).arrAt · cfg3.N) ∗ Pipeline.unscopedRest spec3 c (V c))
      ⊢ (unscopedBufs c V' : sProp 𝕄) := by
  rw [unscoped_split3, arrBufs3, arrays3]
  rw [((dat3 V c).arrAt_in 0 rfl cfg3.N).trans (dat3_A V c 0),
    ((dat3 V c).arrAt_in 1 rfl cfg3.N).trans (dat3_A V c 1), ← hout,
    show V' main_v81 = V c main_v81 from hrest main_v81 (by decide)]
  have hR : (Pipeline.unscopedRest spec3 c (V c) : sProp 𝕄) = Pipeline.unscopedRest spec3 c V' := by
    unfold Pipeline.unscopedRest
    refine bigSep_congr fun b hb => ?_
    rw [hrest b fun e => (Finset.mem_sdiff.mp hb).2 (by rw [img3, e]; decide)]
  rw [hR]
  iintro ⟨⟨Hl, Hr, H82⟩, HR⟩
  isplitr [HR]
  · isplitl [Hl Hr]
    · iapply (pointsTo_share (PosShare.mem_left_op_right fullShare)).2
      isplitl [Hl]; · iexact Hl
      iexact Hr
    · iexact H82
  · iexact HR

end Cert.Kernel.Fr

end
-- ==== Proof.K.Seg3.lean ====
/-
  Kernel region 3 as one segment of the program's run: entered with every unscoped buffer of the core held whole
  at the contents before it, left with the same buffers at the contents after it (only its result array changed).
  Its two input windows stage blocks of ONE array, so that array's share is dealt between them on entry and put
  together again on exit.
-/
import proofs.«120954_j58265526338342_1_alg».proof.Proof.K.Chain
import proofs.«120954_j58265526338342_1_alg».proof.Proof.K.Reg3Body
import proofs.«120954_j58265526338342_1_alg».proof.Proof.K.Reg3Arr
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- After region 3 its result array holds what the write-backs made of it, -/
theorem exit_out3 (c : Dev nD) : onTcRefs (U18 m) c main_v82 = (dat3 (onTcRefs (U17 m)) c).arrAt 2 cfg3.N := by
  show Function.update (U17 m c) main_v82 (X3 m c) main_v82 = X3 m c
  rw [Function.update_self]
/-- and every other buffer is as at entry. -/
theorem exit_rest3 (c : Dev nD) (b : Ref sig .tc) (hb : b ≠ main_v82) : onTcRefs (U18 m) c b = onTcRefs (U17 m) c b :=
  Function.update_of_ne (StableHlo.devRef_ne_of_ne hb) _ _

set_option backward.isDefEq.respectTransparency.types false in
/-- Region 3 over the thread state "every unscoped buffer at the item's contents, the generator register at some
    state, nothing owed". -/
def reg3 : RegionSeg (pcfgs (F := F)) adm (pdats m) () defs₀ Variants.none L₀ lv₀ 3 where
  win := winFacts₀3
  block_pos := block_pos3
  stage_whole := stage_whole3
  K := PEmpty
  osem k := k.elim
  ho := Pipeline.OwnSemFacts.none _
  hbody c := (obl3 (onTcRefs (U17 m)) c).loose
  hwaits := Pipeline.hwaits_of_owed_zero _ _ _ _ L₀ lv₀ 3 fun _ _ => rfl
  pre c := iprop(StableHlo.held (c : Thread nD τ) (Pipeline.ucRefs τ sig) (U17 m c) ∗ Rest c)
  post c := iprop(StableHlo.held (c : Thread nD τ) (Pipeline.ucRefs τ sig) (U18 m c) ∗ Rest c)
  X c := iprop(∃ r, prngReg c r)
  Y c := iprop(∃ r, prngReg c r)
  Z c := Pipeline.unscopedRest (Ix := Unit) (Name := ℕ) (U := UR sig nD τ) (Lvl := ℕ) spec3 c (onTcRefs (U17 m) c)
  hentry c := by
    rw [Pipeline.ownSems0_none]
    have hsplit := enter3 (onTcRefs (U17 m)) c
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 3 c).Φ 0 = Pipeline.ΦA spec3 c from rfl]; unfold Pipeline.ΦA
    iintro ⟨Hprng, -, Hscoped⟩
    isplitl [Hscoped]; · iexact Hscoped
    iexact Hprng
  hout c := by
    rw [Pipeline.ownSems0_none, show (pdats m 3 c).Φ (Fin.last _) = Pipeline.ΦA spec3 c from rfl]; unfold Pipeline.ΦA
    iintro ⟨Hscoped, Hprng⟩
    isplitl [Hprng]; · iexact Hprng
    isplitr; · iempintro
    iexact Hscoped
  hexit c := by
    have hjoin := leave3 (onTcRefs (U17 m)) c (onTcRefs (U18 m) c) (exit_out3 m c) (exit_rest3 m c)
    rw [Pipeline.unscopedBufs_held] at hjoin
    iintro ⟨Harr, Howes, Hprng, Hrest⟩
    imodintro
    isplitl [Harr Hrest]
    · iapply hjoin
      isplitl [Harr]; · iexact Harr
      iexact Hrest
    isplitl [Hprng]; · iexact Hprng
    unfold Pipeline.Dat.owesAt Pipeline.owesWithin
    icases Howes with ⟨%W, -, Howes⟩; iexists W; iexact Howes

end Cert.Kernel.Fr

end
-- ==== Proof.K.Run.lean ====
/-
  The whole program as a list of segments — the four kernel regions among fourteen stretches of host operations —
  launched from any memory: every weakly fair execution terminates, nothing faults, and the final memory holds
  every unscoped buffer of each core at the end of the chain of contents (so: each argument as launched, each
  result at the chain's term for it).
-/
import proofs.«120954_j58265526338342_1_alg».proof.Proof.K.Seg0
import proofs.«120954_j58265526338342_1_alg».proof.Proof.K.Seg1
import proofs.«120954_j58265526338342_1_alg».proof.Proof.K.Seg2
import proofs.«120954_j58265526338342_1_alg».proof.Proof.K.Seg3
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A stretch of host operations as a segment, from the contents `W`: it ends at the fold of its operations. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ Variants.none L₀ lv₀ :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- The program's items in order. -/
abbrev items : List (Seg (pcfgs (F := F)) adm (pdats m) () defs₀ Variants.none L₀ lv₀) :=
  [ .region (reg0 m), .host (hostSeg hostOps1 hostOps1_sub hostOps1_fresh fun c => U1 m c), .host (hostSeg hostOps1_1 hostOps1_1_sub hostOps1_1_fresh fun c => StableHlo.after hostOps1 (U1 m c)),
    .region (reg1 m), .host (hostSeg hostOps2 hostOps2_sub hostOps2_fresh fun c => U4 m c),
    .host (hostSeg hostOps2_1 hostOps2_1_sub hostOps2_1_fresh fun c => StableHlo.after hostOps2 (U4 m c)),
    .host (hostSeg hostOps2_2 hostOps2_2_sub hostOps2_2_fresh fun c => StableHlo.after hostOps2_1 (StableHlo.after hostOps2 (U4 m c))),
    .host (hostSeg hostOps2_3 hostOps2_3_sub hostOps2_3_fresh fun c => StableHlo.after hostOps2_2 (StableHlo.after hostOps2_1 (StableHlo.after hostOps2 (U4 m c)))),
    .host (hostSeg hostOps2_4 hostOps2_4_sub hostOps2_4_fresh fun c => StableHlo.after hostOps2_3 (StableHlo.after hostOps2_2 (StableHlo.after hostOps2_1 (StableHlo.after hostOps2 (U4 m c))))),
    .host (hostSeg hostOps2_5 hostOps2_5_sub hostOps2_5_fresh fun c => StableHlo.after hostOps2_4 (StableHlo.after hostOps2_3 (StableHlo.after hostOps2_2 (StableHlo.after hostOps2_1 (StableHlo.after hostOps2 (U4 m c)))))),
    .host (hostSeg hostOps2_6 hostOps2_6_sub hostOps2_6_fresh fun c => StableHlo.after hostOps2_5 (StableHlo.after hostOps2_4 (StableHlo.after hostOps2_3 (StableHlo.after hostOps2_2 (StableHlo.after hostOps2_1 (StableHlo.after hostOps2 (U4 m c))))))),
    .host (hostSeg hostOps2_7 hostOps2_7_sub hostOps2_7_fresh fun c => StableHlo.after hostOps2_6 (StableHlo.after hostOps2_5 (StableHlo.after hostOps2_4 (StableHlo.after hostOps2_3 (StableHlo.after hostOps2_2 (StableHlo.after hostOps2_1 (StableHlo.after hostOps2 (U4 m c)))))))),
    .host (hostSeg hostOps2_8 hostOps2_8_sub hostOps2_8_fresh fun c => StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 (U4 m c))))))))),
    .host (hostSeg hostOps2_9 hostOps2_9_sub hostOps2_9_fresh fun c => StableHlo.after hostOps2_8 (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 (U4 m c)))))))))),
    .host (hostSeg hostOps2_10 hostOps2_10_sub hostOps2_10_fresh fun c => StableHlo.after hostOps2_9 (StableHlo.after hostOps2_8 (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 (U4 m c))))))))))),
    .region (reg2 m), .host (hostSeg hostOps3 hostOps3_sub hostOps3_fresh fun c => U16 m c),
    .region (reg3 m) ]

set_option backward.isDefEq.respectTransparency.types false in
/-- THE RUN: from any memory `m` with every counter at zero, every weakly fair execution of the program terminates
    without a fault, and any property of the final memory that follows from "every unscoped buffer of every core holds
    the chain's last contents" holds of it. -/
theorem run_all (ρ : Dev nD → PrngReg) {Q : PUnit × MemSt nD τ sig (Elt F) → Prop}
    (hQ : ∀ s : MemSt nD τ sig (Elt F),
      (∀ c : Dev nD, ∀ b ∈ Pipeline.ucRefs τ sig, s.mem ((c : Thread nD τ).1, b) = U18 m c b) → Q (⟨⟩, s)) :
    θ_run defs (onTc (τ := τ) (main (F := F))) ⟨m, fun _ => 0, ρ⟩ Q := by
  refine Pipeline.θ_run_regions_kit (pcfgs (F := F)) adm (pdats m) () cellOf_inj emb₁ defs₀ Variants.none L₀ lv₀ m ρ main (items m)
    (fun c Q => by
      rewrite [main_chain c, Seg.run_eq_chain,
        show (items m).map Seg.prog = [
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10,
          Prog.lift (.customCall (Pipeline.entry 2) ()),
          StableHlo.seq hostOps3,
          Prog.lift (.customCall (Pipeline.entry 3) ()) ] from rfl]
      exact .rfl)
    (by simp only [items, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (U0 m c) ∗ Rest c))
    (Tₙ := fun c => iprop(StableHlo.held (c : Thread nD τ) (Pipeline.ucRefs τ sig) (U18 m c) ∗ ∃ r, prngReg c r))
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun c => ?_⟩)
    (hinit := ?_)
    (QY := fun c s => ∀ b ∈ Pipeline.ucRefs τ sig, s.mem ((c : Thread nD τ).1, b) = U18 m c b)
    (hfin := fun c s' => ?_) (hQ := hQ)
  · -- the launch element is the pipeline library's, with no ghost resource beside it
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the last item's state is the final one: the buffers, the register, and the core owing nothing
    show iprop(StableHlo.held (c : Thread nD τ) (Pipeline.ucRefs τ sig) (U18 m c) ∗ Rest c)
      ⊢ iprop((StableHlo.held (c : Thread nD τ) (Pipeline.ucRefs τ sig) (U18 m c) ∗ ∃ r, prngReg c r)
          ∗ ∃ W, owes (c : Thread nD τ) (0 : CellTallies nD τ sig Unit) W)
    iintro ⟨Hh, Hp, Ho⟩
    isplitl [Hh Hp]
    · isplitl [Hh]; · iexact Hh
      iexact Hp
    iexact Ho
  · -- the launch deals every core its unscoped buffers at the launch memory, its register, and no dues
    refine Pipeline.initEach L₀ lv₀ fun c => ?_
    rw [show unscopedBufs c (fun b => m ((c : Thread nD τ).loc b)) = StableHlo.held (c : Thread nD τ) (Pipeline.ucRefs τ sig) (U0 m c)
      from Pipeline.unscopedBufs_held c (U0 m c)]
    iintro ⟨⟨Hh, -, HO, -, Hp, -⟩, -⟩
    imodintro
    isplitl [Hh]; · iexact Hh
    isplitl [Hp]; · iexists _; iexact Hp
    iexists ∅; iexact HO
  · -- the buffers held at the end say what the final memory holds
    iintro ⟨⟨Hh, -⟩, HSI⟩
    unfold StableHlo.held
    imodintro
    iapply (pointsTo_read_all (Pipeline.ucRefs τ sig) (fun b => ((c : Thread nD τ).1, b)) (U18 m c) s')
    isplitl [Hh] <;> iassumption

end Cert.Kernel.Fr

end
-- ==== Proof.K.Kept.lean ====
/-
  Which buffers each item of the program leaves alone: a stretch of host operations writes only its own result
  buffers and a kernel region only its result array, so an argument array holds its launch contents at every
  item, and a result computed by one stretch is still there after the later items that do not write it.
-/
import proofs.«120954_j58265526338342_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem U1_arg1 (c : Dev nD) : U1 m c (Proc.devRef .tc main_arg1) = U0 m c (Proc.devRef .tc main_arg1) :=
  (Function.update_of_ne (StableHlo.devRef_ne_of_ne (by decide : main_arg1 ≠ main_v0)) _ _)
theorem U1_arg2 (c : Dev nD) : U1 m c (Proc.devRef .tc main_arg2) = U0 m c (Proc.devRef .tc main_arg2) :=
  (Function.update_of_ne (StableHlo.devRef_ne_of_ne (by decide : main_arg2 ≠ main_v0)) _ _)
theorem U1_arg3 (c : Dev nD) : U1 m c (Proc.devRef .tc main_arg3) = U0 m c (Proc.devRef .tc main_arg3) :=
  (Function.update_of_ne (StableHlo.devRef_ne_of_ne (by decide : main_arg3 ≠ main_v0)) _ _)
theorem U1_arg6 (c : Dev nD) : U1 m c (Proc.devRef .tc main_arg6) = U0 m c (Proc.devRef .tc main_arg6) :=
  (Function.update_of_ne (StableHlo.devRef_ne_of_ne (by decide : main_arg6 ≠ main_v0)) _ _)
theorem U3_arg7 (c : Dev nD) : U3 m c (Proc.devRef .tc main_arg7) = U0 m c (Proc.devRef .tc main_arg7) :=
  (StableHlo.after_of_writes_sub hostOps1_1 _ hostOps1_1_writes (by decide)).trans ((StableHlo.after_of_writes_sub hostOps1 _ hostOps1_writes (by decide)).trans ((Function.update_of_ne (StableHlo.devRef_ne_of_ne (by decide : main_arg7 ≠ main_v0)) _ _)))
theorem U4_arg1 (c : Dev nD) : U4 m c (Proc.devRef .tc main_arg1) = U0 m c (Proc.devRef .tc main_arg1) :=
  (Function.update_of_ne (StableHlo.devRef_ne_of_ne (by decide : main_arg1 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg1 ≠ main_v0)) _ _))))
theorem U4_arg2 (c : Dev nD) : U4 m c (Proc.devRef .tc main_arg2) = U0 m c (Proc.devRef .tc main_arg2) :=
  (Function.update_of_ne (StableHlo.devRef_ne_of_ne (by decide : main_arg2 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg2 ≠ main_v0)) _ _))))
theorem U4_arg3 (c : Dev nD) : U4 m c (Proc.devRef .tc main_arg3) = U0 m c (Proc.devRef .tc main_arg3) :=
  (Function.update_of_ne (StableHlo.devRef_ne_of_ne (by decide : main_arg3 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg3 ≠ main_v0)) _ _))))
theorem U4_arg4 (c : Dev nD) : U4 m c (Proc.devRef .tc main_arg4) = U0 m c (Proc.devRef .tc main_arg4) :=
  (Function.update_of_ne (StableHlo.devRef_ne_of_ne (by decide : main_arg4 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg4 ≠ main_v0)) _ _))))
theorem U4_arg8 (c : Dev nD) : U4 m c (Proc.devRef .tc main_arg8) = U0 m c (Proc.devRef .tc main_arg8) :=
  (Function.update_of_ne (StableHlo.devRef_ne_of_ne (by decide : main_arg8 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg8 ≠ main_v0)) _ _))))
theorem U15_arg0 (c : Dev nD) : U15 m c (Proc.devRef .tc main_arg0) = U0 m c (Proc.devRef .tc main_arg0) :=
  (StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg0 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg0 ≠ main_v0)) _ _)))))))))))))))
theorem U15_arg9 (c : Dev nD) : U15 m c (Proc.devRef .tc main_arg9) = U0 m c (Proc.devRef .tc main_arg9) :=
  (StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg9 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg9 ≠ main_v0)) _ _)))))))))))))))
theorem U16_arg1 (c : Dev nD) : U16 m c (Proc.devRef .tc main_arg1) = U0 m c (Proc.devRef .tc main_arg1) :=
  (Function.update_of_ne (StableHlo.devRef_ne_of_ne (by decide : main_arg1 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg1 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg1 ≠ main_v0)) _ _))))))))))))))))
theorem U16_arg2 (c : Dev nD) : U16 m c (Proc.devRef .tc main_arg2) = U0 m c (Proc.devRef .tc main_arg2) :=
  (Function.update_of_ne (StableHlo.devRef_ne_of_ne (by decide : main_arg2 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg2 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg2 ≠ main_v0)) _ _))))))))))))))))
theorem U16_arg3 (c : Dev nD) : U16 m c (Proc.devRef .tc main_arg3) = U0 m c (Proc.devRef .tc main_arg3) :=
  (Function.update_of_ne (StableHlo.devRef_ne_of_ne (by decide : main_arg3 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg3 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg3 ≠ main_v0)) _ _))))))))))))))))
theorem U16_arg10 (c : Dev nD) : U16 m c (Proc.devRef .tc main_arg10) = U0 m c (Proc.devRef .tc main_arg10) :=
  (Function.update_of_ne (StableHlo.devRef_ne_of_ne (by decide : main_arg10 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg10 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg10 ≠ main_v0)) _ _))))))))))))))))
theorem U16_v50 (c : Dev nD) : U16 m c (Proc.devRef .tc main_v50) = U15 m c (Proc.devRef .tc main_v50) :=
  (Function.update_of_ne (StableHlo.devRef_ne_of_ne (by decide : main_v50 ≠ main_v58)) _ _)
theorem U18_v57 (c : Dev nD) : U18 m c (Proc.devRef .tc main_v57) = U15 m c (Proc.devRef .tc main_v57) :=
  (Function.update_of_ne (StableHlo.devRef_ne_of_ne (by decide : main_v57 ≠ main_v82)) _ _).trans ((StableHlo.after_of_writes_sub hostOps3 _ hostOps3_writes (by decide)).trans ((Function.update_of_ne (StableHlo.devRef_ne_of_ne (by decide : main_v57 ≠ main_v58)) _ _)))
theorem U18_arg0 (c : Dev nD) : U18 m c (Proc.devRef .tc main_arg0) = U0 m c (Proc.devRef .tc main_arg0) :=
  (Function.update_of_ne (StableHlo.devRef_ne_of_ne (by decide : main_arg0 ≠ main_v82)) _ _).trans ((StableHlo.after_of_writes_sub hostOps3 _ hostOps3_writes (by decide)).trans ((Function.update_of_ne (StableHlo.devRef_ne_of_ne (by decide : main_arg0 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg0 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg0 ≠ main_v0)) _ _))))))))))))))))))
theorem U18_arg1 (c : Dev nD) : U18 m c (Proc.devRef .tc main_arg1) = U0 m c (Proc.devRef .tc main_arg1) :=
  (Function.update_of_ne (StableHlo.devRef_ne_of_ne (by decide : main_arg1 ≠ main_v82)) _ _).trans ((StableHlo.after_of_writes_sub hostOps3 _ hostOps3_writes (by decide)).trans ((Function.update_of_ne (StableHlo.devRef_ne_of_ne (by decide : main_arg1 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg1 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg1 ≠ main_v0)) _ _))))))))))))))))))
theorem U18_arg2 (c : Dev nD) : U18 m c (Proc.devRef .tc main_arg2) = U0 m c (Proc.devRef .tc main_arg2) :=
  (Function.update_of_ne (StableHlo.devRef_ne_of_ne (by decide : main_arg2 ≠ main_v82)) _ _).trans ((StableHlo.after_of_writes_sub hostOps3 _ hostOps3_writes (by decide)).trans ((Function.update_of_ne (StableHlo.devRef_ne_of_ne (by decide : main_arg2 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg2 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg2 ≠ main_v0)) _ _))))))))))))))))))
theorem U18_arg3 (c : Dev nD) : U18 m c (Proc.devRef .tc main_arg3) = U0 m c (Proc.devRef .tc main_arg3) :=
  (Function.update_of_ne (StableHlo.devRef_ne_of_ne (by decide : main_arg3 ≠ main_v82)) _ _).trans ((StableHlo.after_of_writes_sub hostOps3 _ hostOps3_writes (by decide)).trans ((Function.update_of_ne (StableHlo.devRef_ne_of_ne (by decide : main_arg3 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg3 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg3 ≠ main_v0)) _ _))))))))))))))))))
theorem U18_arg4 (c : Dev nD) : U18 m c (Proc.devRef .tc main_arg4) = U0 m c (Proc.devRef .tc main_arg4) :=
  (Function.update_of_ne (StableHlo.devRef_ne_of_ne (by decide : main_arg4 ≠ main_v82)) _ _).trans ((StableHlo.after_of_writes_sub hostOps3 _ hostOps3_writes (by decide)).trans ((Function.update_of_ne (StableHlo.devRef_ne_of_ne (by decide : main_arg4 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg4 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg4 ≠ main_v0)) _ _))))))))))))))))))
theorem U18_arg5 (c : Dev nD) : U18 m c (Proc.devRef .tc main_arg5) = U0 m c (Proc.devRef .tc main_arg5) :=
  (Function.update_of_ne (StableHlo.devRef_ne_of_ne (by decide : main_arg5 ≠ main_v82)) _ _).trans ((StableHlo.after_of_writes_sub hostOps3 _ hostOps3_writes (by decide)).trans ((Function.update_of_ne (StableHlo.devRef_ne_of_ne (by decide : main_arg5 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg5 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg5 ≠ main_v0)) _ _))))))))))))))))))
theorem U18_arg6 (c : Dev nD) : U18 m c (Proc.devRef .tc main_arg6) = U0 m c (Proc.devRef .tc main_arg6) :=
  (Function.update_of_ne (StableHlo.devRef_ne_of_ne (by decide : main_arg6 ≠ main_v82)) _ _).trans ((StableHlo.after_of_writes_sub hostOps3 _ hostOps3_writes (by decide)).trans ((Function.update_of_ne (StableHlo.devRef_ne_of_ne (by decide : main_arg6 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg6 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg6 ≠ main_v0)) _ _))))))))))))))))))
theorem U18_arg7 (c : Dev nD) : U18 m c (Proc.devRef .tc main_arg7) = U0 m c (Proc.devRef .tc main_arg7) :=
  (Function.update_of_ne (StableHlo.devRef_ne_of_ne (by decide : main_arg7 ≠ main_v82)) _ _).trans ((StableHlo.after_of_writes_sub hostOps3 _ hostOps3_writes (by decide)).trans ((Function.update_of_ne (StableHlo.devRef_ne_of_ne (by decide : main_arg7 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg7 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg7 ≠ main_v0)) _ _))))))))))))))))))
theorem U18_arg8 (c : Dev nD) : U18 m c (Proc.devRef .tc main_arg8) = U0 m c (Proc.devRef .tc main_arg8) :=
  (Function.update_of_ne (StableHlo.devRef_ne_of_ne (by decide : main_arg8 ≠ main_v82)) _ _).trans ((StableHlo.after_of_writes_sub hostOps3 _ hostOps3_writes (by decide)).trans ((Function.update_of_ne (StableHlo.devRef_ne_of_ne (by decide : main_arg8 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg8 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg8 ≠ main_v0)) _ _))))))))))))))))))
theorem U18_arg9 (c : Dev nD) : U18 m c (Proc.devRef .tc main_arg9) = U0 m c (Proc.devRef .tc main_arg9) :=
  (Function.update_of_ne (StableHlo.devRef_ne_of_ne (by decide : main_arg9 ≠ main_v82)) _ _).trans ((StableHlo.after_of_writes_sub hostOps3 _ hostOps3_writes (by decide)).trans ((Function.update_of_ne (StableHlo.devRef_ne_of_ne (by decide : main_arg9 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg9 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg9 ≠ main_v0)) _ _))))))))))))))))))
theorem U18_arg10 (c : Dev nD) : U18 m c (Proc.devRef .tc main_arg10) = U0 m c (Proc.devRef .tc main_arg10) :=
  (Function.update_of_ne (StableHlo.devRef_ne_of_ne (by decide : main_arg10 ≠ main_v82)) _ _).trans ((StableHlo.after_of_writes_sub hostOps3 _ hostOps3_writes (by decide)).trans ((Function.update_of_ne (StableHlo.devRef_ne_of_ne (by decide : main_arg10 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg10 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg10 ≠ main_v0)) _ _))))))))))))))))))

end Cert.Kernel.Fr

end
-- ==== Proof.K.Frame.lean ====
/-
  The program's frame: it runs to the end from any memory, nothing faults, and every argument array ends holding
  its launch contents — no host operation and no kernel region writes an argument.
-/
import proofs.«120954_j58265526338342_1_alg».proof.Proof.K.Run
import proofs.«120954_j58265526338342_1_alg».proof.Proof.K.Kept
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_all m ρ (hQ := fun s h c =>
    ⟨(h c _ (Finset.mem_filter.mpr ⟨StableHlo.devRef_mem_tcRefs main_arg0, by decide⟩)).trans (U18_arg0 m c),
     (h c _ (Finset.mem_filter.mpr ⟨StableHlo.devRef_mem_tcRefs main_arg1, by decide⟩)).trans (U18_arg1 m c),
     (h c _ (Finset.mem_filter.mpr ⟨StableHlo.devRef_mem_tcRefs main_arg2, by decide⟩)).trans (U18_arg2 m c),
     (h c _ (Finset.mem_filter.mpr ⟨StableHlo.devRef_mem_tcRefs main_arg3, by decide⟩)).trans (U18_arg3 m c),
     (h c _ (Finset.mem_filter.mpr ⟨StableHlo.devRef_mem_tcRefs main_arg4, by decide⟩)).trans (U18_arg4 m c),
     (h c _ (Finset.mem_filter.mpr ⟨StableHlo.devRef_mem_tcRefs main_arg5, by decide⟩)).trans (U18_arg5 m c),
     (h c _ (Finset.mem_filter.mpr ⟨StableHlo.devRef_mem_tcRefs main_arg6, by decide⟩)).trans (U18_arg6 m c),
     (h c _ (Finset.mem_filter.mpr ⟨StableHlo.devRef_mem_tcRefs main_arg7, by decide⟩)).trans (U18_arg7 m c),
     (h c _ (Finset.mem_filter.mpr ⟨StableHlo.devRef_mem_tcRefs main_arg8, by decide⟩)).trans (U18_arg8 m c),
     (h c _ (Finset.mem_filter.mpr ⟨StableHlo.devRef_mem_tcRefs main_arg9, by decide⟩)).trans (U18_arg9 m c),
     (h c _ (Finset.mem_filter.mpr ⟨StableHlo.devRef_mem_tcRefs main_arg10, by decide⟩)).trans (U18_arg10 m c)⟩)

end Cert.Kernel.Fr

end
-- ==== Proof.KI.Reg0.lean ====
/-
  Kernel region 0 of the program: one grid axis of ten points; at point t the body multiplies rows
  [2000 t, 2000 t + 2000) of a 20000 × 256 left operand by the whole 256 × 256 right operand, both rounded to
  bf16 on the way into the matrix unit, into a zero accumulator, and writes the 2000 × 256 product over the
  output window's staging buffer, which is written back as rows [2000 t, 2000 t + 2000) of the result.
  Stated at ANY contents V of the core's buffers when the region is entered and at any float instance F:
  what each window's staging buffer holds after the body at each point, the body's triple, and the
  per-point obligation the pipeline library asks of a region's body.
-/
import proofs.«120954_j58265526338342_1_alg».proof.Proof.Gen.KernelIdeal.Launch
import proofs.«120954_j58265526338342_1_alg».proof.Proof.Gen.KernelIdeal.Skeleton
import proofs.«120954_j58265526338342_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` stages, read off the entry contents. -/
def blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The whole 2000 × 256 buffer and the whole 256 × 256 buffer as rectangles: the body's only accesses. -/
abbrev lhsRect0 : Rect S2000x256 := Rect.unit (s := S2000x256) ![0, 0] S2000x256.size inb_S2000x256_S2000x256_0_0
abbrev rhsRect0 : Rect S256x256 := Rect.unit (s := S256x256) ![0, 0] S256x256.size inb_S256x256_S256x256_0_0

/-- What the body leaves in the output window's staging buffer, from the two input blocks: its one store, of the
    product of the loaded blocks, over the whole buffer. -/
def res0 (x : Vec F S2000x256 .f32) (w : Vec F S256x256 .f32) : Vec F S2000x256 .f32 :=
  View.canon [⟨lhsRect0, k0_pay1 (View.ld x lhsRect0) (View.ld w rhsRect0)⟩]

/-- The one store covers the buffer. -/
theorem res0_cover (p : Vec F S2000x256 .f32) (y : S2000x256.Idx) :
    ∃ pc ∈ ([⟨lhsRect0, p⟩] : List (View.Piece (Elt F) S2000x256 .f32)), y ∈ pc.1.set :=
  View.cover_of_tiled [⟨lhsRect0, p⟩] S2000x256.size (by rfl) y

set_option maxHeartbeats 1000000 in
/-- The body on whole staging memrefs: the inputs held at `x` and `w`, the output at anything; it ends with the inputs
    as they were and the output at `res0 x w`. -/
theorem body_triple0 (c : Dev nD) (E : Set ℕ) (i : grid0.Coords)
    (a1 : Memref sig .tc .vmem S2000x256 .f32) (h1 : a1.IsWhole) (a2 : Memref sig .tc .vmem S256x256 .f32) (h2 : a2.IsWhole)
    (a3 : Memref sig .tc .vmem S2000x256 .f32) (h3 : a3.IsWhole)
    (x : Vec F S2000x256 .f32) (w : Vec F S256x256 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (res0 x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (res0_cover _)

/-- The region's proof data on core `c`: the arrays as the region finds them; after the body each input window's
    buffer still holds its block and the output window's holds `res0` of the two blocks; the invariant is the scoped
    rest and the generator register; nothing is owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => res0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) :
    (dat0 V c).after 2 t = res0 (blk0 V c 0 t) (blk0 V c 1 t) := by dsimp only [dat0]

/-- An input window's current staging buffer holds its block at every point, whether the pipeline fetched it there
    or not (the right operand is fetched once; its block index never moves). -/
theorem dat0_before0 (c : Dev nD) (t : Fin cfg0.N) (d) : (dat0 V c).before 0 t d = blk0 V c 0 t :=
  ((dat0 V c).before_in_eq_fetched 0 rfl (fun _ => rfl) (fun _ _ _ => rfl)
    (fun t => by rw [dat0_after0]; unfold Dat.blockOf blk0; rw [dat0_A]; try rfl) t d).trans
    (by unfold Dat.fetched Dat.blockOf blk0; rw [dat0_A]; try rfl)
theorem dat0_before1 (c : Dev nD) (t : Fin cfg0.N) (d) : (dat0 V c).before 1 t d = blk0 V c 1 t :=
  ((dat0 V c).before_in_eq_fetched 1 rfl (fun _ => rfl) (fun _ _ _ => rfl)
    (fun t => by rw [dat0_after1]; unfold Dat.blockOf blk0; rw [dat0_A]; try rfl) t d).trans
    (by unfold Dat.fetched Dat.blockOf blk0; rw [dat0_A]; try rfl)

/-- The body at grid point `t` as the pipeline calls it: from the invariant, the core's dues and the three current
    staging buffers (the inputs at their blocks, the output at anything) to the same with the output at `res0`. -/
theorem body_at0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t))) := by
  unfold bodyAt0
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (body_triple0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation for this region, at every point. -/
theorem obl0 (c : Dev nD) : BodyObligation (dat0 (F := F) V c) (defs₀ (F := F)) Variants.none () Set.univ := fun t => by
  rw [bigSep_W0, bigSep_W0]
  exact body_at0 V c t

end Cert.KernelIdeal.Fr

end
-- ==== Proof.KI.Reg1.lean ====
/-
  Kernel region 1 of the program: one grid axis of ten points; at point t the body multiplies rows
  [2000 t, 2000 t + 2000) of a 20000 × 256 left operand by the whole 256 × 256 right operand, both rounded to
  bf16 on the way into the matrix unit, into a zero accumulator, and writes the 2000 × 256 product over the
  output window's staging buffer, which is written back as rows [2000 t, 2000 t + 2000) of the result.
  Stated at ANY contents V of the core's buffers when the region is entered and at any float instance F:
  what each window's staging buffer holds after the body at each point, the body's triple, and the
  per-point obligation the pipeline library asks of a region's body.
-/
import proofs.«120954_j58265526338342_1_alg».proof.Proof.Gen.KernelIdeal.Launch
import proofs.«120954_j58265526338342_1_alg».proof.Proof.Gen.KernelIdeal.Skeleton
import proofs.«120954_j58265526338342_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` stages, read off the entry contents. -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The whole 2000 × 256 buffer and the whole 256 × 256 buffer as rectangles: the body's only accesses. -/
abbrev lhsRect1 : Rect S2000x256 := Rect.unit (s := S2000x256) ![0, 0] S2000x256.size inb_S2000x256_S2000x256_0_0
abbrev rhsRect1 : Rect S256x256 := Rect.unit (s := S256x256) ![0, 0] S256x256.size inb_S256x256_S256x256_0_0

/-- What the body leaves in the output window's staging buffer, from the two input blocks: its one store, of the
    product of the loaded blocks, over the whole buffer. -/
def res1 (x : Vec F S2000x256 .f32) (w : Vec F S256x256 .f32) : Vec F S2000x256 .f32 :=
  View.canon [⟨lhsRect1, k1_pay1 (View.ld x lhsRect1) (View.ld w rhsRect1)⟩]

/-- The one store covers the buffer. -/
theorem res1_cover (p : Vec F S2000x256 .f32) (y : S2000x256.Idx) :
    ∃ pc ∈ ([⟨lhsRect1, p⟩] : List (View.Piece (Elt F) S2000x256 .f32)), y ∈ pc.1.set :=
  View.cover_of_tiled [⟨lhsRect1, p⟩] S2000x256.size (by rfl) y

set_option maxHeartbeats 1000000 in
/-- The body on whole staging memrefs: the inputs held at `x` and `w`, the output at anything; it ends with the inputs
    as they were and the output at `res1 x w`. -/
theorem body_triple1 (c : Dev nD) (E : Set ℕ) (i : grid1.Coords)
    (a1 : Memref sig .tc .vmem S2000x256 .f32) (h1 : a1.IsWhole) (a2 : Memref sig .tc .vmem S256x256 .f32) (h2 : a2.IsWhole)
    (a3 : Memref sig .tc .vmem S2000x256 .f32) (h3 : a3.IsWhole)
    (x : Vec F S2000x256 .f32) (w : Vec F S256x256 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (res1 x w)) -∗ K ⟨⟩))
      ⊢ wp frame (wpE (defs₀ (F := F)) Variants.none c none) E (cc1__matmul_kernel i a1 h1 a2 h2 a3 h3) K := by
  simp only [cc1__matmul_kernel_eq_skeleton]; unfold cc1__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (res1_cover _)

/-- The region's proof data on core `c`: the arrays as the region finds them; after the body each input window's
    buffer still holds its block and the output window's holds `res1` of the two blocks; the invariant is the scoped
    rest and the generator register; nothing is owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => res1 (blk1 V c 0 t) (blk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) :
    (dat1 V c).after 2 t = res1 (blk1 V c 0 t) (blk1 V c 1 t) := by dsimp only [dat1]

/-- An input window's current staging buffer holds its block at every point, whether the pipeline fetched it there
    or not (the right operand is fetched once; its block index never moves). -/
theorem dat1_before0 (c : Dev nD) (t : Fin cfg1.N) (d) : (dat1 V c).before 0 t d = blk1 V c 0 t :=
  ((dat1 V c).before_in_eq_fetched 0 rfl (fun _ => rfl) (fun _ _ _ => rfl)
    (fun t => by rw [dat1_after0]; unfold Dat.blockOf blk1; rw [dat1_A]; try rfl) t d).trans
    (by unfold Dat.fetched Dat.blockOf blk1; rw [dat1_A]; try rfl)
theorem dat1_before1 (c : Dev nD) (t : Fin cfg1.N) (d) : (dat1 V c).before 1 t d = blk1 V c 1 t :=
  ((dat1 V c).before_in_eq_fetched 1 rfl (fun _ => rfl) (fun _ _ _ => rfl)
    (fun t => by rw [dat1_after1]; unfold Dat.blockOf blk1; rw [dat1_A]; try rfl) t d).trans
    (by unfold Dat.fetched Dat.blockOf blk1; rw [dat1_A]; try rfl)

/-- The body at grid point `t` as the pipeline calls it: from the invariant, the core's dues and the three current
    staging buffers (the inputs at their blocks, the output at anything) to the same with the output at `res1`. -/
theorem body_at1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  unfold bodyAt1
  simp only [dat1_before0, dat1_before1]
  rw [show (dat1 V c).Φ t.succ = (dat1 V c).Φ t.castSucc from rfl,
    show (dat1 V c).owesAt () t.succ = (dat1 V c).owesAt () t.castSucc from rfl,
    dat1_after0, dat1_after1, dat1_after2]
  iintro ⟨HΦ, Ho, ⟨%d0, H0⟩, ⟨%d1, H1⟩, ⟨%d2, H2⟩⟩
  iapply (body_triple1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation for this region, at every point. -/
theorem obl1 (c : Dev nD) : BodyObligation (dat1 (F := F) V c) (defs₀ (F := F)) Variants.none () Set.univ := fun t => by
  rw [bigSep_W1, bigSep_W1]
  exact body_at1 V c t

end Cert.KernelIdeal.Fr

end
-- ==== Proof.KI.Reg2.lean ====
/-
  Kernel region 2 of the program: one grid axis of ten points; at point t the body multiplies rows
  [2000 t, 2000 t + 2000) of a 20000 × 256 left operand by the whole 256 × 256 right operand, both rounded to
  bf16 on the way into the matrix unit, into a zero accumulator, and writes the 2000 × 256 product over the
  output window's staging buffer, which is written back as rows [2000 t, 2000 t + 2000) of the result.
  Stated at ANY contents V of the core's buffers when the region is entered and at any float instance F:
  what each window's staging buffer holds after the body at each point, the body's triple, and the
  per-point obligation the pipeline library asks of a region's body.
-/
import proofs.«120954_j58265526338342_1_alg».proof.Proof.Gen.KernelIdeal.Launch
import proofs.«120954_j58265526338342_1_alg».proof.Proof.Gen.KernelIdeal.Skeleton
import proofs.«120954_j58265526338342_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` stages, read off the entry contents. -/
def blk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The whole 2000 × 256 buffer and the whole 256 × 256 buffer as rectangles: the body's only accesses. -/
abbrev lhsRect2 : Rect S2000x256 := Rect.unit (s := S2000x256) ![0, 0] S2000x256.size inb_S2000x256_S2000x256_0_0
abbrev rhsRect2 : Rect S256x256 := Rect.unit (s := S256x256) ![0, 0] S256x256.size inb_S256x256_S256x256_0_0

/-- What the body leaves in the output window's staging buffer, from the two input blocks: its one store, of the
    product of the loaded blocks, over the whole buffer. -/
def res2 (x : Vec F S2000x256 .f32) (w : Vec F S256x256 .f32) : Vec F S2000x256 .f32 :=
  View.canon [⟨lhsRect2, k2_pay1 (View.ld x lhsRect2) (View.ld w rhsRect2)⟩]

/-- The one store covers the buffer. -/
theorem res2_cover (p : Vec F S2000x256 .f32) (y : S2000x256.Idx) :
    ∃ pc ∈ ([⟨lhsRect2, p⟩] : List (View.Piece (Elt F) S2000x256 .f32)), y ∈ pc.1.set :=
  View.cover_of_tiled [⟨lhsRect2, p⟩] S2000x256.size (by rfl) y

set_option maxHeartbeats 1000000 in
/-- The body on whole staging memrefs: the inputs held at `x` and `w`, the output at anything; it ends with the inputs
    as they were and the output at `res2 x w`. -/
theorem body_triple2 (c : Dev nD) (E : Set ℕ) (i : grid2.Coords)
    (a1 : Memref sig .tc .vmem S2000x256 .f32) (h1 : a1.IsWhole) (a2 : Memref sig .tc .vmem S256x256 .f32) (h2 : a2.IsWhole)
    (a3 : Memref sig .tc .vmem S2000x256 .f32) (h3 : a3.IsWhole)
    (x : Vec F S2000x256 .f32) (w : Vec F S256x256 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (res2 x w)) -∗ K ⟨⟩))
      ⊢ wp frame (wpE (defs₀ (F := F)) Variants.none c none) E (cc2__matmul_kernel i a1 h1 a2 h2 a3 h3) K := by
  simp only [cc2__matmul_kernel_eq_skeleton]; unfold cc2__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (res2_cover _)

/-- The region's proof data on core `c`: the arrays as the region finds them; after the body each input window's
    buffer still holds its block and the output window's holds `res2` of the two blocks; the invariant is the scoped
    rest and the generator register; nothing is owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => res2 (blk2 V c 0 t) (blk2 V c 1 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) :
    (dat2 V c).after 2 t = res2 (blk2 V c 0 t) (blk2 V c 1 t) := by dsimp only [dat2]

/-- An input window's current staging buffer holds its block at every point, whether the pipeline fetched it there
    or not (the right operand is fetched once; its block index never moves). -/
theorem dat2_before0 (c : Dev nD) (t : Fin cfg2.N) (d) : (dat2 V c).before 0 t d = blk2 V c 0 t :=
  ((dat2 V c).before_in_eq_fetched 0 rfl (fun _ => rfl) (fun _ _ _ => rfl)
    (fun t => by rw [dat2_after0]; unfold Dat.blockOf blk2; rw [dat2_A]; try rfl) t d).trans
    (by unfold Dat.fetched Dat.blockOf blk2; rw [dat2_A]; try rfl)
theorem dat2_before1 (c : Dev nD) (t : Fin cfg2.N) (d) : (dat2 V c).before 1 t d = blk2 V c 1 t :=
  ((dat2 V c).before_in_eq_fetched 1 rfl (fun _ => rfl) (fun _ _ _ => rfl)
    (fun t => by rw [dat2_after1]; unfold Dat.blockOf blk2; rw [dat2_A]; try rfl) t d).trans
    (by unfold Dat.fetched Dat.blockOf blk2; rw [dat2_A]; try rfl)

/-- The body at grid point `t` as the pipeline calls it: from the invariant, the core's dues and the three current
    staging buffers (the inputs at their blocks, the output at anything) to the same with the output at `res2`. -/
theorem body_at2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d)))
      ⊢ wp frame (wpE (defs₀ (F := F)) Variants.none c none) Set.univ (bodyAt2 t) (fun _ =>
          iprop((dat2 V c).Φ t.succ ∗ (dat2 V c).owesAt () t.succ
            ∗ owns (c : Thread nD τ) (st2_0 t) fullShare ((dat2 V c).after 0 t)
            ∗ owns (c : Thread nD τ) (st2_1 t) fullShare ((dat2 V c).after 1 t)
            ∗ owns (c : Thread nD τ) (st2_2 t) fullShare ((dat2 V c).after 2 t))) := by
  unfold bodyAt2
  simp only [dat2_before0, dat2_before1]
  rw [show (dat2 V c).Φ t.succ = (dat2 V c).Φ t.castSucc from rfl,
    show (dat2 V c).owesAt () t.succ = (dat2 V c).owesAt () t.castSucc from rfl,
    dat2_after0, dat2_after1, dat2_after2]
  iintro ⟨HΦ, Ho, ⟨%d0, H0⟩, ⟨%d1, H1⟩, ⟨%d2, H2⟩⟩
  iapply (body_triple2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation for this region, at every point. -/
theorem obl2 (c : Dev nD) : BodyObligation (dat2 (F := F) V c) (defs₀ (F := F)) Variants.none () Set.univ := fun t => by
  rw [bigSep_W2, bigSep_W2]
  exact body_at2 V c t

end Cert.KernelIdeal.Fr

end
-- ==== Proof.KI.Reg3.lean ====
import proofs.«120954_j58265526338342_1_alg».proof.Proof.Gen.KernelIdeal.Launch
import proofs.«120954_j58265526338342_1_alg».proof.Proof.Gen.KernelIdeal.Skeleton
import proofs.«120954_j58265526338342_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

/-! The fourth kernel region: a grid of 8 × 8 points; at point (i, j) the body multiplies row block i
    of one array by the transpose of row block j of the SAME array and stores the product as block
    (i, j) of the output. This module states what each window's staging buffer holds after the body
    at every point, and the data the pipeline's loop is proved from. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks and the body's result -/

/-- Window `w`'s block at point `t`, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the body leaves in the output's staging buffer, from the two input blocks: its one store, which
    covers the whole buffer. -/
def res3 (a b : Vec F S512x256 .f32) : Vec F S512x512 .f32 :=
  View.canon [⟨Rect.unit (s := S512x512) ![0, 0] S512x512.size inb_S512x512_S512x512_0_0, Gen.k3_pay1 a b⟩]

/-! ## The pipeline's proof data -/

/-- The arrays as the region finds them; after the body at point `t` each input's buffer still at its
    block and the output's at the product of the two; nothing owed. The two input windows read one
    array, so each holds one half of the array's share. -/
def dat3 (c : Dev nD) : Pipeline.Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => res3 (blk3 V c 0 t) (blk3 V c 1 t)
  Φ _ := Pipeline.ΦA spec3 c
  q w := match w with
    | ⟨0, _⟩ => fullShare.left
    | ⟨1, _⟩ => fullShare.right
    | ⟨2, _⟩ => fullShare
  owed _ := 0

theorem dat3_A (c : Dev nD) (w : Fin cfg3.W) : (dat3 V c).A w = V c (Pipeline.arrRef spec3 w) := by
  dsimp only [dat3]

theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) :
    (dat3 V c).after 2 t = res3 (blk3 V c 0 t) (blk3 V c 1 t) := by dsimp only [dat3]

end Cert.KernelIdeal.Fr

end
-- ==== Proof.KI.Chain.lean ====
/-
  The contents of the core's buffers from the launch to the end of the program, item by item: a stretch of host
  operations is a fold over the contents, a kernel region replaces its result array by what its write-backs leave
  (what the region's proof data call the array after its last grid point) and leaves every other buffer alone.
  Each region's proof data are taken at the contents the region is entered from.
-/
import proofs.«120954_j58265526338342_1_alg».proof.Proof.KI.Reg0
import proofs.«120954_j58265526338342_1_alg».proof.Proof.KI.Reg1
import proofs.«120954_j58265526338342_1_alg».proof.Proof.KI.Reg2
import proofs.«120954_j58265526338342_1_alg».proof.Proof.KI.Reg3
import proofs.«120954_j58265526338342_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents from launch to the end

Between two regions the host operations are a fold over the buffers' contents; a region replaces its result
array by what its write-backs leave and touches nothing else. -/

/-- A valuation read at the TensorCore's references. -/
abbrev onTcRefs (W : Dev nD → Valuation τ sig (Elt F)) : (c : Dev nD) → (b : Ref sig .tc) → Buf (Elt F) ((c : Thread nD τ).loc b) :=
  fun c b => W c b

/-- At launch. -/
abbrev U0 (c : Dev nD) : Valuation τ sig (Elt F) := fun b => m (c, b)
/-- What region 0 leaves in its result array. -/
def X0 (c : Dev nD) : Buf (Elt F) ((c : Thread nD τ).loc main_v0) := (dat0 (onTcRefs (U0 m)) c).arrAt 2 cfg0.N
/-- After region 0. -/
abbrev U1 (c : Dev nD) : Valuation τ sig (Elt F) := Function.update (U0 m c) main_v0 (X0 m c)
/-- After the host operations up to region 1. -/
abbrev U3 (c : Dev nD) : Valuation τ sig (Elt F) := StableHlo.after hostOps1_1 (StableHlo.after hostOps1 (U1 m c))
/-- What region 1 leaves in its result array. -/
def X1 (c : Dev nD) : Buf (Elt F) ((c : Thread nD τ).loc main_v18) := (dat1 (onTcRefs (U3 m)) c).arrAt 2 cfg1.N
/-- After region 1. -/
abbrev U4 (c : Dev nD) : Valuation τ sig (Elt F) := Function.update (U3 m c) main_v18 (X1 m c)
/-- After the host operations up to region 2. -/
abbrev U15 (c : Dev nD) : Valuation τ sig (Elt F) :=
  StableHlo.after hostOps2_10 (StableHlo.after hostOps2_9 (StableHlo.after hostOps2_8 (StableHlo.after hostOps2_7
    (StableHlo.after hostOps2_6 (StableHlo.after hostOps2_5 (StableHlo.after hostOps2_4 (StableHlo.after hostOps2_3
      (StableHlo.after hostOps2_2 (StableHlo.after hostOps2_1 (StableHlo.after hostOps2 (U4 m c)))))))))))
/-- What region 2 leaves in its result array. -/
def X2 (c : Dev nD) : Buf (Elt F) ((c : Thread nD τ).loc main_v58) := (dat2 (onTcRefs (U15 m)) c).arrAt 2 cfg2.N
/-- After region 2. -/
abbrev U16 (c : Dev nD) : Valuation τ sig (Elt F) := Function.update (U15 m c) main_v58 (X2 m c)
/-- After the host operations up to region 3. -/
abbrev U17 (c : Dev nD) : Valuation τ sig (Elt F) := StableHlo.after hostOps3 (U16 m c)
/-- What region 3 leaves in its result array. -/
def X3 (c : Dev nD) : Buf (Elt F) ((c : Thread nD τ).loc main_v82) := (dat3 (onTcRefs (U17 m)) c).arrAt 2 cfg3.N
/-- After region 3: at the end. -/
abbrev U18 (c : Dev nD) : Valuation τ sig (Elt F) := Function.update (U17 m c) main_v82 (X3 m c)

/-- What the regions leave, item by item, as the generated conditional frame takes it: only the four result arrays
    are ever read off it. -/
def outs : Outs (F := F) := fun J r c =>
  match J with
  | 1 => U1 m c r
  | 4 => U4 m c r
  | 16 => U16 m c r
  | 18 => U18 m c r
  | _ => U0 m c r

theorem outs_1 (c : Dev nD) : outs m 1 main_v0 c = X0 m c := by
  show Function.update (U0 m c) main_v0 (X0 m c) main_v0 = X0 m c
  exact Function.update_self _ _ _
theorem outs_4 (c : Dev nD) : outs m 4 main_v18 c = X1 m c := by
  show Function.update (U3 m c) main_v18 (X1 m c) main_v18 = X1 m c
  exact Function.update_self _ _ _
theorem outs_16 (c : Dev nD) : outs m 16 main_v58 c = X2 m c := by
  show Function.update (U15 m c) main_v58 (X2 m c) main_v58 = X2 m c
  exact Function.update_self _ _ _
theorem outs_18 (c : Dev nD) : outs m 18 main_v82 c = X3 m c := by
  show Function.update (U17 m c) main_v82 (X3 m c) main_v82 = X3 m c
  exact Function.update_self _ _ _

/-- The generated valuations, at these contents, are the chain above. -/
theorem V1_eq (c : Dev nD) : V1 m (outs m) c = U1 m c := by
  show Function.update (V0 m c) main_v0 (outs m 1 main_v0 c) = _; rw [outs_1]
theorem V3_eq (c : Dev nD) : V3 m (outs m) c = U3 m c := by
  show StableHlo.after hostOps1_1 (StableHlo.after hostOps1 (V1 m (outs m) c)) = _; rw [V1_eq]
theorem V4_eq (c : Dev nD) : V4 m (outs m) c = U4 m c := by
  show Function.update (V3 m (outs m) c) main_v18 (outs m 4 main_v18 c) = _; rw [outs_4, V3_eq]
theorem V15_eq (c : Dev nD) : V15 m (outs m) c = U15 m c := by
  show StableHlo.after hostOps2_10 (StableHlo.after hostOps2_9 (StableHlo.after hostOps2_8 (StableHlo.after hostOps2_7
    (StableHlo.after hostOps2_6 (StableHlo.after hostOps2_5 (StableHlo.after hostOps2_4 (StableHlo.after hostOps2_3
      (StableHlo.after hostOps2_2 (StableHlo.after hostOps2_1 (StableHlo.after hostOps2 (V4 m (outs m) c))))))))))) = _
  rw [V4_eq]
theorem V16_eq (c : Dev nD) : V16 m (outs m) c = U16 m c := by
  show Function.update (V15 m (outs m) c) main_v58 (outs m 16 main_v58 c) = _; rw [outs_16, V15_eq]
theorem V17_eq (c : Dev nD) : V17 m (outs m) c = U17 m c := by
  show StableHlo.after hostOps3 (V16 m (outs m) c) = _; rw [V16_eq]
theorem V18_eq (c : Dev nD) : V18 m (outs m) c = U18 m c := by
  show Function.update (V17 m (outs m) c) main_v82 (outs m 18 main_v82 c) = _; rw [outs_18, V17_eq]

/-! ## The regions' proof data, each at its region's entry contents -/

def pdats : (p : Fin 4) → (c : Dev nD) → Dat τ (Elt F) Unit ℕ (UR sig nD τ) ℕ (cfgs p) c
  | ⟨0, _⟩ => fun c => dat0 (onTcRefs (U0 m)) c
  | ⟨1, _⟩ => fun c => dat1 (onTcRefs (U3 m)) c
  | ⟨2, _⟩ => fun c => dat2 (onTcRefs (U15 m)) c
  | ⟨3, _⟩ => fun c => dat3 (onTcRefs (U17 m)) c

/-- No core owes another anything: no level is assigned. -/
abbrev L₀ : GSem nD τ sig → Finset Unit := fun _ => ∅
abbrev lv₀ : GSem nD τ sig → Unit → ℕ := fun _ _ => 0

/-- What rides beside the buffers from item to item: the core's generator register at some state, and the core owing
    nothing. -/
abbrev Rest (c : Dev nD) : sProp 𝕄 :=
  iprop((∃ r, prngReg c r) ∗ ∃ W, owes (c : Thread nD τ) (0 : CellTallies nD τ sig Unit) W)

end Cert.KernelIdeal.Fr

end
-- ==== Proof.KI.Seg0.lean ====
/-
  Kernel region 0 as one segment of the program's run: entered with every unscoped buffer of the core held whole
  at the contents before it, left with the same buffers at the contents after it (only its result array changed).
-/
import proofs.«120954_j58265526338342_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## Region 0 as a segment of the run -/

/-- At region 0's exit each of its arrays holds what the pipeline leaves: the result array what the write-backs
    made of it, the two operands what they held (an input array is never written). -/
theorem exit_arr0 (c : Dev nD) (w : Fin cfg0.W) :
    (pdats m 0 c).arrAt w cfg0.N = onTcRefs (U1 m) c (Pipeline.arrRef spec0 w) :=
  match w with
  | ⟨0, _⟩ => ((pdats m 0 c).arrAt_in 0 rfl _).trans
      ((dat0_A (onTcRefs (U0 m)) c 0).trans (Function.update_of_ne (StableHlo.devRef_ne_of_ne (by decide)) _ _).symm)
  | ⟨1, _⟩ => ((pdats m 0 c).arrAt_in 1 rfl _).trans
      ((dat0_A (onTcRefs (U0 m)) c 1).trans (Function.update_of_ne (StableHlo.devRef_ne_of_ne (by decide)) _ _).symm)
  | ⟨2, _⟩ => by
      show X0 m c = Function.update (U0 m c) main_v0 (X0 m c) main_v0
      rw [Function.update_self]
/-- Every other buffer is as at entry. -/
theorem exit_rest0 (c : Dev nD) (b : Ref sig .tc) (hb : b ∉ Finset.univ.image (Pipeline.arrRef spec0)) :
    onTcRefs (U1 m) c b = onTcRefs (U0 m) c b :=
  Function.update_of_ne (StableHlo.devRef_ne_of_ne fun e => hb (Finset.mem_image.mpr ⟨2, Finset.mem_univ _, e.symm⟩)) _ _

set_option backward.isDefEq.respectTransparency.types false in
/-- Region 0 over the thread state "every unscoped buffer at the item's contents, the generator register at some
    state, nothing owed": its arrays are split out of the unscoped buffers on entry and put back, the result array at its
    new contents, on exit; the generator register goes into the kernel's invariant and comes back. -/
def reg0 : RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (obl0 (onTcRefs (U0 m)) c).loose
  hwaits := Pipeline.hwaits_of_owed_zero _ _ _ _ L₀ lv₀ 0 fun _ _ => rfl
  pre c := iprop(StableHlo.held (c : Thread nD τ) (Pipeline.ucRefs τ sig) (U0 m c) ∗ Rest c)
  post c := iprop(StableHlo.held (c : Thread nD τ) (Pipeline.ucRefs τ sig) (U1 m c) ∗ Rest c)
  X c := iprop(∃ r, prngReg c r)
  Y c := iprop(∃ r, prngReg c r)
  Z c := Pipeline.unscopedRest (Ix := Unit) (Name := ℕ) (U := UR sig nD τ) (Lvl := ℕ) spec0 c (onTcRefs (U0 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (onTcRefs (U0 m) c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 0 c).Φ 0 = Pipeline.ΦA spec0 c from rfl]; unfold Pipeline.ΦA
    iintro ⟨Hprng, -, Hscoped⟩
    isplitl [Hscoped]; · iexact Hscoped
    iexact Hprng
  hout c := by
    rw [Pipeline.ownSems0_none, show (pdats m 0 c).Φ (Fin.last _) = Pipeline.ΦA spec0 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (onTcRefs (U0 m) c) (onTcRefs (U1 m) c) ((pdats m 0 c).arrAt · cfg0.N) (exit_arr0 m c) (exit_rest0 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

end Cert.KernelIdeal.Fr

end
-- ==== Proof.KI.Seg1.lean ====
/-
  Kernel region 1 as one segment of the program's run: entered with every unscoped buffer of the core held whole
  at the contents before it, left with the same buffers at the contents after it (only its result array changed).
-/
import proofs.«120954_j58265526338342_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## Region 1 as a segment of the run -/

/-- At region 1's exit each of its arrays holds what the pipeline leaves: the result array what the write-backs
    made of it, the two operands what they held (an input array is never written). -/
theorem exit_arr1 (c : Dev nD) (w : Fin cfg1.W) :
    (pdats m 1 c).arrAt w cfg1.N = onTcRefs (U4 m) c (Pipeline.arrRef spec1 w) :=
  match w with
  | ⟨0, _⟩ => ((pdats m 1 c).arrAt_in 0 rfl _).trans
      ((dat1_A (onTcRefs (U3 m)) c 0).trans (Function.update_of_ne (StableHlo.devRef_ne_of_ne (by decide)) _ _).symm)
  | ⟨1, _⟩ => ((pdats m 1 c).arrAt_in 1 rfl _).trans
      ((dat1_A (onTcRefs (U3 m)) c 1).trans (Function.update_of_ne (StableHlo.devRef_ne_of_ne (by decide)) _ _).symm)
  | ⟨2, _⟩ => by
      show X1 m c = Function.update (U3 m c) main_v18 (X1 m c) main_v18
      rw [Function.update_self]
/-- Every other buffer is as at entry. -/
theorem exit_rest1 (c : Dev nD) (b : Ref sig .tc) (hb : b ∉ Finset.univ.image (Pipeline.arrRef spec1)) :
    onTcRefs (U4 m) c b = onTcRefs (U3 m) c b :=
  Function.update_of_ne (StableHlo.devRef_ne_of_ne fun e => hb (Finset.mem_image.mpr ⟨2, Finset.mem_univ _, e.symm⟩)) _ _

set_option backward.isDefEq.respectTransparency.types false in
/-- Region 1 over the thread state "every unscoped buffer at the item's contents, the generator register at some
    state, nothing owed": its arrays are split out of the unscoped buffers on entry and put back, the result array at its
    new contents, on exit; the generator register goes into the kernel's invariant and comes back. -/
def reg1 : RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (obl1 (onTcRefs (U3 m)) c).loose
  hwaits := Pipeline.hwaits_of_owed_zero _ _ _ _ L₀ lv₀ 1 fun _ _ => rfl
  pre c := iprop(StableHlo.held (c : Thread nD τ) (Pipeline.ucRefs τ sig) (U3 m c) ∗ Rest c)
  post c := iprop(StableHlo.held (c : Thread nD τ) (Pipeline.ucRefs τ sig) (U4 m c) ∗ Rest c)
  X c := iprop(∃ r, prngReg c r)
  Y c := iprop(∃ r, prngReg c r)
  Z c := Pipeline.unscopedRest (Ix := Unit) (Name := ℕ) (U := UR sig nD τ) (Lvl := ℕ) spec1 c (onTcRefs (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (onTcRefs (U3 m) c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 1 c).Φ 0 = Pipeline.ΦA spec1 c from rfl]; unfold Pipeline.ΦA
    iintro ⟨Hprng, -, Hscoped⟩
    isplitl [Hscoped]; · iexact Hscoped
    iexact Hprng
  hout c := by
    rw [Pipeline.ownSems0_none, show (pdats m 1 c).Φ (Fin.last _) = Pipeline.ΦA spec1 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (onTcRefs (U3 m) c) (onTcRefs (U4 m) c) ((pdats m 1 c).arrAt · cfg1.N) (exit_arr1 m c) (exit_rest1 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

end Cert.KernelIdeal.Fr

end
-- ==== Proof.KI.Seg2.lean ====
/-
  Kernel region 2 as one segment of the program's run: entered with every unscoped buffer of the core held whole
  at the contents before it, left with the same buffers at the contents after it (only its result array changed).
-/
import proofs.«120954_j58265526338342_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## Region 2 as a segment of the run -/

/-- At region 2's exit each of its arrays holds what the pipeline leaves: the result array what the write-backs
    made of it, the two operands what they held (an input array is never written). -/
theorem exit_arr2 (c : Dev nD) (w : Fin cfg2.W) :
    (pdats m 2 c).arrAt w cfg2.N = onTcRefs (U16 m) c (Pipeline.arrRef spec2 w) :=
  match w with
  | ⟨0, _⟩ => ((pdats m 2 c).arrAt_in 0 rfl _).trans
      ((dat2_A (onTcRefs (U15 m)) c 0).trans (Function.update_of_ne (StableHlo.devRef_ne_of_ne (by decide)) _ _).symm)
  | ⟨1, _⟩ => ((pdats m 2 c).arrAt_in 1 rfl _).trans
      ((dat2_A (onTcRefs (U15 m)) c 1).trans (Function.update_of_ne (StableHlo.devRef_ne_of_ne (by decide)) _ _).symm)
  | ⟨2, _⟩ => by
      show X2 m c = Function.update (U15 m c) main_v58 (X2 m c) main_v58
      rw [Function.update_self]
/-- Every other buffer is as at entry. -/
theorem exit_rest2 (c : Dev nD) (b : Ref sig .tc) (hb : b ∉ Finset.univ.image (Pipeline.arrRef spec2)) :
    onTcRefs (U16 m) c b = onTcRefs (U15 m) c b :=
  Function.update_of_ne (StableHlo.devRef_ne_of_ne fun e => hb (Finset.mem_image.mpr ⟨2, Finset.mem_univ _, e.symm⟩)) _ _

set_option backward.isDefEq.respectTransparency.types false in
/-- Region 2 over the thread state "every unscoped buffer at the item's contents, the generator register at some
    state, nothing owed": its arrays are split out of the unscoped buffers on entry and put back, the result array at its
    new contents, on exit; the generator register goes into the kernel's invariant and comes back. -/
def reg2 : RegionSeg (pcfgs (F := F)) adm (pdats m) () defs₀ Variants.none L₀ lv₀ 2 where
  win := launch2.win.to₀
  block_pos := launch2.block_pos
  stage_whole := launch2.stage_whole
  K := PEmpty
  osem k := k.elim
  ho := Pipeline.OwnSemFacts.none _
  hbody c := (obl2 (onTcRefs (U15 m)) c).loose
  hwaits := Pipeline.hwaits_of_owed_zero _ _ _ _ L₀ lv₀ 2 fun _ _ => rfl
  pre c := iprop(StableHlo.held (c : Thread nD τ) (Pipeline.ucRefs τ sig) (U15 m c) ∗ Rest c)
  post c := iprop(StableHlo.held (c : Thread nD τ) (Pipeline.ucRefs τ sig) (U16 m c) ∗ Rest c)
  X c := iprop(∃ r, prngReg c r)
  Y c := iprop(∃ r, prngReg c r)
  Z c := Pipeline.unscopedRest (Ix := Unit) (Name := ℕ) (U := UR sig nD τ) (Lvl := ℕ) spec2 c (onTcRefs (U15 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (onTcRefs (U15 m) c) fun _ => rfl
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 2 c).Φ 0 = Pipeline.ΦA spec2 c from rfl]; unfold Pipeline.ΦA
    iintro ⟨Hprng, -, Hscoped⟩
    isplitl [Hscoped]; · iexact Hscoped
    iexact Hprng
  hout c := by
    rw [Pipeline.ownSems0_none, show (pdats m 2 c).Φ (Fin.last _) = Pipeline.ΦA spec2 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (onTcRefs (U15 m) c) (onTcRefs (U16 m) c) ((pdats m 2 c).arrAt · cfg2.N) (exit_arr2 m c) (exit_rest2 m c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

end Cert.KernelIdeal.Fr

end
-- ==== Proof.KI.Reg3Body.lean ====
import proofs.«120954_j58265526338342_1_alg».proof.Proof.KI.Reg3
import Idealize.ShloMosaic.Lib.Pipeline.Value

/-! The body of the fourth kernel region at one grid point. Each input buffer holds its window's block
    of the shared array (for the first input also at the points that do not fetch it, where the block
    index has not moved); the body reads both, never uses what the output buffer held, and overwrites
    the whole output buffer with the product of the first block and the transpose of the second. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the two input buffers -/

/-- The first input's current staging buffer holds its block at every point, although the block is
    fetched only when the row coordinate moves: where it is not fetched the block index is the one of
    the point before, and the body left the block in place there. -/
theorem before3_0 (c : Dev nD) (t : Fin cfg3.N) (d) : (dat3 V c).before 0 t d = blk3 V c 0 t :=
  ((dat3 V c).before_in_eq_fetched 0 rfl (fun _ => rfl) (fun _ _ _ => rfl)
    (fun t => by rw [dat3_after0]; unfold Dat.blockOf blk3; rw [dat3_A]; try rfl) t d).trans
    (by unfold Dat.fetched Dat.blockOf blk3; rw [dat3_A]; try rfl)

/-- The second input is fetched at every point. -/
theorem before3_1 (c : Dev nD) (t : Fin cfg3.N) (d) : (dat3 V c).before 1 t d = blk3 V c 1 t :=
  ((dat3 V c).before_in_eq_fetched 1 rfl (fun _ => rfl) (fun _ _ _ => rfl)
    (fun t => by rw [dat3_after1]; unfold Dat.blockOf blk3; rw [dat3_A]; try rfl) t d).trans
    (by unfold Dat.fetched Dat.blockOf blk3; rw [dat3_A]; try rfl)

/-! ## The body's triple -/

/-- The output's one store covers its buffer. -/
theorem cover3 (p : Vec F S512x512 .f32) (y : S512x512.Idx) :
    ∃ pc ∈ ([⟨Rect.unit (s := S512x512) ![0, 0] S512x512.size inb_S512x512_S512x512_0_0, p⟩] :
      List (View.Piece (Elt F) S512x512 .f32)), y ∈ pc.1.set :=
  View.cover_of_tiled [⟨Rect.unit (s := S512x512) ![0, 0] S512x512.size inb_S512x512_S512x512_0_0, p⟩] S512x512.size (by rfl) y

/-- A load through the whole-buffer rectangle reads the buffer. -/
theorem ld_whole3 (x : Vec F S512x256 .f32) :
    View.ld x (Rect.unit (s := S512x256) ![0, 0] S512x256.size inb_S512x256_S512x256_0_0) = x :=
  View.ld_unit_zero (S := S512x256) (funext fun a => by fin_cases a <;> rfl) inb_S512x256_S512x256_0_0 x

set_option maxHeartbeats 1000000 in
/-- The body on whole staging buffers, the inputs' reading `x0` and `x1` and the output's holding
    anything, ends with the inputs' as they were and the output's at the product of the two. -/
theorem sound_kernel3 (c : Dev nD) (E : Set ℕ) (i : grid3.Coords)
    (arg0 : Memref sig .tc .vmem S512x256 .f32) (harg0 : arg0.IsWhole)
    (arg1 : Memref sig .tc .vmem S512x256 .f32) (harg1 : arg1.IsWhole)
    (arg2 : Memref sig .tc .vmem S512x512 .f32) (harg2 : arg2.IsWhole)
    (x0 x1 : Vec F S512x256 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (res3 x0 x1)) -∗ K ⟨⟩))
      ⊢ wp frame (wpE (defs₀ (F := F)) Variants.none c none) E (cc3__ss_kernel i arg0 harg0 arg1 harg1 arg2 harg2) K := by
  simp only [cc3__ss_kernel_eq_skeleton]; unfold cc3__ss_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover3 _)).trans ?_
  unfold res3
  rw [View.readAt_eq_ld, View.readAt_eq_ld, ld_whole3, ld_whole3]

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: both inputs' buffers hold their blocks, the output's buffer holds something
    the body never reads; the invariant and what the core owes pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    dat3_after0, dat3_after1, dat3_after2]
  iintro ⟨HΦ, Ho, ⟨%d0, H0⟩, ⟨%d1, H1⟩, ⟨%d2, H2⟩⟩
  iapply (sound_kernel3 c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's loop, at every point. -/
theorem obl3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Reg3Arr.lean ====
import proofs.«120954_j58265526338342_1_alg».proof.Proof.KI.Reg3

/-! Entering and leaving the fourth kernel region. Its two input windows read ONE array, so on entry
    that array's full share is split into two halves, one per window; the pipeline never writes an
    input's array, so on exit both halves still hold the entry contents and recombine to the full
    share. The output array is held whole throughout and ends at what the write-backs left. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The region's arrays among the core's unscoped buffers -/

/-- The two input windows read ONE array, so the buffers behind the three windows' arrays are two. -/
theorem img3 : Finset.univ.image (Pipeline.arrRef spec3) = {main_v81, main_v82} := by decide

theorem ne3 : main_v81 ∉ ({main_v82} : Finset (Ref sig .tc)) := by decide

/-- The core's unscoped buffers are the two buffers behind the region's arrays and the rest. -/
theorem unscoped_split3 (c : Dev nD) (Vc : (b : Ref sig .tc) → Buf (Elt F) ((c : Thread nD τ).loc b)) :
    (unscopedBufs c Vc : sProp 𝕄) = iprop(Pipeline.arrBufs spec3 c Vc ∗ Pipeline.unscopedRest spec3 c Vc) := by
  classical
  have hA : Finset.univ.image (Pipeline.arrRef spec3) ⊆ Finset.univ.filter fun b : Ref sig .tc => ¬ b.isScoped := fun b hb => by
    obtain ⟨w, -, rfl⟩ := Finset.mem_image.mp hb
    exact Finset.mem_filter.mpr ⟨Finset.mem_univ _, by simp [winFacts₀3.arr_unscoped w]⟩
  unfold unscopedBufs Pipeline.unscopedRest Pipeline.arrBufs
  rw [bigSep_sdiff_split hA]
  rfl

/-- The two buffers, each whole at the full share. -/
theorem arrBufs3 (c : Dev nD) (Vc : (b : Ref sig .tc) → Buf (Elt F) ((c : Thread nD τ).loc b)) :
    (Pipeline.arrBufs spec3 c Vc : sProp 𝕄)
      = iprop((((c : Thread nD τ).loc main_v81) ↦{fullShare} Vc main_v81) ∗ (((c : Thread nD τ).loc main_v82) ↦{fullShare} Vc main_v82)) := by
  unfold Pipeline.arrBufs
  rw [img3, bigSep_insert ne3, bigSep_singleton]
  rfl

/-- The proof data's arrays, window by window: the shared input array at one half of its share for each
    of the two windows on it, the output array at the full share. -/
theorem arrays3 (c : Dev nD) (G : (w : Fin cfg3.W) → Buf (Elt F) ((cfg3.win w).arr.view.loc (c.tc : Thread nD τ))) :
    ((dat3 V c).arrays G : sProp 𝕄)
      = iprop((((c : Thread nD τ).loc main_v81) ↦{fullShare.left} G 0) ∗ (((c : Thread nD τ).loc main_v81) ↦{fullShare.right} G 1)
          ∗ (((c : Thread nD τ).loc main_v82) ↦{fullShare} G 2)) := by
  unfold Dat.arrays
  rw [bigSep_W3, (arr_whole3 0).set_eq_univ, (arr_whole3 2).set_eq_univ]
  rfl

/-! ## Entering and leaving the region -/

/-- Entering: the shared input array's full share is split in two halves, one for each window on it. -/
theorem enter3 (c : Dev nD) :
    (unscopedBufs c (V c) : sProp 𝕄)
      ⊢ iprop((dat3 V c).arrays ((dat3 V c).arrAt · 0) ∗ Pipeline.unscopedRest spec3 c (V c)) := by
  rw [unscoped_split3, arrBufs3, arrays3]
  rw [show (dat3 V c).arrAt 0 0 = V c main_v81 from dat3_A V c 0,
    show (dat3 V c).arrAt 1 0 = V c main_v81 from dat3_A V c 1,
    show (dat3 V c).arrAt 2 0 = V c main_v82 from dat3_A V c 2]
  iintro ⟨⟨H81, H82⟩, HR⟩
  ihave H := (pointsTo_share (PosShare.mem_left_op_right fullShare)).1 $$ H81
  icases H with ⟨Hl, Hr⟩
  isplitr [HR]
  · isplitl [Hl]; · iexact Hl
    isplitl [Hr]; · iexact Hr
    iexact H82
  · iexact HR

/-- Leaving: an input window's array is never written, so both halves still hold the entry contents and
    recombine to the full share; the output array holds what the write-backs left. -/
theorem leave3 (c : Dev nD) (V' : (b : Ref sig .tc) → Buf (Elt F) ((c : Thread nD τ).loc b))
    (hout : V' main_v82 = (dat3 V c).arrAt 2 cfg3.N) (hrest : ∀ b : Ref sig .tc, b ≠ main_v82 → V' b = V c b) :
    iprop((dat3 V c).arrays ((dat3 V c).arrAt · cfg3.N) ∗ Pipeline.unscopedRest spec3 c (V c))
      ⊢ (unscopedBufs c V' : sProp 𝕄) := by
  rw [unscoped_split3, arrBufs3, arrays3]
  rw [((dat3 V c).arrAt_in 0 rfl cfg3.N).trans (dat3_A V c 0),
    ((dat3 V c).arrAt_in 1 rfl cfg3.N).trans (dat3_A V c 1), ← hout,
    show V' main_v81 = V c main_v81 from hrest main_v81 (by decide)]
  have hR : (Pipeline.unscopedRest spec3 c (V c) : sProp 𝕄) = Pipeline.unscopedRest spec3 c V' := by
    unfold Pipeline.unscopedRest
    refine bigSep_congr fun b hb => ?_
    rw [hrest b fun e => (Finset.mem_sdiff.mp hb).2 (by rw [img3, e]; decide)]
  rw [hR]
  iintro ⟨⟨Hl, Hr, H82⟩, HR⟩
  isplitr [HR]
  · isplitl [Hl Hr]
    · iapply (pointsTo_share (PosShare.mem_left_op_right fullShare)).2
      isplitl [Hl]; · iexact Hl
      iexact Hr
    · iexact H82
  · iexact HR

end Cert.KernelIdeal.Fr

end
-- ==== Proof.KI.Seg3.lean ====
/-
  Kernel region 3 as one segment of the program's run: entered with every unscoped buffer of the core held whole
  at the contents before it, left with the same buffers at the contents after it (only its result array changed).
  Its two input windows stage blocks of ONE array, so that array's share is dealt between them on entry and put
  together again on exit.
-/
import proofs.«120954_j58265526338342_1_alg».proof.Proof.KI.Chain
import proofs.«120954_j58265526338342_1_alg».proof.Proof.KI.Reg3Body
import proofs.«120954_j58265526338342_1_alg».proof.Proof.KI.Reg3Arr
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- After region 3 its result array holds what the write-backs made of it, -/
theorem exit_out3 (c : Dev nD) : onTcRefs (U18 m) c main_v82 = (dat3 (onTcRefs (U17 m)) c).arrAt 2 cfg3.N := by
  show Function.update (U17 m c) main_v82 (X3 m c) main_v82 = X3 m c
  rw [Function.update_self]
/-- and every other buffer is as at entry. -/
theorem exit_rest3 (c : Dev nD) (b : Ref sig .tc) (hb : b ≠ main_v82) : onTcRefs (U18 m) c b = onTcRefs (U17 m) c b :=
  Function.update_of_ne (StableHlo.devRef_ne_of_ne hb) _ _

set_option backward.isDefEq.respectTransparency.types false in
/-- Region 3 over the thread state "every unscoped buffer at the item's contents, the generator register at some
    state, nothing owed". -/
def reg3 : RegionSeg (pcfgs (F := F)) adm (pdats m) () defs₀ Variants.none L₀ lv₀ 3 where
  win := winFacts₀3
  block_pos := block_pos3
  stage_whole := stage_whole3
  K := PEmpty
  osem k := k.elim
  ho := Pipeline.OwnSemFacts.none _
  hbody c := (obl3 (onTcRefs (U17 m)) c).loose
  hwaits := Pipeline.hwaits_of_owed_zero _ _ _ _ L₀ lv₀ 3 fun _ _ => rfl
  pre c := iprop(StableHlo.held (c : Thread nD τ) (Pipeline.ucRefs τ sig) (U17 m c) ∗ Rest c)
  post c := iprop(StableHlo.held (c : Thread nD τ) (Pipeline.ucRefs τ sig) (U18 m c) ∗ Rest c)
  X c := iprop(∃ r, prngReg c r)
  Y c := iprop(∃ r, prngReg c r)
  Z c := Pipeline.unscopedRest (Ix := Unit) (Name := ℕ) (U := UR sig nD τ) (Lvl := ℕ) spec3 c (onTcRefs (U17 m) c)
  hentry c := by
    rw [Pipeline.ownSems0_none]
    have hsplit := enter3 (onTcRefs (U17 m)) c
    rw [Pipeline.unscopedBufs_held] at hsplit
    iintro ⟨⟨Hbufs, Hprng, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 3 c).Φ 0 = Pipeline.ΦA spec3 c from rfl]; unfold Pipeline.ΦA
    iintro ⟨Hprng, -, Hscoped⟩
    isplitl [Hscoped]; · iexact Hscoped
    iexact Hprng
  hout c := by
    rw [Pipeline.ownSems0_none, show (pdats m 3 c).Φ (Fin.last _) = Pipeline.ΦA spec3 c from rfl]; unfold Pipeline.ΦA
    iintro ⟨Hscoped, Hprng⟩
    isplitl [Hprng]; · iexact Hprng
    isplitr; · iempintro
    iexact Hscoped
  hexit c := by
    have hjoin := leave3 (onTcRefs (U17 m)) c (onTcRefs (U18 m) c) (exit_out3 m c) (exit_rest3 m c)
    rw [Pipeline.unscopedBufs_held] at hjoin
    iintro ⟨Harr, Howes, Hprng, Hrest⟩
    imodintro
    isplitl [Harr Hrest]
    · iapply hjoin
      isplitl [Harr]; · iexact Harr
      iexact Hrest
    isplitl [Hprng]; · iexact Hprng
    unfold Pipeline.Dat.owesAt Pipeline.owesWithin
    icases Howes with ⟨%W, -, Howes⟩; iexists W; iexact Howes

end Cert.KernelIdeal.Fr

end
-- ==== Proof.KI.Run.lean ====
/-
  The whole program as a list of segments — the four kernel regions among fourteen stretches of host operations —
  launched from any memory: every weakly fair execution terminates, nothing faults, and the final memory holds
  every unscoped buffer of each core at the end of the chain of contents (so: each argument as launched, each
  result at the chain's term for it).
-/
import proofs.«120954_j58265526338342_1_alg».proof.Proof.KI.Seg0
import proofs.«120954_j58265526338342_1_alg».proof.Proof.KI.Seg1
import proofs.«120954_j58265526338342_1_alg».proof.Proof.KI.Seg2
import proofs.«120954_j58265526338342_1_alg».proof.Proof.KI.Seg3
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A stretch of host operations as a segment, from the contents `W`: it ends at the fold of its operations. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ Variants.none L₀ lv₀ :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- The program's items in order. -/
abbrev items : List (Seg (pcfgs (F := F)) adm (pdats m) () defs₀ Variants.none L₀ lv₀) :=
  [ .region (reg0 m), .host (hostSeg hostOps1 hostOps1_sub hostOps1_fresh fun c => U1 m c), .host (hostSeg hostOps1_1 hostOps1_1_sub hostOps1_1_fresh fun c => StableHlo.after hostOps1 (U1 m c)),
    .region (reg1 m), .host (hostSeg hostOps2 hostOps2_sub hostOps2_fresh fun c => U4 m c),
    .host (hostSeg hostOps2_1 hostOps2_1_sub hostOps2_1_fresh fun c => StableHlo.after hostOps2 (U4 m c)),
    .host (hostSeg hostOps2_2 hostOps2_2_sub hostOps2_2_fresh fun c => StableHlo.after hostOps2_1 (StableHlo.after hostOps2 (U4 m c))),
    .host (hostSeg hostOps2_3 hostOps2_3_sub hostOps2_3_fresh fun c => StableHlo.after hostOps2_2 (StableHlo.after hostOps2_1 (StableHlo.after hostOps2 (U4 m c)))),
    .host (hostSeg hostOps2_4 hostOps2_4_sub hostOps2_4_fresh fun c => StableHlo.after hostOps2_3 (StableHlo.after hostOps2_2 (StableHlo.after hostOps2_1 (StableHlo.after hostOps2 (U4 m c))))),
    .host (hostSeg hostOps2_5 hostOps2_5_sub hostOps2_5_fresh fun c => StableHlo.after hostOps2_4 (StableHlo.after hostOps2_3 (StableHlo.after hostOps2_2 (StableHlo.after hostOps2_1 (StableHlo.after hostOps2 (U4 m c)))))),
    .host (hostSeg hostOps2_6 hostOps2_6_sub hostOps2_6_fresh fun c => StableHlo.after hostOps2_5 (StableHlo.after hostOps2_4 (StableHlo.after hostOps2_3 (StableHlo.after hostOps2_2 (StableHlo.after hostOps2_1 (StableHlo.after hostOps2 (U4 m c))))))),
    .host (hostSeg hostOps2_7 hostOps2_7_sub hostOps2_7_fresh fun c => StableHlo.after hostOps2_6 (StableHlo.after hostOps2_5 (StableHlo.after hostOps2_4 (StableHlo.after hostOps2_3 (StableHlo.after hostOps2_2 (StableHlo.after hostOps2_1 (StableHlo.after hostOps2 (U4 m c)))))))),
    .host (hostSeg hostOps2_8 hostOps2_8_sub hostOps2_8_fresh fun c => StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 (U4 m c))))))))),
    .host (hostSeg hostOps2_9 hostOps2_9_sub hostOps2_9_fresh fun c => StableHlo.after hostOps2_8 (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 (U4 m c)))))))))),
    .host (hostSeg hostOps2_10 hostOps2_10_sub hostOps2_10_fresh fun c => StableHlo.after hostOps2_9 (StableHlo.after hostOps2_8 (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 (U4 m c))))))))))),
    .region (reg2 m), .host (hostSeg hostOps3 hostOps3_sub hostOps3_fresh fun c => U16 m c),
    .region (reg3 m) ]

set_option backward.isDefEq.respectTransparency.types false in
/-- THE RUN: from any memory `m` with every counter at zero, every weakly fair execution of the program terminates
    without a fault, and any property of the final memory that follows from "every unscoped buffer of every core holds
    the chain's last contents" holds of it. -/
theorem run_all (ρ : Dev nD → PrngReg) {Q : PUnit × MemSt nD τ sig (Elt F) → Prop}
    (hQ : ∀ s : MemSt nD τ sig (Elt F),
      (∀ c : Dev nD, ∀ b ∈ Pipeline.ucRefs τ sig, s.mem ((c : Thread nD τ).1, b) = U18 m c b) → Q (⟨⟩, s)) :
    θ_run defs (onTc (τ := τ) (main (F := F))) ⟨m, fun _ => 0, ρ⟩ Q := by
  refine Pipeline.θ_run_regions_kit (pcfgs (F := F)) adm (pdats m) () cellOf_inj emb₁ defs₀ Variants.none L₀ lv₀ m ρ main (items m)
    (fun c Q => by
      rewrite [main_chain c, Seg.run_eq_chain,
        show (items m).map Seg.prog = [
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10,
          Prog.lift (.customCall (Pipeline.entry 2) ()),
          StableHlo.seq hostOps3,
          Prog.lift (.customCall (Pipeline.entry 3) ()) ] from rfl]
      exact .rfl)
    (by simp only [items, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (U0 m c) ∗ Rest c))
    (Tₙ := fun c => iprop(StableHlo.held (c : Thread nD τ) (Pipeline.ucRefs τ sig) (U18 m c) ∗ ∃ r, prngReg c r))
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun c => ?_⟩)
    (hinit := ?_)
    (QY := fun c s => ∀ b ∈ Pipeline.ucRefs τ sig, s.mem ((c : Thread nD τ).1, b) = U18 m c b)
    (hfin := fun c s' => ?_) (hQ := hQ)
  · -- the launch element is the pipeline library's, with no ghost resource beside it
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the last item's state is the final one: the buffers, the register, and the core owing nothing
    show iprop(StableHlo.held (c : Thread nD τ) (Pipeline.ucRefs τ sig) (U18 m c) ∗ Rest c)
      ⊢ iprop((StableHlo.held (c : Thread nD τ) (Pipeline.ucRefs τ sig) (U18 m c) ∗ ∃ r, prngReg c r)
          ∗ ∃ W, owes (c : Thread nD τ) (0 : CellTallies nD τ sig Unit) W)
    iintro ⟨Hh, Hp, Ho⟩
    isplitl [Hh Hp]
    · isplitl [Hh]; · iexact Hh
      iexact Hp
    iexact Ho
  · -- the launch deals every core its unscoped buffers at the launch memory, its register, and no dues
    refine Pipeline.initEach L₀ lv₀ fun c => ?_
    rw [show unscopedBufs c (fun b => m ((c : Thread nD τ).loc b)) = StableHlo.held (c : Thread nD τ) (Pipeline.ucRefs τ sig) (U0 m c)
      from Pipeline.unscopedBufs_held c (U0 m c)]
    iintro ⟨⟨Hh, -, HO, -, Hp, -⟩, -⟩
    imodintro
    isplitl [Hh]; · iexact Hh
    isplitl [Hp]; · iexists _; iexact Hp
    iexists ∅; iexact HO
  · -- the buffers held at the end say what the final memory holds
    iintro ⟨⟨Hh, -⟩, HSI⟩
    unfold StableHlo.held
    imodintro
    iapply (pointsTo_read_all (Pipeline.ucRefs τ sig) (fun b => ((c : Thread nD τ).1, b)) (U18 m c) s')
    isplitl [Hh] <;> iassumption

end Cert.KernelIdeal.Fr

end
-- ==== Proof.KI.Kept.lean ====
/-
  Which buffers each item of the program leaves alone: a stretch of host operations writes only its own result
  buffers and a kernel region only its result array, so an argument array holds its launch contents at every
  item, and a result computed by one stretch is still there after the later items that do not write it.
-/
import proofs.«120954_j58265526338342_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem U1_arg1 (c : Dev nD) : U1 m c (Proc.devRef .tc main_arg1) = U0 m c (Proc.devRef .tc main_arg1) :=
  (Function.update_of_ne (StableHlo.devRef_ne_of_ne (by decide : main_arg1 ≠ main_v0)) _ _)
theorem U1_arg2 (c : Dev nD) : U1 m c (Proc.devRef .tc main_arg2) = U0 m c (Proc.devRef .tc main_arg2) :=
  (Function.update_of_ne (StableHlo.devRef_ne_of_ne (by decide : main_arg2 ≠ main_v0)) _ _)
theorem U1_arg3 (c : Dev nD) : U1 m c (Proc.devRef .tc main_arg3) = U0 m c (Proc.devRef .tc main_arg3) :=
  (Function.update_of_ne (StableHlo.devRef_ne_of_ne (by decide : main_arg3 ≠ main_v0)) _ _)
theorem U1_arg6 (c : Dev nD) : U1 m c (Proc.devRef .tc main_arg6) = U0 m c (Proc.devRef .tc main_arg6) :=
  (Function.update_of_ne (StableHlo.devRef_ne_of_ne (by decide : main_arg6 ≠ main_v0)) _ _)
theorem U3_arg7 (c : Dev nD) : U3 m c (Proc.devRef .tc main_arg7) = U0 m c (Proc.devRef .tc main_arg7) :=
  (StableHlo.after_of_writes_sub hostOps1_1 _ hostOps1_1_writes (by decide)).trans ((StableHlo.after_of_writes_sub hostOps1 _ hostOps1_writes (by decide)).trans ((Function.update_of_ne (StableHlo.devRef_ne_of_ne (by decide : main_arg7 ≠ main_v0)) _ _)))
theorem U4_arg1 (c : Dev nD) : U4 m c (Proc.devRef .tc main_arg1) = U0 m c (Proc.devRef .tc main_arg1) :=
  (Function.update_of_ne (StableHlo.devRef_ne_of_ne (by decide : main_arg1 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg1 ≠ main_v0)) _ _))))
theorem U4_arg2 (c : Dev nD) : U4 m c (Proc.devRef .tc main_arg2) = U0 m c (Proc.devRef .tc main_arg2) :=
  (Function.update_of_ne (StableHlo.devRef_ne_of_ne (by decide : main_arg2 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg2 ≠ main_v0)) _ _))))
theorem U4_arg3 (c : Dev nD) : U4 m c (Proc.devRef .tc main_arg3) = U0 m c (Proc.devRef .tc main_arg3) :=
  (Function.update_of_ne (StableHlo.devRef_ne_of_ne (by decide : main_arg3 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg3 ≠ main_v0)) _ _))))
theorem U4_arg4 (c : Dev nD) : U4 m c (Proc.devRef .tc main_arg4) = U0 m c (Proc.devRef .tc main_arg4) :=
  (Function.update_of_ne (StableHlo.devRef_ne_of_ne (by decide : main_arg4 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg4 ≠ main_v0)) _ _))))
theorem U4_arg8 (c : Dev nD) : U4 m c (Proc.devRef .tc main_arg8) = U0 m c (Proc.devRef .tc main_arg8) :=
  (Function.update_of_ne (StableHlo.devRef_ne_of_ne (by decide : main_arg8 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg8 ≠ main_v0)) _ _))))
theorem U15_arg0 (c : Dev nD) : U15 m c (Proc.devRef .tc main_arg0) = U0 m c (Proc.devRef .tc main_arg0) :=
  (StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg0 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg0 ≠ main_v0)) _ _)))))))))))))))
theorem U15_arg9 (c : Dev nD) : U15 m c (Proc.devRef .tc main_arg9) = U0 m c (Proc.devRef .tc main_arg9) :=
  (StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg9 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg9 ≠ main_v0)) _ _)))))))))))))))
theorem U16_arg1 (c : Dev nD) : U16 m c (Proc.devRef .tc main_arg1) = U0 m c (Proc.devRef .tc main_arg1) :=
  (Function.update_of_ne (StableHlo.devRef_ne_of_ne (by decide : main_arg1 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg1 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg1 ≠ main_v0)) _ _))))))))))))))))
theorem U16_arg2 (c : Dev nD) : U16 m c (Proc.devRef .tc main_arg2) = U0 m c (Proc.devRef .tc main_arg2) :=
  (Function.update_of_ne (StableHlo.devRef_ne_of_ne (by decide : main_arg2 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg2 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg2 ≠ main_v0)) _ _))))))))))))))))
theorem U16_arg3 (c : Dev nD) : U16 m c (Proc.devRef .tc main_arg3) = U0 m c (Proc.devRef .tc main_arg3) :=
  (Function.update_of_ne (StableHlo.devRef_ne_of_ne (by decide : main_arg3 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg3 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg3 ≠ main_v0)) _ _))))))))))))))))
theorem U16_arg10 (c : Dev nD) : U16 m c (Proc.devRef .tc main_arg10) = U0 m c (Proc.devRef .tc main_arg10) :=
  (Function.update_of_ne (StableHlo.devRef_ne_of_ne (by decide : main_arg10 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg10 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg10 ≠ main_v0)) _ _))))))))))))))))
theorem U16_v50 (c : Dev nD) : U16 m c (Proc.devRef .tc main_v50) = U15 m c (Proc.devRef .tc main_v50) :=
  (Function.update_of_ne (StableHlo.devRef_ne_of_ne (by decide : main_v50 ≠ main_v58)) _ _)
theorem U18_v57 (c : Dev nD) : U18 m c (Proc.devRef .tc main_v57) = U15 m c (Proc.devRef .tc main_v57) :=
  (Function.update_of_ne (StableHlo.devRef_ne_of_ne (by decide : main_v57 ≠ main_v82)) _ _).trans ((StableHlo.after_of_writes_sub hostOps3 _ hostOps3_writes (by decide)).trans ((Function.update_of_ne (StableHlo.devRef_ne_of_ne (by decide : main_v57 ≠ main_v58)) _ _)))
theorem U18_arg0 (c : Dev nD) : U18 m c (Proc.devRef .tc main_arg0) = U0 m c (Proc.devRef .tc main_arg0) :=
  (Function.update_of_ne (StableHlo.devRef_ne_of_ne (by decide : main_arg0 ≠ main_v82)) _ _).trans ((StableHlo.after_of_writes_sub hostOps3 _ hostOps3_writes (by decide)).trans ((Function.update_of_ne (StableHlo.devRef_ne_of_ne (by decide : main_arg0 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg0 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg0 ≠ main_v0)) _ _))))))))))))))))))
theorem U18_arg1 (c : Dev nD) : U18 m c (Proc.devRef .tc main_arg1) = U0 m c (Proc.devRef .tc main_arg1) :=
  (Function.update_of_ne (StableHlo.devRef_ne_of_ne (by decide : main_arg1 ≠ main_v82)) _ _).trans ((StableHlo.after_of_writes_sub hostOps3 _ hostOps3_writes (by decide)).trans ((Function.update_of_ne (StableHlo.devRef_ne_of_ne (by decide : main_arg1 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg1 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg1 ≠ main_v0)) _ _))))))))))))))))))
theorem U18_arg2 (c : Dev nD) : U18 m c (Proc.devRef .tc main_arg2) = U0 m c (Proc.devRef .tc main_arg2) :=
  (Function.update_of_ne (StableHlo.devRef_ne_of_ne (by decide : main_arg2 ≠ main_v82)) _ _).trans ((StableHlo.after_of_writes_sub hostOps3 _ hostOps3_writes (by decide)).trans ((Function.update_of_ne (StableHlo.devRef_ne_of_ne (by decide : main_arg2 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg2 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg2 ≠ main_v0)) _ _))))))))))))))))))
theorem U18_arg3 (c : Dev nD) : U18 m c (Proc.devRef .tc main_arg3) = U0 m c (Proc.devRef .tc main_arg3) :=
  (Function.update_of_ne (StableHlo.devRef_ne_of_ne (by decide : main_arg3 ≠ main_v82)) _ _).trans ((StableHlo.after_of_writes_sub hostOps3 _ hostOps3_writes (by decide)).trans ((Function.update_of_ne (StableHlo.devRef_ne_of_ne (by decide : main_arg3 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg3 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg3 ≠ main_v0)) _ _))))))))))))))))))
theorem U18_arg4 (c : Dev nD) : U18 m c (Proc.devRef .tc main_arg4) = U0 m c (Proc.devRef .tc main_arg4) :=
  (Function.update_of_ne (StableHlo.devRef_ne_of_ne (by decide : main_arg4 ≠ main_v82)) _ _).trans ((StableHlo.after_of_writes_sub hostOps3 _ hostOps3_writes (by decide)).trans ((Function.update_of_ne (StableHlo.devRef_ne_of_ne (by decide : main_arg4 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg4 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg4 ≠ main_v0)) _ _))))))))))))))))))
theorem U18_arg5 (c : Dev nD) : U18 m c (Proc.devRef .tc main_arg5) = U0 m c (Proc.devRef .tc main_arg5) :=
  (Function.update_of_ne (StableHlo.devRef_ne_of_ne (by decide : main_arg5 ≠ main_v82)) _ _).trans ((StableHlo.after_of_writes_sub hostOps3 _ hostOps3_writes (by decide)).trans ((Function.update_of_ne (StableHlo.devRef_ne_of_ne (by decide : main_arg5 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg5 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg5 ≠ main_v0)) _ _))))))))))))))))))
theorem U18_arg6 (c : Dev nD) : U18 m c (Proc.devRef .tc main_arg6) = U0 m c (Proc.devRef .tc main_arg6) :=
  (Function.update_of_ne (StableHlo.devRef_ne_of_ne (by decide : main_arg6 ≠ main_v82)) _ _).trans ((StableHlo.after_of_writes_sub hostOps3 _ hostOps3_writes (by decide)).trans ((Function.update_of_ne (StableHlo.devRef_ne_of_ne (by decide : main_arg6 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg6 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg6 ≠ main_v0)) _ _))))))))))))))))))
theorem U18_arg7 (c : Dev nD) : U18 m c (Proc.devRef .tc main_arg7) = U0 m c (Proc.devRef .tc main_arg7) :=
  (Function.update_of_ne (StableHlo.devRef_ne_of_ne (by decide : main_arg7 ≠ main_v82)) _ _).trans ((StableHlo.after_of_writes_sub hostOps3 _ hostOps3_writes (by decide)).trans ((Function.update_of_ne (StableHlo.devRef_ne_of_ne (by decide : main_arg7 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg7 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg7 ≠ main_v0)) _ _))))))))))))))))))
theorem U18_arg8 (c : Dev nD) : U18 m c (Proc.devRef .tc main_arg8) = U0 m c (Proc.devRef .tc main_arg8) :=
  (Function.update_of_ne (StableHlo.devRef_ne_of_ne (by decide : main_arg8 ≠ main_v82)) _ _).trans ((StableHlo.after_of_writes_sub hostOps3 _ hostOps3_writes (by decide)).trans ((Function.update_of_ne (StableHlo.devRef_ne_of_ne (by decide : main_arg8 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg8 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg8 ≠ main_v0)) _ _))))))))))))))))))
theorem U18_arg9 (c : Dev nD) : U18 m c (Proc.devRef .tc main_arg9) = U0 m c (Proc.devRef .tc main_arg9) :=
  (Function.update_of_ne (StableHlo.devRef_ne_of_ne (by decide : main_arg9 ≠ main_v82)) _ _).trans ((StableHlo.after_of_writes_sub hostOps3 _ hostOps3_writes (by decide)).trans ((Function.update_of_ne (StableHlo.devRef_ne_of_ne (by decide : main_arg9 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg9 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg9 ≠ main_v0)) _ _))))))))))))))))))
theorem U18_arg10 (c : Dev nD) : U18 m c (Proc.devRef .tc main_arg10) = U0 m c (Proc.devRef .tc main_arg10) :=
  (Function.update_of_ne (StableHlo.devRef_ne_of_ne (by decide : main_arg10 ≠ main_v82)) _ _).trans ((StableHlo.after_of_writes_sub hostOps3 _ hostOps3_writes (by decide)).trans ((Function.update_of_ne (StableHlo.devRef_ne_of_ne (by decide : main_arg10 ≠ main_v58)) _ _).trans ((StableHlo.after_of_writes_sub hostOps2_10 _ hostOps2_10_writes (by decide)).trans ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide)).trans ((StableHlo.after_of_writes_sub hostOps2 _ hostOps2_writes (by decide)).trans ((Function.update_of_ne (StableHlo.devRef_ne_of_ne (by decide : main_arg10 ≠ main_v18)) _ _).trans ((StableHlo.after_of_writes_sub hostOps1_1 _ hostOps1_1_writes (by decide)).trans ((StableHlo.after_of_writes_sub hostOps1 _ hostOps1_writes (by decide)).trans ((Function.update_of_ne (StableHlo.devRef_ne_of_ne (by decide : main_arg10 ≠ main_v0)) _ _))))))))))))))))))

end Cert.KernelIdeal.Fr

end
-- ==== Proof.KI.Frame.lean ====
/-
  The program's frame: it runs to the end from any memory, nothing faults, and every argument array ends holding
  its launch contents — no host operation and no kernel region writes an argument.
-/
import proofs.«120954_j58265526338342_1_alg».proof.Proof.KI.Run
import proofs.«120954_j58265526338342_1_alg».proof.Proof.KI.Kept
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_all m ρ (hQ := fun s h c =>
    ⟨(h c _ (Finset.mem_filter.mpr ⟨StableHlo.devRef_mem_tcRefs main_arg0, by decide⟩)).trans (U18_arg0 m c),
     (h c _ (Finset.mem_filter.mpr ⟨StableHlo.devRef_mem_tcRefs main_arg1, by decide⟩)).trans (U18_arg1 m c),
     (h c _ (Finset.mem_filter.mpr ⟨StableHlo.devRef_mem_tcRefs main_arg2, by decide⟩)).trans (U18_arg2 m c),
     (h c _ (Finset.mem_filter.mpr ⟨StableHlo.devRef_mem_tcRefs main_arg3, by decide⟩)).trans (U18_arg3 m c),
     (h c _ (Finset.mem_filter.mpr ⟨StableHlo.devRef_mem_tcRefs main_arg4, by decide⟩)).trans (U18_arg4 m c),
     (h c _ (Finset.mem_filter.mpr ⟨StableHlo.devRef_mem_tcRefs main_arg5, by decide⟩)).trans (U18_arg5 m c),
     (h c _ (Finset.mem_filter.mpr ⟨StableHlo.devRef_mem_tcRefs main_arg6, by decide⟩)).trans (U18_arg6 m c),
     (h c _ (Finset.mem_filter.mpr ⟨StableHlo.devRef_mem_tcRefs main_arg7, by decide⟩)).trans (U18_arg7 m c),
     (h c _ (Finset.mem_filter.mpr ⟨StableHlo.devRef_mem_tcRefs main_arg8, by decide⟩)).trans (U18_arg8 m c),
     (h c _ (Finset.mem_filter.mpr ⟨StableHlo.devRef_mem_tcRefs main_arg9, by decide⟩)).trans (U18_arg9 m c),
     (h c _ (Finset.mem_filter.mpr ⟨StableHlo.devRef_mem_tcRefs main_arg10, by decide⟩)).trans (U18_arg10 m c)⟩)

end Cert.KernelIdeal.Fr

end
-- ==== Proof.Ref.Terms.lean ====
/-
  The reference program's two results as pure functions of its eleven argument arrays.

  The program is a three-layer graph convolution read out at a table of node indices:
  a layer multiplies the node features by a weight matrix (`mm`), gathers the product's rows
  at the edges' source nodes, scales each gathered row by the edge's weight, sums the scaled
  rows into the edges' destination nodes and adds a bias row (`gcn`); the first layer is
  followed by a rectifier (`relu`). The index table (`idx`) is computed from the labels alone: a
  running count of the nodes labelled one, a histogram of the counts into 4096 bins, a prefix sum
  of the histogram (at `k`, the number of nodes whose running count is at most `k`: while `k` is
  below the number of labelled nodes, the index of the `k`-th of them counting from zero), then a
  floor division by one and a remainder by the node count, spelt with the corrections the truncated
  machine operations need. `rows` reads a feature array at the table (negative entries wrapped
  once). The first result is the second layer's rows at the table; the second result is the Gram
  matrix of a separate one-layer convolution's rows at the same table.

  Each definition below is the composed term of the corresponding statements of the printed
  program, named so that a comparison with another program can stop at a name.
-/
import proofs.«120954_j58265526338342_1_alg».proof.Proof.Gen.ReferenceIdeal

noncomputable section

namespace Cert.ReferenceIdeal.RefRun

open Cert.ReferenceIdeal Cert.ReferenceIdeal.Gen Idealize.ShloMosaic

variable {F : FTy → Type} [FloatOps F]

/-- Node features times a weight matrix: rows by columns, contracting the feature axis. -/
def mm (l : (⟨S20000x256, .f32⟩ : BufTy).Contents (Elt F)) (r : (⟨S256x256, .f32⟩ : BufTy).Contents (Elt F)) : (⟨S20000x256, .f32⟩ : BufTy).Contents (Elt F) :=
  Host.dotGeneral dot_S20000x256_S256x256_S20000x256_1_0_0_1_n_n none l r

/-- The rectifier: the elementwise maximum with zero. -/
def relu (x : (⟨S20000x256, .f32⟩ : BufTy).Contents (Elt F)) : (⟨S20000x256, .f32⟩ : BufTy).Contents (Elt F) :=
  maximumf x (broadcastInDim S20000x256 ![] bcast_S_S20000x256 (constant (F := F) S_ .f32 0x00000000#32))

/-- An edge's source node as a row index: a negative entry is taken from the end (twenty thousand added), once. -/
def srcIx (ecol : (⟨S320000, .i32⟩ : BufTy).Contents (Elt F)) : (⟨S320000x1, .i32⟩ : BufTy).Contents (Elt F) :=
  broadcastInDim S320000x1 ![0] bcast_S320000_S320000x1_0
    (select (cmpi .slt ecol (broadcastInDim S320000 ![] bcast_S_S320000 (constantI S_ 32 0#32)))
      (addi ecol (broadcastInDim S320000 ![] bcast_S_S320000 (constantI S_ 32 20000#32))) ecol)

/-- One propagation: gather `support`'s rows at the edges' source nodes, scale row `e` by the edge weight
    `ew e`, add the scaled rows into a zero array at the edges' destination nodes `erow`, add the bias `b` to
    every row. -/
def gcn (support : (⟨S20000x256, .f32⟩ : BufTy).Contents (Elt F)) (erow ecol : (⟨S320000, .i32⟩ : BufTy).Contents (Elt F)) (ew : (⟨S320000, .f32⟩ : BufTy).Contents (Elt F))
    (b : (⟨S256, .f32⟩ : BufTy).Contents (Elt F)) : (⟨S20000x256, .f32⟩ : BufTy).Contents (Elt F) :=
  addf
    (Host.scatterAdd scatter_S20000x256_S320000x1_S320000x256_1_0_0_1
      (broadcastInDim S20000x256 ![] bcast_S_S20000x256 (constant (F := F) S_ .f32 0x00000000#32))
      (broadcastInDim S320000x1 ![0] bcast_S320000_S320000x1_0 erow)
      (mulf (Host.gather gather_S20000x256_S320000x1_S320000x256_1_0_n_n_0_1_1256 support (srcIx ecol))
        (broadcastInDim S320000x256 ![0, 1] bcast_S320000x1_S320000x256_0_1
          (broadcastInDim S320000x1 ![0] bcast_S320000_S320000x1_0 ew))))
    (broadcastInDim S20000x256 ![0, 1] bcast_S1x256_S20000x256_0_1 (broadcastInDim S1x256 ![1] bcast_S256_S1x256_1 b))

/-- The running count of the nodes labelled one, clamped below at zero: at node `n`, how many of the nodes
    `0 … n` carry the label. -/
def rank (labels : (⟨S20000, .i32⟩ : BufTy).Contents (Elt F)) : (⟨S20000, .i32⟩ : BufTy).Contents (Elt F) :=
  maxsi (broadcastInDim S20000 ![] bcast_S_S20000 (id (constantI S_ 32 0#32)))
    (Host.reduceWindow IntOp.addi ![20000] ![1] ![19999] ![0]
      (extui 32 (cmpi .eq labels (broadcastInDim S20000 ![] bcast_S_S20000 (constantI S_ 32 1#32))) natLt_1_32)
      (broadcastInDim S_ ![] bcast_S_S_ (constantI S_ 32 0#32))
      reduceWindows_S20000_S20000_w20000s1p19999_0 h_S_)

/-- The histogram of the running counts into 4096 bins (a negative count taken from the end, once), then its
    prefix sum: at `k`, how many nodes have a running count of at most `k`. -/
def cum (r : (⟨S20000, .i32⟩ : BufTy).Contents (Elt F)) : (⟨S4096, .i32⟩ : BufTy).Contents (Elt F) :=
  Host.reduceWindow IntOp.addi ![4096] ![1] ![4095] ![0]
    (Host.scatter scatter_S4096_S20000x1_S20000_n_0_0_1 IntOp.addi
      (broadcastInDim S4096 ![] bcast_S_S4096 (constantI S_ 32 0#32))
      (broadcastInDim S20000x1 ![0] bcast_S20000_S20000x1_0
        (select (cmpi .slt r (broadcastInDim S20000 ![] bcast_S_S20000 (constantI S_ 32 0#32)))
          (addi r (broadcastInDim S20000 ![] bcast_S_S20000 (constantI S_ 32 4096#32))) r))
      (broadcastInDim S20000 ![] bcast_S_S20000 (constantI S_ 32 1#32)))
    (broadcastInDim S_ ![] bcast_S_S_ (constantI S_ 32 0#32))
    reduceWindows_S4096_S4096_w4096s1p4095_0 h_S_

/-- The quotient by the scalar `d`, rounded toward minus infinity: the truncated quotient, less one where the
    signs differ and the division is not exact. -/
def floorDiv (x : (⟨S4096, .i32⟩ : BufTy).Contents (Elt F)) (d : (⟨S_, .i32⟩ : BufTy).Contents (Elt F)) : (⟨S4096, .i32⟩ : BufTy).Contents (Elt F) :=
  select
    (andi (cmpi .ne (signi x) (broadcastInDim S4096 ![] bcast_S_S4096 (signi d)))
      (cmpi .ne (Host.remsi x (broadcastInDim S4096 ![] bcast_S_S4096 d))
        (broadcastInDim S4096 ![] bcast_S_S4096 (constantI S_ 32 0#32))))
    (subi (Host.divsi x (broadcastInDim S4096 ![] bcast_S_S4096 d))
      (broadcastInDim S4096 ![] bcast_S_S4096 (constantI S_ 32 1#32)))
    (Host.divsi x (broadcastInDim S4096 ![] bcast_S_S4096 d))

/-- The divisor the remainder really uses: one in place of zero. -/
def safeDiv (d : (⟨S_, .i32⟩ : BufTy).Contents (Elt F)) : (⟨S_, .i32⟩ : BufTy).Contents (Elt F) :=
  select (cmpi .eq (id d) (constantI S_ 32 0#32)) (constantI S_ 32 1#32) (id d)

/-- The truncated remainder of `x` by the scalar `d` (one in place of zero). -/
def truncRem (x : (⟨S4096, .i32⟩ : BufTy).Contents (Elt F)) (d : (⟨S_, .i32⟩ : BufTy).Contents (Elt F)) : (⟨S4096, .i32⟩ : BufTy).Contents (Elt F) :=
  Host.remsi x (broadcastInDim S4096 ![] bcast_S_S4096 (safeDiv d))

/-- The remainder with the divisor's sign: the truncated remainder, plus the divisor where it is nonzero and
    its sign differs from the divisor's. -/
def floorRem (x : (⟨S4096, .i32⟩ : BufTy).Contents (Elt F)) (d : (⟨S_, .i32⟩ : BufTy).Contents (Elt F)) : (⟨S4096, .i32⟩ : BufTy).Contents (Elt F) :=
  select
    (andi
      (cmpi .ne (cmpi .slt (truncRem x d) (broadcastInDim S4096 ![] bcast_S_S4096 (constantI S_ 32 0#32)))
        (broadcastInDim S4096 ![] bcast_S_S4096 (cmpi .slt (safeDiv d) (constantI S_ 32 0#32))))
      (cmpi .ne (truncRem x d) (broadcastInDim S4096 ![] bcast_S_S4096 (constantI S_ 32 0#32))))
    (addi (truncRem x d) (broadcastInDim S4096 ![] bcast_S_S4096 (safeDiv d)))
    (truncRem x d)

/-- The table of node indices: position `k` holds the number of nodes whose running count is at most `k`,
    divided by one and reduced modulo the node count. -/
def idx (labels : (⟨S20000, .i32⟩ : BufTy).Contents (Elt F)) : (⟨S4096, .i32⟩ : BufTy).Contents (Elt F) :=
  floorRem (floorDiv (cum (rank labels)) (constantI S_ 32 1#32)) (constantI S_ 32 20000#32)

/-- The rows of `x` at the table `i15` (a negative entry taken from the end, once). -/
def rows (x : (⟨S20000x256, .f32⟩ : BufTy).Contents (Elt F)) (i15 : (⟨S4096, .i32⟩ : BufTy).Contents (Elt F)) : (⟨S4096x256, .f32⟩ : BufTy).Contents (Elt F) :=
  Host.gather gather_S20000x256_S4096x1_S4096x256_1_0_n_n_0_1_1256 x
    (broadcastInDim S4096x1 ![0] bcast_S4096_S4096x1_0
      (select (cmpi .slt i15 (broadcastInDim S4096 ![] bcast_S_S4096 (constantI S_ 32 0#32)))
        (addi i15 (broadcastInDim S4096 ![] bcast_S_S4096 (constantI S_ 32 20000#32))) i15))

/-- The first result: two layers with a rectifier between them, read at the table. -/
def out57 (a0 : (⟨S20000x256, .f32⟩ : BufTy).Contents (Elt F)) (a1 a2 : (⟨S320000, .i32⟩ : BufTy).Contents (Elt F)) (a3 : (⟨S320000, .f32⟩ : BufTy).Contents (Elt F))
    (a4 : (⟨S20000, .i32⟩ : BufTy).Contents (Elt F)) (a5 : (⟨S256x256, .f32⟩ : BufTy).Contents (Elt F)) (a6 : (⟨S256, .f32⟩ : BufTy).Contents (Elt F))
    (a7 : (⟨S256x256, .f32⟩ : BufTy).Contents (Elt F)) (a8 : (⟨S256, .f32⟩ : BufTy).Contents (Elt F)) (a9 : (⟨S256x256, .f32⟩ : BufTy).Contents (Elt F))
    (a10 : (⟨S256, .f32⟩ : BufTy).Contents (Elt F)) : (⟨S4096x256, .f32⟩ : BufTy).Contents (Elt F) :=
  rows (gcn (mm (relu (gcn (mm a0 a5) a1 a2 a3 a6)) a7) a1 a2 a3 a8) (idx a4)

/-- The second result: one layer read at the table, times its own transpose. -/
def out83 (a0 : (⟨S20000x256, .f32⟩ : BufTy).Contents (Elt F)) (a1 a2 : (⟨S320000, .i32⟩ : BufTy).Contents (Elt F)) (a3 : (⟨S320000, .f32⟩ : BufTy).Contents (Elt F))
    (a4 : (⟨S20000, .i32⟩ : BufTy).Contents (Elt F)) (a5 : (⟨S256x256, .f32⟩ : BufTy).Contents (Elt F)) (a6 : (⟨S256, .f32⟩ : BufTy).Contents (Elt F))
    (a7 : (⟨S256x256, .f32⟩ : BufTy).Contents (Elt F)) (a8 : (⟨S256, .f32⟩ : BufTy).Contents (Elt F)) (a9 : (⟨S256x256, .f32⟩ : BufTy).Contents (Elt F))
    (a10 : (⟨S256, .f32⟩ : BufTy).Contents (Elt F)) : (⟨S4096x4096, .f32⟩ : BufTy).Contents (Elt F) :=
  let s := rows (gcn (mm a0 a9) a1 a2 a3 a10) (idx a4)
  Host.dotGeneral dot_S4096x256_S256x4096_S4096x4096_1_0_0_1_n_n none s
    (transpose S256x4096 [1, 0] s transposes_S4096x256_S256x4096_1_0)

end Cert.ReferenceIdeal.RefRun

end
-- ==== Proof.KI.Read.lean ====
/-
  The host operations between the kernel regions, read as functions: what a stretch of them leaves in the
  buffers that matter, as the graph-convolution terms of the program (a layer's propagation `gcn`, the
  rectifier, the index table computed from the labels, the rows of a feature array at the table), from ANY
  contents of the buffers the stretch starts from. Each stretch is a literal list of operations; folding it
  and reading one buffer leaves the composed term of the operations that feed that buffer.
-/
import proofs.«120954_j58265526338342_1_alg».proof.Proof.Gen.KernelIdeal.Launch
import proofs.«120954_j58265526338342_1_alg».proof.Proof.Ref.Terms
import proofs.«120954_j58265526338342_1_alg».proof.Proof.Gen.KernelIdeal.Regions
import Idealize.ShloMosaic.Lib.StableHlo.Run

set_option maxRecDepth 16384

noncomputable section

namespace Cert.KernelIdeal.Fr

open Idealize.ShloMosaic Idealize.ShloMosaic.TcCoe
open Idealize.SL.Sem
open Cert.KernelIdeal Cert.KernelIdeal.Gen
open Cert.ReferenceIdeal.RefRun (gcn relu idx rows rank cum floorDiv floorRem)

variable {F : FTy → Type} [FloatOps F]

/-- Folding two lists of operations one after the other is folding their concatenation. -/
theorem after_after (l₁ l₂ : List (HloOp τ sig (Elt F))) (W : Valuation τ sig (Elt F)) :
    StableHlo.after l₂ (StableHlo.after l₁ W) = StableHlo.after (l₁ ++ l₂) W := by
  induction l₁ generalizing W with
  | nil => rfl
  | cons op l ih => simp only [List.cons_append, StableHlo.after_cons, ih]

/-- The first layer: the propagation of the first product, its bias added, then the rectifier. -/
theorem layer1 (W : Valuation τ sig (Elt F)) :
    StableHlo.after hostOps1_1 (StableHlo.after hostOps1 W) (Proc.devRef .tc main_v17)
      = relu (gcn (W main_v0) (W main_arg1) (W main_arg2) (W main_arg3) (W main_arg6)) := by
  rw [after_after]
  simp only [hostOps1, hostOps1_1, List.cons_append, List.nil_append]
  after_results_simp
  try simp only [cast_cast, cast_eq]
  rfl

/-- The last stretch: the propagation of the third product, read at the index table an earlier stretch left. -/
theorem layer3 (W : Valuation τ sig (Elt F)) :
    StableHlo.after hostOps3 W (Proc.devRef .tc main_v81)
      = rows (gcn (W main_v58) (W main_arg1) (W main_arg2) (W main_arg3) (W main_arg10)) (W main_v50) := by
  simp only [hostOps3]
  after_results_simp
  try simp only [cast_cast, cast_eq]
  rfl

/-- The second layer's propagation, before the table is computed. -/
theorem prop2 (W : Valuation τ sig (Elt F)) :
    StableHlo.after hostOps2 W (Proc.devRef .tc main_v34)
      = gcn (W main_v18) (W main_arg1) (W main_arg2) (W main_arg3) (W main_arg8) := by
  simp only [hostOps2]
  after_results_simp
  try simp only [cast_cast, cast_eq]
  rfl

/-- The running count of the labelled nodes. -/
theorem count (W : Valuation τ sig (Elt F)) :
    StableHlo.after hostOps2_3 (StableHlo.after hostOps2_2 (StableHlo.after hostOps2_1 (StableHlo.after hostOps2 W))) (Proc.devRef .tc main_v39)
      = rank (W main_arg4) := by
  simp only [after_after]
  simp only [hostOps2, hostOps2_1, hostOps2_2, hostOps2_3, List.cons_append, List.nil_append]
  after_results_simp
  try simp only [cast_cast, cast_eq]
  rfl

/-- The empty histogram, set up one stretch early. -/
theorem bins (W : Valuation τ sig (Elt F)) :
    StableHlo.after hostOps2_2 W (Proc.devRef .tc main_v38)
      = broadcastInDim S4096 ![] bcast_S_S4096 (constantI S_ 32 0#32) := by
  simp only [hostOps2_2]
  after_results_simp

/-- The histogram of the counts, into bins that start empty, and its prefix sum. -/
theorem prefixSum (W : Valuation τ sig (Elt F))
    (hbins : W (Proc.devRef .tc main_v38) = broadcastInDim S4096 ![] bcast_S_S4096 (constantI S_ 32 0#32)) :
    StableHlo.after hostOps2_5 (StableHlo.after hostOps2_4 W) (Proc.devRef .tc main_v48) = cum (W main_v39) := by
  simp only [after_after]
  simp only [hostOps2_4, hostOps2_5, List.cons_append, List.nil_append]
  after_results_simp
  try simp only [cast_cast, cast_eq]
  rw [hbins]
  rfl

/-- The floor division by one. -/
theorem quot (W : Valuation τ sig (Elt F)) :
    StableHlo.after hostOps2_7 (StableHlo.after hostOps2_6 W) (Proc.devRef .tc main_v49)
      = floorDiv (W main_v48) (constantI S_ 32 1#32) := by
  simp only [after_after]
  simp only [hostOps2_6, hostOps2_7, List.cons_append, List.nil_append]
  after_results_simp
  try simp only [cast_cast, cast_eq]
  rfl

/-- The remainder by the node count. -/
theorem remd (W : Valuation τ sig (Elt F)) :
    StableHlo.after hostOps2_9 (StableHlo.after hostOps2_8 W) (Proc.devRef .tc main_v50)
      = floorRem (W main_v49) (constantI S_ 32 20000#32) := by
  simp only [after_after]
  simp only [hostOps2_8, hostOps2_9, List.cons_append, List.nil_append]
  after_results_simp
  try simp only [cast_cast, cast_eq]
  rfl

/-- Reading a feature array at the table. -/
theorem readout2 (W : Valuation τ sig (Elt F)) :
    StableHlo.after hostOps2_10 W (Proc.devRef .tc main_v57) = rows (W main_v34) (W main_v50) := by
  simp only [hostOps2_10]
  after_results_simp
  try simp only [cast_cast, cast_eq]
  rfl

/-- The middle stretches together: the index table from the labels, -/
theorem table (W : Valuation τ sig (Elt F)) :
    StableHlo.after hostOps2_9 (StableHlo.after hostOps2_8 (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 W))))))))) (Proc.devRef .tc main_v50)
      = idx (W main_arg4) := by
  rw [remd, quot, prefixSum _ ((StableHlo.after_of_writes_sub hostOps2_3 _ hostOps2_3_writes (by decide)).trans (bins _)), count]
  rfl

/-- the second layer's propagation, which the stretches after it leave alone, -/
theorem prop2_kept (W : Valuation τ sig (Elt F)) :
    StableHlo.after hostOps2_9 (StableHlo.after hostOps2_8 (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 W))))))))) (Proc.devRef .tc main_v34)
      = gcn (W main_v18) (W main_arg1) (W main_arg2) (W main_arg3) (W main_arg8) :=
  ((StableHlo.after_of_writes_sub hostOps2_9 _ hostOps2_9_writes (by decide)).trans ((StableHlo.after_of_writes_sub hostOps2_8 _ hostOps2_8_writes (by decide)).trans ((StableHlo.after_of_writes_sub hostOps2_7 _ hostOps2_7_writes (by decide)).trans ((StableHlo.after_of_writes_sub hostOps2_6 _ hostOps2_6_writes (by decide)).trans ((StableHlo.after_of_writes_sub hostOps2_5 _ hostOps2_5_writes (by decide)).trans ((StableHlo.after_of_writes_sub hostOps2_4 _ hostOps2_4_writes (by decide)).trans ((StableHlo.after_of_writes_sub hostOps2_3 _ hostOps2_3_writes (by decide)).trans ((StableHlo.after_of_writes_sub hostOps2_2 _ hostOps2_2_writes (by decide)).trans ((StableHlo.after_of_writes_sub hostOps2_1 _ hostOps2_1_writes (by decide))))))))))).trans (prop2 W)

/-- and the second layer read at the table. -/
theorem layer2 (W : Valuation τ sig (Elt F)) :
    StableHlo.after hostOps2_10 (StableHlo.after hostOps2_9 (StableHlo.after hostOps2_8 (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 W)))))))))) (Proc.devRef .tc main_v57)
      = rows (gcn (W main_v18) (W main_arg1) (W main_arg2) (W main_arg3) (W main_arg8)) (idx (W main_arg4)) := by
  rw [readout2, table, prop2_kept]

end Cert.KernelIdeal.Fr

end
-- ==== Proof.SpecMm.lean ====
/-
  The two matrix products the programs compute, entry by entry, over the extended reals.

  `mm l r` is the product of a 20000 × 256 matrix with a 256 × 256 matrix: its entry (p, q) is the sum over
  the 256 positions k of the contracted axis of l (p, k) · r (k, q). `gram s` is the matrix of inner products of
  the 4096 rows of a 4096 × 256 matrix: its entry (p, q) is the sum over k of s (p, k) · s (q, k), the product of
  the matrix with its own transpose. Both are plain finite sums of products: no order of summation, grouping or
  rounding is left in them.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Spec

/-- Rows times columns: the entry (p, q) of the product is the sum over k of l (p, k) · r (k, q). -/
def mm (l : (⟨2, ![20000, 256]⟩ : Shape).Idx → EReal) (r : (⟨2, ![256, 256]⟩ : Shape).Idx → EReal) :
    (⟨2, ![20000, 256]⟩ : Shape).Idx → EReal :=
  fun j => ∑ k : Fin 256, l (ix2 (j 0 : Fin 20000) k) * r (ix2 k (j 1 : Fin 256))

/-- The product read at the entry with coordinates p and q. -/
theorem mm_apply (l : (⟨2, ![20000, 256]⟩ : Shape).Idx → EReal) (r : (⟨2, ![256, 256]⟩ : Shape).Idx → EReal)
    (p : Fin 20000) (q : Fin 256) : mm l r (ix2 p q) = ∑ k : Fin 256, l (ix2 p k) * r (ix2 k q) := rfl

/-- Rows times rows: the entry (p, q) of the Gram matrix is the sum over k of s (p, k) · s (q, k). -/
def gram (s : (⟨2, ![4096, 256]⟩ : Shape).Idx → EReal) : (⟨2, ![4096, 4096]⟩ : Shape).Idx → EReal :=
  fun j => ∑ k : Fin 256, s (ix2 (j 0 : Fin 4096) k) * s (ix2 (j 1 : Fin 4096) k)

/-- The Gram matrix read at the entry with coordinates p and q. -/
theorem gram_apply (s : (⟨2, ![4096, 256]⟩ : Shape).Idx → EReal) (p q : Fin 4096) :
    gram s (ix2 p q) = ∑ k : Fin 256, s (ix2 p k) * s (ix2 q k) := rfl

end Cert.Spec

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.KI.Val0.lean ====
/-
  The value of kernel region 0: the result array after the region is the product of its two operand arrays.

  At grid point t the body leaves in the output window's staging buffer the product of the left operand's block
  (rows 2000 t … 2000 t + 1999 of the 20000 × 256 array) with the whole 256 × 256 right operand: at the entry (p, q)
  of the buffer the sum over k of left (2000 t + p, k) · right (k, q), both operands read as extended reals (the
  rounding of the operands on the way into the matrix unit is the identity there, and the accumulator starts at
  zero). That buffer is written back as rows 2000 t … 2000 t + 1999 of the result, so each point writes its block
  of one function of the two arrays, the matrix product; row r of the result lies in the block of point r / 2000,
  so the ten blocks cover the array, and the array ends holding the product.
-/
import proofs.«120954_j58265526338342_1_alg».proof.Proof.KI.Reg0
import proofs.«120954_j58265526338342_1_alg».proof.Proof.SpecMm
import proofs.«120954_j58265526338342_1_alg».proof.Proof.LibMatmul
import Idealize.ShloMosaic.Lib.Pipeline.Value
import Idealize.ShloMosaic.Lib.ValueIdx
import Idealize.ShloMosaic.PureOps.Ideal.Laws

noncomputable section

namespace Cert.KernelIdeal.Fr

open scoped BigOperators
open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-buffer rectangle of rank two. -/
theorem zeros0 : (![0, 0] : Fin 2 → Nat) = fun _ => 0 := funext fun a => by fin_cases a <;> rfl

/-- The body's stored value at the entry (p, q): the sum over the contracted axis of the products of the left
    block's row p with the right block's column q. -/
theorem pay0_apply (x : Vec Ideal S2000x256 .f32) (w : Vec Ideal S256x256 .f32) (p : Fin 2000) (q : Fin 256) :
    k0_pay1 x w (ix2 p q) = ∑ k : Fin 256, (x (ix2 p k) : EReal) * (w (ix2 k q) : EReal) := by
  unfold k0_pay1
  exact PlainMatmul.apply ⟨rfl, rfl, rfl, rfl, rfl, rfl⟩ none _ _ p q

/-- One store over the whole buffer of a value computed from whole-buffer loads leaves that value of the buffers. -/
theorem res0_eq (x : Vec Ideal S2000x256 .f32) (w : Vec Ideal S256x256 .f32) : res0 x w = k0_pay1 x w := by
  unfold res0
  rw [View.canon_unit_zero zeros0]
  simp only [View.ld_unit_zero (S := S2000x256) zeros0, View.ld_unit_zero (S := S256x256) zeros0]

/-- The printed index maps over the ten points: the left operand's and the result's blocks are at block row t,
    block column 0; the right operand's block is always the block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t, at (p, k), is the array at (2000 t + p, k). -/
theorem lhs_blk0_apply (c : Dev nD) (t : Fin cfg0.N) (p : Fin 2000) (k : Fin 256) (hp : t.val * 2000 + p.val < 20000) :
    (blk0 V c 0 t : S2000x256.Idx → EReal) (ix2 p k)
      = (V c main_arg0 : S20000x256.Idx → EReal) (ix2 (⟨t.val * 2000 + p.val, hp⟩ : Fin 20000) k) := by
  obtain ⟨e0, e1, -, -, -, -⟩ := idx_facts0 t
  unfold blk0
  rw [View.read_apply]
  show (V c main_arg0 : S20000x256.Idx → EReal) _ = _
  refine congrArg _ (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 256 + 1 * k.val = k.val; rw [e1]; omega

/-- The right operand's block at every point is the whole array. -/
theorem rhs_blk0_apply (c : Dev nD) (t : Fin cfg0.N) (k q : Fin 256) :
    (blk0 V c 1 t : S256x256.Idx → EReal) (ix2 k q) = (V c main_arg5 : S256x256.Idx → EReal) (ix2 k q) := by
  obtain ⟨-, -, e2, e3, -, -⟩ := idx_facts0 t
  unfold blk0
  rw [View.read_apply]
  show (V c main_arg5 : S256x256.Idx → EReal) _ = _
  refine congrArg _ (funext fun a => Fin.ext ?_)
  match a with
  | ⟨0, _⟩ => show win0_1.index t (0 : Fin 2) * 256 + 1 * k.val = k.val; rw [e2]; omega
  | ⟨1, _⟩ => show win0_1.index t (1 : Fin 2) * 256 + 1 * q.val = q.val; rw [e3]; omega

/-- What point t writes back is block t of the product of the two arrays as the region finds them. -/
theorem flushed0_eq (c : Dev nD) (t : Fin cfg0.N) :
    (dat0 (F := Ideal) V c).flushed 2 t
      = ((cfg0.win 2).blk t).view.read (Elt Ideal) (Cert.Spec.mm (V c main_arg0) (V c main_arg5)) := by
  show (cfg0.win 2).cut (grid0.coords t) ((dat0 V c).after 2 t) = _
  rw [dat0_after2, res0_eq]
  obtain ⟨-, -, -, -, e4, e5⟩ := idx_facts0 t
  have hN : cfg0.N = 10 := N_0
  have ht : t.val < 10 := hN ▸ t.isLt
  have key : ∀ y : S2000x256.Idx, k0_pay1 (blk0 V c 0 t) (blk0 V c 1 t) y
      = Cert.Spec.mm (V c main_arg0) (V c main_arg5) (((cfg0.win 2).blk t).view.emb y) := by
    intro y
    obtain ⟨p, q, rfl⟩ : ∃ (p : Fin 2000) (q : Fin 256), y = ix2 p q := ⟨y 0, y 1, eq_ix2 y⟩
    have hp : t.val * 2000 + p.val < 20000 := by have := p.isLt; omega
    have hemb : ((cfg0.win 2).blk t).view.emb (ix2 p q) = ix2 (⟨t.val * 2000 + p.val, hp⟩ : Fin 20000) q := by
      funext a
      apply Fin.ext
      match a with
      | ⟨0, _⟩ => show win0_2.index t (0 : Fin 2) * 2000 + 1 * p.val = t.val * 2000 + p.val; rw [e4]; omega
      | ⟨1, _⟩ => show win0_2.index t (1 : Fin 2) * 256 + 1 * q.val = q.val; rw [e5]; omega
    rw [hemb, Cert.Spec.mm_apply, pay0_apply]
    refine Finset.sum_congr rfl fun k _ => ?_
    rw [lhs_blk0_apply V c t p k hp, rhs_blk0_apply V c t k q]
  funext y
  rw [View.read_apply]
  exact key y

/-- An index of the result array is in point t's block iff each coordinate is in the block's range on its axis. -/
theorem mem_blk0 (t : Fin cfg0.N) (i : S20000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v0).slice (win0_2.rect t)).set ↔ _
  rw [View.set_slice_whole, Rect.mem_set_unit]
  exact Iff.rfl

/-- The ten blocks cover the result array: row r is in the block of point r / 2000. -/
theorem cover0 (i : S20000x256.Idx) :
    ∃ t : Fin cfg0.N, (cfg0.win 2).flush t = true ∧ i ∈ ((cfg0.win 2).blk t).view.set := by
  have hi0 : (i 0).val < 20000 := (i 0).isLt
  have hi1 : (i 1).val < 256 := (i 1).isLt
  have hN : cfg0.N = 10 := N_0
  obtain ⟨t, ht⟩ : ∃ t : Fin cfg0.N, t.val = (i 0).val / 2000 := ⟨⟨(i 0).val / 2000, by omega⟩, rfl⟩
  obtain ⟨-, -, -, -, e4, e5⟩ := idx_facts0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    rw [e4]; omega
  | ⟨1, _⟩ =>
    show win0_2.index t (1 : Fin 2) * 256 ≤ (i 1).val ∧ (i 1).val < win0_2.index t (1 : Fin 2) * 256 + 256
    rw [e5]; omega

/-- The result array after the region is the product of the two operand arrays as the region finds them. -/
theorem val0 (c : Dev nD) :
    ((dat0 (F := Ideal) V c).arrAt 2 cfg0.N : S20000x256.Idx → EReal) = Cert.Spec.mm (V c main_arg0) (V c main_arg5) :=
  (dat0 (F := Ideal) V c).arrAt_eq_of_cover 2 (Cert.Spec.mm (V c main_arg0) (V c main_arg5))
    (fun t _ => flushed0_eq V c t) cover0

end Cert.KernelIdeal.Fr

end
-- ==== Proof.KI.Val1.lean ====
/-
  The value of kernel region 1: the result array after the region is the product of its two operand arrays.

  At grid point t the body leaves in the output window's staging buffer the product of the left operand's block
  (rows 2000 t … 2000 t + 1999 of the 20000 × 256 array) with the whole 256 × 256 right operand: at the entry (p, q)
  of the buffer the sum over k of left (2000 t + p, k) · right (k, q), both operands read as extended reals (the
  rounding of the operands on the way into the matrix unit is the identity there, and the accumulator starts at
  zero). That buffer is written back as rows 2000 t … 2000 t + 1999 of the result, so each point writes its block
  of one function of the two arrays, the matrix product; row r of the result lies in the block of point r / 2000,
  so the ten blocks cover the array, and the array ends holding the product.
-/
import proofs.«120954_j58265526338342_1_alg».proof.Proof.KI.Reg1
import proofs.«120954_j58265526338342_1_alg».proof.Proof.SpecMm
import proofs.«120954_j58265526338342_1_alg».proof.Proof.LibMatmul
import Idealize.ShloMosaic.Lib.Pipeline.Value
import Idealize.ShloMosaic.Lib.ValueIdx
import Idealize.ShloMosaic.PureOps.Ideal.Laws

noncomputable section

namespace Cert.KernelIdeal.Fr

open scoped BigOperators
open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-buffer rectangle of rank two. -/
theorem zeros1 : (![0, 0] : Fin 2 → Nat) = fun _ => 0 := funext fun a => by fin_cases a <;> rfl

/-- The body's stored value at the entry (p, q): the sum over the contracted axis of the products of the left
    block's row p with the right block's column q (the reshaping of the left block to its own shape changes nothing). -/
theorem pay1_apply (x : Vec Ideal S2000x256 .f32) (w : Vec Ideal S256x256 .f32) (p : Fin 2000) (q : Fin 256) :
    k1_pay1 x w (ix2 p q) = ∑ k : Fin 256, (x (ix2 p k) : EReal) * (w (ix2 k q) : EReal) := by
  unfold k1_pay1
  simp only [shapeCast_self]
  exact PlainMatmul.apply ⟨rfl, rfl, rfl, rfl, rfl, rfl⟩ none _ _ p q

/-- One store over the whole buffer of a value computed from whole-buffer loads leaves that value of the buffers. -/
theorem res1_eq (x : Vec Ideal S2000x256 .f32) (w : Vec Ideal S256x256 .f32) : res1 x w = k1_pay1 x w := by
  unfold res1
  rw [View.canon_unit_zero zeros1]
  simp only [View.ld_unit_zero (S := S2000x256) zeros1, View.ld_unit_zero (S := S256x256) zeros1]

/-- The printed index maps over the ten points: the left operand's and the result's blocks are at block row t,
    block column 0; the right operand's block is always the block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t, at (p, k), is the array at (2000 t + p, k). -/
theorem lhs_blk1_apply (c : Dev nD) (t : Fin cfg1.N) (p : Fin 2000) (k : Fin 256) (hp : t.val * 2000 + p.val < 20000) :
    (blk1 V c 0 t : S2000x256.Idx → EReal) (ix2 p k)
      = (V c main_v17 : S20000x256.Idx → EReal) (ix2 (⟨t.val * 2000 + p.val, hp⟩ : Fin 20000) k) := by
  obtain ⟨e0, e1, -, -, -, -⟩ := idx_facts1 t
  unfold blk1
  rw [View.read_apply]
  show (V c main_v17 : S20000x256.Idx → EReal) _ = _
  refine congrArg _ (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 256 + 1 * k.val = k.val; rw [e1]; omega

/-- The right operand's block at every point is the whole array. -/
theorem rhs_blk1_apply (c : Dev nD) (t : Fin cfg1.N) (k q : Fin 256) :
    (blk1 V c 1 t : S256x256.Idx → EReal) (ix2 k q) = (V c main_arg7 : S256x256.Idx → EReal) (ix2 k q) := by
  obtain ⟨-, -, e2, e3, -, -⟩ := idx_facts1 t
  unfold blk1
  rw [View.read_apply]
  show (V c main_arg7 : S256x256.Idx → EReal) _ = _
  refine congrArg _ (funext fun a => Fin.ext ?_)
  match a with
  | ⟨0, _⟩ => show win1_1.index t (0 : Fin 2) * 256 + 1 * k.val = k.val; rw [e2]; omega
  | ⟨1, _⟩ => show win1_1.index t (1 : Fin 2) * 256 + 1 * q.val = q.val; rw [e3]; omega

/-- What point t writes back is block t of the product of the two arrays as the region finds them. -/
theorem flushed1_eq (c : Dev nD) (t : Fin cfg1.N) :
    (dat1 (F := Ideal) V c).flushed 2 t
      = ((cfg1.win 2).blk t).view.read (Elt Ideal) (Cert.Spec.mm (V c main_v17) (V c main_arg7)) := by
  show (cfg1.win 2).cut (grid1.coords t) ((dat1 V c).after 2 t) = _
  rw [dat1_after2, res1_eq]
  obtain ⟨-, -, -, -, e4, e5⟩ := idx_facts1 t
  have hN : cfg1.N = 10 := N_1
  have ht : t.val < 10 := hN ▸ t.isLt
  have key : ∀ y : S2000x256.Idx, k1_pay1 (blk1 V c 0 t) (blk1 V c 1 t) y
      = Cert.Spec.mm (V c main_v17) (V c main_arg7) (((cfg1.win 2).blk t).view.emb y) := by
    intro y
    obtain ⟨p, q, rfl⟩ : ∃ (p : Fin 2000) (q : Fin 256), y = ix2 p q := ⟨y 0, y 1, eq_ix2 y⟩
    have hp : t.val * 2000 + p.val < 20000 := by have := p.isLt; omega
    have hemb : ((cfg1.win 2).blk t).view.emb (ix2 p q) = ix2 (⟨t.val * 2000 + p.val, hp⟩ : Fin 20000) q := by
      funext a
      apply Fin.ext
      match a with
      | ⟨0, _⟩ => show win1_2.index t (0 : Fin 2) * 2000 + 1 * p.val = t.val * 2000 + p.val; rw [e4]; omega
      | ⟨1, _⟩ => show win1_2.index t (1 : Fin 2) * 256 + 1 * q.val = q.val; rw [e5]; omega
    rw [hemb, Cert.Spec.mm_apply, pay1_apply]
    refine Finset.sum_congr rfl fun k _ => ?_
    rw [lhs_blk1_apply V c t p k hp, rhs_blk1_apply V c t k q]
  funext y
  rw [View.read_apply]
  exact key y

/-- An index of the result array is in point t's block iff each coordinate is in the block's range on its axis. -/
theorem mem_blk1 (t : Fin cfg1.N) (i : S20000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v18).slice (win1_2.rect t)).set ↔ _
  rw [View.set_slice_whole, Rect.mem_set_unit]
  exact Iff.rfl

/-- The ten blocks cover the result array: row r is in the block of point r / 2000. -/
theorem cover1 (i : S20000x256.Idx) :
    ∃ t : Fin cfg1.N, (cfg1.win 2).flush t = true ∧ i ∈ ((cfg1.win 2).blk t).view.set := by
  have hi0 : (i 0).val < 20000 := (i 0).isLt
  have hi1 : (i 1).val < 256 := (i 1).isLt
  have hN : cfg1.N = 10 := N_1
  obtain ⟨t, ht⟩ : ∃ t : Fin cfg1.N, t.val = (i 0).val / 2000 := ⟨⟨(i 0).val / 2000, by omega⟩, rfl⟩
  obtain ⟨-, -, -, -, e4, e5⟩ := idx_facts1 t
  refine ⟨t, flush1_2 t, ?_⟩
  rw [mem_blk1]
  intro a
  match a with
  | ⟨0, _⟩ =>
    show win1_2.index t (0 : Fin 2) * 2000 ≤ (i 0).val ∧ (i 0).val < win1_2.index t (0 : Fin 2) * 2000 + 2000
    rw [e4]; omega
  | ⟨1, _⟩ =>
    show win1_2.index t (1 : Fin 2) * 256 ≤ (i 1).val ∧ (i 1).val < win1_2.index t (1 : Fin 2) * 256 + 256
    rw [e5]; omega

/-- The result array after the region is the product of the two operand arrays as the region finds them. -/
theorem val1 (c : Dev nD) :
    ((dat1 (F := Ideal) V c).arrAt 2 cfg1.N : S20000x256.Idx → EReal) = Cert.Spec.mm (V c main_v17) (V c main_arg7) :=
  (dat1 (F := Ideal) V c).arrAt_eq_of_cover 2 (Cert.Spec.mm (V c main_v17) (V c main_arg7))
    (fun t _ => flushed1_eq V c t) cover1

end Cert.KernelIdeal.Fr

end
-- ==== Proof.KI.Val2.lean ====
/-
  The value of kernel region 2: the result array after the region is the product of its two operand arrays.

  At grid point t the body leaves in the output window's staging buffer the product of the left operand's block
  (rows 2000 t … 2000 t + 1999 of the 20000 × 256 array) with the whole 256 × 256 right operand: at the entry (p, q)
  of the buffer the sum over k of left (2000 t + p, k) · right (k, q), both operands read as extended reals (the
  rounding of the operands on the way into the matrix unit is the identity there, and the accumulator starts at
  zero). That buffer is written back as rows 2000 t … 2000 t + 1999 of the result, so each point writes its block
  of one function of the two arrays, the matrix product; row r of the result lies in the block of point r / 2000,
  so the ten blocks cover the array, and the array ends holding the product.
-/
import proofs.«120954_j58265526338342_1_alg».proof.Proof.KI.Reg2
import proofs.«120954_j58265526338342_1_alg».proof.Proof.SpecMm
import proofs.«120954_j58265526338342_1_alg».proof.Proof.LibMatmul
import Idealize.ShloMosaic.Lib.Pipeline.Value
import Idealize.ShloMosaic.Lib.ValueIdx
import Idealize.ShloMosaic.PureOps.Ideal.Laws

noncomputable section

namespace Cert.KernelIdeal.Fr

open scoped BigOperators
open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-buffer rectangle of rank two. -/
theorem zeros2 : (![0, 0] : Fin 2 → Nat) = fun _ => 0 := funext fun a => by fin_cases a <;> rfl

/-- The body's stored value at the entry (p, q): the sum over the contracted axis of the products of the left
    block's row p with the right block's column q. -/
theorem pay2_apply (x : Vec Ideal S2000x256 .f32) (w : Vec Ideal S256x256 .f32) (p : Fin 2000) (q : Fin 256) :
    k2_pay1 x w (ix2 p q) = ∑ k : Fin 256, (x (ix2 p k) : EReal) * (w (ix2 k q) : EReal) := by
  unfold k2_pay1
  exact PlainMatmul.apply ⟨rfl, rfl, rfl, rfl, rfl, rfl⟩ none _ _ p q

/-- One store over the whole buffer of a value computed from whole-buffer loads leaves that value of the buffers. -/
theorem res2_eq (x : Vec Ideal S2000x256 .f32) (w : Vec Ideal S256x256 .f32) : res2 x w = k2_pay1 x w := by
  unfold res2
  rw [View.canon_unit_zero zeros2]
  simp only [View.ld_unit_zero (S := S2000x256) zeros2, View.ld_unit_zero (S := S256x256) zeros2]

/-- The printed index maps over the ten points: the left operand's and the result's blocks are at block row t,
    block column 0; the right operand's block is always the block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t, at (p, k), is the array at (2000 t + p, k). -/
theorem lhs_blk2_apply (c : Dev nD) (t : Fin cfg2.N) (p : Fin 2000) (k : Fin 256) (hp : t.val * 2000 + p.val < 20000) :
    (blk2 V c 0 t : S2000x256.Idx → EReal) (ix2 p k)
      = (V c main_arg0 : S20000x256.Idx → EReal) (ix2 (⟨t.val * 2000 + p.val, hp⟩ : Fin 20000) k) := by
  obtain ⟨e0, e1, -, -, -, -⟩ := idx_facts2 t
  unfold blk2
  rw [View.read_apply]
  show (V c main_arg0 : S20000x256.Idx → EReal) _ = _
  refine congrArg _ (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 256 + 1 * k.val = k.val; rw [e1]; omega

/-- The right operand's block at every point is the whole array. -/
theorem rhs_blk2_apply (c : Dev nD) (t : Fin cfg2.N) (k q : Fin 256) :
    (blk2 V c 1 t : S256x256.Idx → EReal) (ix2 k q) = (V c main_arg9 : S256x256.Idx → EReal) (ix2 k q) := by
  obtain ⟨-, -, e2, e3, -, -⟩ := idx_facts2 t
  unfold blk2
  rw [View.read_apply]
  show (V c main_arg9 : S256x256.Idx → EReal) _ = _
  refine congrArg _ (funext fun a => Fin.ext ?_)
  match a with
  | ⟨0, _⟩ => show win2_1.index t (0 : Fin 2) * 256 + 1 * k.val = k.val; rw [e2]; omega
  | ⟨1, _⟩ => show win2_1.index t (1 : Fin 2) * 256 + 1 * q.val = q.val; rw [e3]; omega

/-- What point t writes back is block t of the product of the two arrays as the region finds them. -/
theorem flushed2_eq (c : Dev nD) (t : Fin cfg2.N) :
    (dat2 (F := Ideal) V c).flushed 2 t
      = ((cfg2.win 2).blk t).view.read (Elt Ideal) (Cert.Spec.mm (V c main_arg0) (V c main_arg9)) := by
  show (cfg2.win 2).cut (grid2.coords t) ((dat2 V c).after 2 t) = _
  rw [dat2_after2, res2_eq]
  obtain ⟨-, -, -, -, e4, e5⟩ := idx_facts2 t
  have hN : cfg2.N = 10 := N_2
  have ht : t.val < 10 := hN ▸ t.isLt
  have key : ∀ y : S2000x256.Idx, k2_pay1 (blk2 V c 0 t) (blk2 V c 1 t) y
      = Cert.Spec.mm (V c main_arg0) (V c main_arg9) (((cfg2.win 2).blk t).view.emb y) := by
    intro y
    obtain ⟨p, q, rfl⟩ : ∃ (p : Fin 2000) (q : Fin 256), y = ix2 p q := ⟨y 0, y 1, eq_ix2 y⟩
    have hp : t.val * 2000 + p.val < 20000 := by have := p.isLt; omega
    have hemb : ((cfg2.win 2).blk t).view.emb (ix2 p q) = ix2 (⟨t.val * 2000 + p.val, hp⟩ : Fin 20000) q := by
      funext a
      apply Fin.ext
      match a with
      | ⟨0, _⟩ => show win2_2.index t (0 : Fin 2) * 2000 + 1 * p.val = t.val * 2000 + p.val; rw [e4]; omega
      | ⟨1, _⟩ => show win2_2.index t (1 : Fin 2) * 256 + 1 * q.val = q.val; rw [e5]; omega
    rw [hemb, Cert.Spec.mm_apply, pay2_apply]
    refine Finset.sum_congr rfl fun k _ => ?_
    rw [lhs_blk2_apply V c t p k hp, rhs_blk2_apply V c t k q]
  funext y
  rw [View.read_apply]
  exact key y

/-- An index of the result array is in point t's block iff each coordinate is in the block's range on its axis. -/
theorem mem_blk2 (t : Fin cfg2.N) (i : S20000x256.Idx) :
    i ∈ ((cfg2.win 2).blk t).view.set ↔ ∀ a : Fin 2, win2_2.index t a * S2000x256.size a ≤ (i a).val
      ∧ (i a).val < win2_2.index t a * S2000x256.size a + S2000x256.size a := by
  show i ∈ ((View.whole main_v58).slice (win2_2.rect t)).set ↔ _
  rw [View.set_slice_whole, Rect.mem_set_unit]
  exact Iff.rfl

/-- The ten blocks cover the result array: row r is in the block of point r / 2000. -/
theorem cover2 (i : S20000x256.Idx) :
    ∃ t : Fin cfg2.N, (cfg2.win 2).flush t = true ∧ i ∈ ((cfg2.win 2).blk t).view.set := by
  have hi0 : (i 0).val < 20000 := (i 0).isLt
  have hi1 : (i 1).val < 256 := (i 1).isLt
  have hN : cfg2.N = 10 := N_2
  obtain ⟨t, ht⟩ : ∃ t : Fin cfg2.N, t.val = (i 0).val / 2000 := ⟨⟨(i 0).val / 2000, by omega⟩, rfl⟩
  obtain ⟨-, -, -, -, e4, e5⟩ := idx_facts2 t
  refine ⟨t, flush2_2 t, ?_⟩
  rw [mem_blk2]
  intro a
  match a with
  | ⟨0, _⟩ =>
    show win2_2.index t (0 : Fin 2) * 2000 ≤ (i 0).val ∧ (i 0).val < win2_2.index t (0 : Fin 2) * 2000 + 2000
    rw [e4]; omega
  | ⟨1, _⟩ =>
    show win2_2.index t (1 : Fin 2) * 256 ≤ (i 1).val ∧ (i 1).val < win2_2.index t (1 : Fin 2) * 256 + 256
    rw [e5]; omega

/-- The result array after the region is the product of the two operand arrays as the region finds them. -/
theorem val2 (c : Dev nD) :
    ((dat2 (F := Ideal) V c).arrAt 2 cfg2.N : S20000x256.Idx → EReal) = Cert.Spec.mm (V c main_arg0) (V c main_arg9) :=
  (dat2 (F := Ideal) V c).arrAt_eq_of_cover 2 (Cert.Spec.mm (V c main_arg0) (V c main_arg9))
    (fun t _ => flushed2_eq V c t) cover2

end Cert.KernelIdeal.Fr

end
-- ==== Proof.KI.Val3.lean ====
import proofs.«120954_j58265526338342_1_alg».proof.Proof.KI.Reg3
import proofs.«120954_j58265526338342_1_alg».proof.Proof.SpecMm
import Idealize.ShloMosaic.Lib.Pipeline.Value
import Idealize.ShloMosaic.Lib.ValueIdx
import Idealize.ShloMosaic.PureOps.Ideal.Laws

/-! The value of the fourth kernel region over the exact extended reals. At grid point (i, j) the body
    stores, into block (i, j) of the output, the product of row block i of the input array with the
    transpose of row block j of the SAME array; with no rounding left, the entry (p, q) of that block is
    the inner product of rows 512 i + p and 512 j + q. The 8 × 8 blocks tile the output, so after the
    region the output array is the Gram matrix of the input array's 4096 rows. -/

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat)

/-! ## A product of rows with rows, read at an entry -/

section RowsRows

variable {M K N : ℕ}

/-- The dimension numbers of a product of an `M × K` matrix with the transpose of an `N × K` matrix: the
    second axis of each operand is contracted, no batch axis. -/
structure IsRowsRows (d : DotDims (⟨2, ![M, K]⟩ : Shape) (⟨2, ![N, K]⟩ : Shape) (⟨2, ![M, N]⟩ : Shape)) : Prop where
  lc : d.lhsContracting = [1]
  rc : d.rhsContracting = [1]
  ln : d.lhsNonContracting = [0]
  rn : d.rhsNonContracting = [0]
  lb : d.lhsBatch = []
  rb : d.rhsBatch = []

variable {d : DotDims (⟨2, ![M, K]⟩ : Shape) (⟨2, ![N, K]⟩ : Shape) (⟨2, ![M, N]⟩ : Shape)}

theorem IsRowsRows.rank (h : IsRowsRows d) : d.contr.rank = 1 := by rw [d.rank_contr, h.lc]; rfl

theorem IsRowsRows.size (h : IsRowsRows d) : d.contr.size ⟨0, by rw [h.rank]; exact Nat.one_pos⟩ = K := by
  rw [d.size_contr 0 (by rw [h.lc]; exact Nat.one_pos)]
  simp only [h.lc]
  rfl

/-- The left operand is read at the row given by the entry's first coordinate … -/
theorem IsRowsRows.lhs_row (h : IsRowsRows d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at the ROW given by the entry's second coordinate. -/
theorem IsRowsRows.rhs_row (h : IsRowsRows d) (j : (⟨2, ![M, N]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- Such a product into the zero matrix has at the entry `(p, q)` the sum over the contracted axis of the
    products of row `p` of the left operand with row `q` of the right one. -/
theorem IsRowsRows.apply {φ₁ φ₂ : FTy} (h : IsRowsRows d) (prec : Option ContractPrecision)
    (lhs : FVec Ideal (⟨2, ![M, K]⟩ : Shape) φ₁) (rhs : FVec Ideal (⟨2, ![N, K]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 q k) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 q k := by
    funext a
    apply Fin.ext
    match a with
    | ⟨0, _⟩ => exact h.rhs_row _ _
    | ⟨1, _⟩ => exact (d.rhsIdx_val_of_single h.rc _ _).trans (contrEquiv1_symm_val d K h.rank h.size k)
  rw [hl, hr]

end RowsRows

/-! ## The body's payload at an entry -/

theorem rowsRows3 : IsRowsRows dot_S512x256_S512x256_S512x512_1_1_0_0_n_n := ⟨rfl, rfl, rfl, rfl, rfl, rfl⟩

/-- At the exact extended reals the change of float format is the identity, so the body's payload at the
    entry `(p, q)` is the inner product of row `p` of the first block with row `q` of the second. -/
theorem pay3_apply (a b : Vec Ideal S512x256 .f32) (p q : Fin 512) :
    (k3_pay1 a b : S512x512.Idx → EReal) (ix2 p q) = ∑ k : Fin 256, (a (ix2 p k) : EReal) * (b (ix2 q k) : EReal) := by
  unfold k3_pay1
  simp only [shapeCast_self, matmul]
  exact rowsRows3.apply none _ _ p q

/-! ## From the blocks to the array -/

theorem zeros2 : (![0, 0] : Fin 2 → Nat) = fun _ => 0 := funext fun a => by fin_cases a <;> rfl

/-- The block indices over the grid: at point `t = 8 i + j` the first input window is on row block `i`, the
    second on row block `j`, the output window on block `(i, j)`. -/
theorem idx3 : ∀ t : Fin cfg3.N, win3_0.index t (0 : Fin 2) = win3_2.index t (0 : Fin 2)
    ∧ win3_0.index t (1 : Fin 2) = 0
    ∧ win3_1.index t (0 : Fin 2) = win3_2.index t (1 : Fin 2)
    ∧ win3_1.index t (1 : Fin 2) = 0 :=
  (by decide +kernel : ∀ t : Fin grid3.N, _)

/-- Every one of the 8 × 8 blocks of the output is some point's. -/
theorem onto3 : ∀ (q0 q1 : Fin 8), ∃ t : Fin cfg3.N, win3_2.index t = ![q0.val, q1.val] :=
  (by decide +kernel : ∀ (q0 q1 : Fin 8), ∃ t : Fin grid3.N, win3_2.index t = ![q0.val, q1.val])

/-- At one entry: if row `p` of the first block is row `I 0` of the array and row `q` of the second block is
    row `I 1` of it, the payload at `(p, q)` is the Gram matrix at `I`. -/
theorem pay3_eq_gram (s : S4096x256.Idx → EReal) (a b : Vec Ideal S512x256 .f32) (I : S4096x4096.Idx) (p q : Fin 512)
    (ha : ∀ k : Fin 256, (a (ix2 p k) : EReal) = s (ix2 (I 0) k)) (hb : ∀ k : Fin 256, (b (ix2 q k) : EReal) = s (ix2 (I 1) k)) :
    (k3_pay1 a b : S512x512.Idx → EReal) (ix2 p q) = Cert.Spec.gram s I := by
  rw [pay3_apply]
  exact Finset.sum_congr rfl fun k _ => by rw [ha, hb]

variable (V : (c : Dev nD) → (b : Ref sig .tc) → Buf (Elt Ideal) ((c : Thread nD τ).loc b))

/-- What point `t` writes back is block `t` of the Gram matrix of the input array as the region finds it. -/
theorem flushed3_eq (c : Dev nD) (t : Fin cfg3.N) :
    (dat3 V c).flushed 2 t = ((cfg3.win 2).blk t).view.read (Elt Ideal) (Cert.Spec.gram (V c main_v81)) := by
  show (cfg3.win 2).cut (grid3.coords t) ((dat3 V c).after 2 t) = _
  rw [dat3_after2]
  unfold res3
  rw [View.canon_unit_zero zeros2]
  obtain ⟨e0, e1, e2, e3⟩ := idx3 t
  funext j
  obtain ⟨p, q, rfl⟩ : ∃ (p q : Fin 512), j = ix2 p q := ⟨j 0, j 1, eq_ix2 j⟩
  show (k3_pay1 (blk3 V c 0 t) (blk3 V c 1 t) : S512x512.Idx → EReal) (ix2 p q)
    = Cert.Spec.gram (V c main_v81) (((cfg3.win 2).blk t).view.emb (ix2 p q))
  refine pay3_eq_gram (V c main_v81) (blk3 V c 0 t) (blk3 V c 1 t) _ p q (fun k => ?_) (fun k => ?_)
  · show V c main_v81 (((cfg3.win 0).blk t).view.emb (ix2 p k)) = _
    refine congrArg (V c main_v81) ?_
    funext a; apply Fin.ext
    match a with
    | ⟨0, _⟩ => show win3_0.index t (0 : Fin 2) * 512 + 1 * p.val = win3_2.index t (0 : Fin 2) * 512 + 1 * p.val; omega
    | ⟨1, _⟩ => show win3_0.index t (1 : Fin 2) * 256 + 1 * k.val = k.val; omega
  · show V c main_v81 (((cfg3.win 1).blk t).view.emb (ix2 q k)) = _
    refine congrArg (V c main_v81) ?_
    funext a; apply Fin.ext
    match a with
    | ⟨0, _⟩ => show win3_1.index t (0 : Fin 2) * 512 + 1 * q.val = win3_2.index t (1 : Fin 2) * 512 + 1 * q.val; omega
    | ⟨1, _⟩ => show win3_1.index t (1 : Fin 2) * 256 + 1 * k.val = k.val; omega

/-- An entry of the output array is in point `t`'s block iff each coordinate is in the block's range. -/
theorem mem_blk3 (t : Fin cfg3.N) (i : S4096x4096.Idx) :
    i ∈ ((cfg3.win 2).blk t).view.set ↔ ∀ a : Fin 2, win3_2.index t a * S512x512.size a ≤ (i a).val
      ∧ (i a).val < win3_2.index t a * S512x512.size a + S512x512.size a := by
  show i ∈ ((View.whole main_v82).slice (win3_2.rect t)).set ↔ _
  rw [View.set_slice_whole, Rect.mem_set_unit]
  exact Iff.rfl

/-- The 64 blocks cover the array: the entry `(r, s)` lies in block `(r / 512, s / 512)`. -/
theorem covered3 (i : S4096x4096.Idx) :
    ∃ t : Fin cfg3.N, (cfg3.win 2).flush t = true ∧ i ∈ ((cfg3.win 2).blk t).view.set := by
  have hi0 : (i 0).val < 4096 := (i 0).isLt
  have hi1 : (i 1).val < 4096 := (i 1).isLt
  obtain ⟨t, ht⟩ := onto3 ⟨(i 0).val / 512, by omega⟩ ⟨(i 1).val / 512, by omega⟩
  have q0 : win3_2.index t (0 : Fin 2) = (i 0).val / 512 := congrFun ht 0
  have q1 : win3_2.index t (1 : Fin 2) = (i 1).val / 512 := congrFun ht 1
  refine ⟨t, flush3_2 t, ?_⟩
  rw [mem_blk3]
  intro a
  match a with
  | ⟨0, _⟩ => show win3_2.index t (0 : Fin 2) * 512 ≤ (i 0).val ∧ (i 0).val < win3_2.index t (0 : Fin 2) * 512 + 512; omega
  | ⟨1, _⟩ => show win3_2.index t (1 : Fin 2) * 512 ≤ (i 1).val ∧ (i 1).val < win3_2.index t (1 : Fin 2) * 512 + 512; omega

/-- The output array after the region is the Gram matrix of the input array: entry `(r, s)` is the inner
    product of rows `r` and `s`. -/
theorem val3 (c : Dev nD) :
    ((dat3 (F := Ideal) V c).arrAt 2 cfg3.N : S4096x4096.Idx → EReal) = Cert.Spec.gram (V c main_v81) :=
  (dat3 V c).arrAt_eq_of_cover 2 (Cert.Spec.gram (V c main_v81)) (fun t _ => flushed3_eq V c t) covered3

end Cert.KernelIdeal.Fr

end
-- ==== Proof.RefMm.lean ====
/-
  The reference program's two matrix products, read entry by entry over the extended reals.

  The host's contraction of a 20000 × 256 matrix with a 256 × 256 matrix along the shared axis of length 256 is, at
  the entry (p, q), the sum over k of l (p, k) · r (k, q); the contraction of a 4096 × 256 matrix with its own
  transpose is, at (p, q), the sum over k of s (p, k) · s (q, k): the transpose read at (k, q) is the matrix read at
  (q, k). In both the contraction index has one axis, of length 256, and the sum over it is re-indexed by that
  axis's coordinate.
-/
import proofs.«120954_j58265526338342_1_alg».proof.ReferenceIdeal
import proofs.«120954_j58265526338342_1_alg».proof.Proof.SpecMm
import proofs.«120954_j58265526338342_1_alg».proof.Proof.LibMatmul
import Idealize.ShloMosaic.Lib.Pipeline.Value

noncomputable section

open scoped BigOperators
open Idealize.ShloMosaic Idealize.ShloMosaic.ValueIdx

namespace Cert.ReferenceIdeal.RefVal

open Cert.ReferenceIdeal

/-- A host contraction of rows with columns (the left operand's second axis against the right operand's first,
    no batch axis), read at the entry (p, q) over the extended reals: the sum over the contracted axis of the
    products of the left operand's row p with the right operand's column q. -/
theorem dotGeneral_plain {M K N : ℕ} {φ₁ φ₂ : FTy}
    {d : DotDims (⟨2, ![M, K]⟩ : Shape) (⟨2, ![K, N]⟩ : Shape) (⟨2, ![M, N]⟩ : Shape)} (h : PlainMatmul.IsPlain d)
    (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral d prec sched lhs rhs (ix2 p q)
      = ∑ k : Fin K, (lhs (ix2 p k) : EReal) * (rhs (ix2 k q) : EReal) := by
  rw [Ideal.dotGeneral_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

variable [Facts₀]
open Facts₀

/-- The features times a weight matrix, entry by entry. -/
theorem mm_eq (l : (⟨S20000x256, .f32⟩ : BufTy).Contents (Elt Ideal)) (r : (⟨S256x256, .f32⟩ : BufTy).Contents (Elt Ideal)) :
    Host.dotGeneral (F := Ideal) (φ₁ := .f32) (φ₂ := .f32) dot_S20000x256_S256x256_S20000x256_1_0_0_1_n_n none l r = Cert.Spec.mm l r := by
  funext j
  obtain ⟨p, q, rfl⟩ : ∃ (p : Fin 20000) (q : Fin 256), j = ix2 p q := ⟨j 0, j 1, eq_ix2 j⟩
  rw [Cert.Spec.mm_apply]
  exact dotGeneral_plain ⟨rfl, rfl, rfl, rfl, rfl, rfl⟩ none .single l r p q

/-- The rows' matrix times its own transpose, entry by entry: the Gram matrix of the rows. -/
theorem gram_eq (s : (⟨S4096x256, .f32⟩ : BufTy).Contents (Elt Ideal)) :
    Host.dotGeneral (F := Ideal) (φ₁ := .f32) (φ₂ := .f32) dot_S4096x256_S256x4096_S4096x4096_1_0_0_1_n_n none s
        (transpose S256x4096 [1, 0] s transposes_S4096x256_S256x4096_1_0) = Cert.Spec.gram s := by
  funext j
  obtain ⟨p, q, rfl⟩ : ∃ (p : Fin 4096) (q : Fin 4096), j = ix2 p q := ⟨j 0, j 1, eq_ix2 j⟩
  rw [Cert.Spec.gram_apply]
  refine (dotGeneral_plain ⟨rfl, rfl, rfl, rfl, rfl, rfl⟩ none .single s _ p q).trans ?_
  refine Finset.sum_congr rfl fun k _ => ?_
  refine congrArg (fun x : EReal => s (ix2 p k) * x) ?_
  refine transpose_apply [1, 0] s transposes_S4096x256_S256x4096_1_0 (ix2 k q) (ix2 q k) fun b => ?_
  match b with
  | ⟨0, _⟩ => rfl
  | ⟨1, _⟩ => rfl

end Cert.ReferenceIdeal.RefVal

end
-- ==== Proof.KI.Value.lean ====
/-
  The two results of the kernel program at the ideal instance, as functions of the launch contents of its eleven
  arguments. Each kernel region's result array is the matrix product of its two operands (the regions' value
  lemmas), which is what the reference's `dot_general` computes on the same operands; the host operations between
  the regions are the graph-convolution terms read in `Read`; an argument array is never written. So the first
  result is the second layer read at the index table, and the second is the Gram matrix of the third product's
  layer read at the same table — the terms `out57` and `out83` of the reference.
-/
import proofs.«120954_j58265526338342_1_alg».proof.Proof.KI.Chain
import proofs.«120954_j58265526338342_1_alg».proof.Proof.KI.Kept
import proofs.«120954_j58265526338342_1_alg».proof.Proof.KI.Read
import proofs.«120954_j58265526338342_1_alg».proof.Proof.KI.Val0
import proofs.«120954_j58265526338342_1_alg».proof.Proof.KI.Val1
import proofs.«120954_j58265526338342_1_alg».proof.Proof.KI.Val2
import proofs.«120954_j58265526338342_1_alg».proof.Proof.KI.Val3
import proofs.«120954_j58265526338342_1_alg».proof.Proof.RefMm
import proofs.«120954_j58265526338342_1_alg».proof.Proof.Ref.Terms

set_option maxRecDepth 16384

noncomputable section

namespace Cert.KernelIdeal.Fr

open Idealize.ShloMosaic Idealize.ShloMosaic.TcCoe
open Idealize.SL.Sem
open Cert.KernelIdeal Cert.KernelIdeal.Gen
open Cert.ReferenceIdeal.RefRun (mm gcn relu idx rows out57 out83)
open Cert.ReferenceIdeal.RefVal (mm_eq gram_eq)

variable (m : (ℓ : Loc nD τ sig) → Buf (Elt Ideal) ℓ) (c : Dev nD)

/-- Region 0 leaves the product of the node features with the first weight matrix. -/
theorem first_product : U1 m c (Proc.devRef .tc main_v0) = mm (U0 m c (Proc.devRef .tc main_arg0)) (U0 m c (Proc.devRef .tc main_arg5)) := by
  show Function.update (U0 m c) main_v0 (X0 m c) main_v0 = _
  rw [Function.update_self]
  exact (val0 (onTcRefs (U0 m)) c).trans (mm_eq _ _).symm

/-- The first layer, rectified. -/
theorem first_layer :
    U3 m c (Proc.devRef .tc main_v17) = relu (gcn (mm (U0 m c (Proc.devRef .tc main_arg0)) (U0 m c (Proc.devRef .tc main_arg5))) (U0 m c (Proc.devRef .tc main_arg1)) (U0 m c (Proc.devRef .tc main_arg2)) (U0 m c (Proc.devRef .tc main_arg3)) (U0 m c (Proc.devRef .tc main_arg6))) := by
  refine (layer1 (U1 m c)).trans ?_
  rw [first_product, U1_arg1, U1_arg2, U1_arg3, U1_arg6]

/-- Region 1 leaves the product of the first layer with the second weight matrix. -/
theorem second_product :
    U4 m c (Proc.devRef .tc main_v18)
      = mm (relu (gcn (mm (U0 m c (Proc.devRef .tc main_arg0)) (U0 m c (Proc.devRef .tc main_arg5))) (U0 m c (Proc.devRef .tc main_arg1)) (U0 m c (Proc.devRef .tc main_arg2)) (U0 m c (Proc.devRef .tc main_arg3)) (U0 m c (Proc.devRef .tc main_arg6)))) (U0 m c (Proc.devRef .tc main_arg7)) := by
  show Function.update (U3 m c) main_v18 (X1 m c) main_v18 = _
  rw [Function.update_self]
  refine (val1 (onTcRefs (U3 m)) c).trans ?_
  show Cert.Spec.mm (U3 m c (Proc.devRef .tc main_v17)) (U3 m c (Proc.devRef .tc main_arg7)) = _
  rw [first_layer, U3_arg7]
  exact (mm_eq _ _).symm

/-- The index table. -/
theorem the_table : U15 m c (Proc.devRef .tc main_v50) = idx (U0 m c (Proc.devRef .tc main_arg4)) := by
  refine (StableHlo.after_of_writes_sub hostOps2_10 _ hostOps2_10_writes (by decide)).trans ?_
  refine (table (U4 m c)).trans ?_
  rw [U4_arg4]

/-- THE FIRST RESULT: the second layer read at the table. -/
theorem first_result : U18 m c (Proc.devRef .tc main_v57) = out57 (U0 m c (Proc.devRef .tc main_arg0)) (U0 m c (Proc.devRef .tc main_arg1)) (U0 m c (Proc.devRef .tc main_arg2)) (U0 m c (Proc.devRef .tc main_arg3)) (U0 m c (Proc.devRef .tc main_arg4)) (U0 m c (Proc.devRef .tc main_arg5)) (U0 m c (Proc.devRef .tc main_arg6)) (U0 m c (Proc.devRef .tc main_arg7)) (U0 m c (Proc.devRef .tc main_arg8)) (U0 m c (Proc.devRef .tc main_arg9)) (U0 m c (Proc.devRef .tc main_arg10)) := by
  rw [U18_v57]
  refine (layer2 (U4 m c)).trans ?_
  rw [second_product, U4_arg1, U4_arg2, U4_arg3, U4_arg8, U4_arg4]
  rfl

/-- Region 2 leaves the product of the node features with the third weight matrix. -/
theorem third_product : U16 m c (Proc.devRef .tc main_v58) = mm (U0 m c (Proc.devRef .tc main_arg0)) (U0 m c (Proc.devRef .tc main_arg9)) := by
  show Function.update (U15 m c) main_v58 (X2 m c) main_v58 = _
  rw [Function.update_self]
  refine (val2 (onTcRefs (U15 m)) c).trans ?_
  show Cert.Spec.mm (U15 m c (Proc.devRef .tc main_arg0)) (U15 m c (Proc.devRef .tc main_arg9)) = _
  rw [U15_arg0, U15_arg9]
  exact (mm_eq _ _).symm

/-- The third product's layer read at the table. -/
theorem third_rows :
    U17 m c (Proc.devRef .tc main_v81)
      = rows (gcn (mm (U0 m c (Proc.devRef .tc main_arg0)) (U0 m c (Proc.devRef .tc main_arg9))) (U0 m c (Proc.devRef .tc main_arg1)) (U0 m c (Proc.devRef .tc main_arg2)) (U0 m c (Proc.devRef .tc main_arg3)) (U0 m c (Proc.devRef .tc main_arg10))) (idx (U0 m c (Proc.devRef .tc main_arg4))) := by
  refine (layer3 (U16 m c)).trans ?_
  rw [third_product, U16_arg1, U16_arg2, U16_arg3, U16_arg10, U16_v50, the_table]

/-- THE SECOND RESULT: region 3 leaves the Gram matrix of those rows. -/
theorem second_result : U18 m c (Proc.devRef .tc main_v82) = out83 (U0 m c (Proc.devRef .tc main_arg0)) (U0 m c (Proc.devRef .tc main_arg1)) (U0 m c (Proc.devRef .tc main_arg2)) (U0 m c (Proc.devRef .tc main_arg3)) (U0 m c (Proc.devRef .tc main_arg4)) (U0 m c (Proc.devRef .tc main_arg5)) (U0 m c (Proc.devRef .tc main_arg6)) (U0 m c (Proc.devRef .tc main_arg7)) (U0 m c (Proc.devRef .tc main_arg8)) (U0 m c (Proc.devRef .tc main_arg9)) (U0 m c (Proc.devRef .tc main_arg10)) := by
  show Function.update (U17 m c) main_v82 (X3 m c) main_v82 = _
  rw [Function.update_self]
  refine (val3 (onTcRefs (U17 m)) c).trans ?_
  show Cert.Spec.gram (U17 m c (Proc.devRef .tc main_v81)) = _
  rw [third_rows]
  exact (gram_eq _).symm

end Cert.KernelIdeal.Fr

end
-- ==== Proof.KI.Results.lean ====
/-
  The kernel program at the ideal instance, run from any memory: it terminates without a fault, its two result
  buffers end at the reference's two terms of the launch contents of the eleven arguments, and the arguments end
  unchanged.
-/
import proofs.«120954_j58265526338342_1_alg».proof.Proof.KI.Run
import proofs.«120954_j58265526338342_1_alg».proof.Proof.KI.Kept
import proofs.«120954_j58265526338342_1_alg».proof.Proof.KI.Value

set_option maxRecDepth 16384

noncomputable section

namespace Cert.KernelIdeal.Fr

open Idealize.ShloMosaic Idealize.ShloMosaic.TcCoe
open Idealize.SL.Sem
open Cert.KernelIdeal Cert.KernelIdeal.Gen
open Cert.ReferenceIdeal.RefRun (out57 out83)

theorem run_results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v57) = out57 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v82) = out83 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_all m ρ (hQ := fun s h c =>
    ⟨(h c _ (Finset.mem_filter.mpr ⟨StableHlo.devRef_mem_tcRefs main_v57, by decide⟩)).trans (first_result m c),
     (h c _ (Finset.mem_filter.mpr ⟨StableHlo.devRef_mem_tcRefs main_v82, by decide⟩)).trans (second_result m c),
     (h c _ (Finset.mem_filter.mpr ⟨StableHlo.devRef_mem_tcRefs main_arg0, by decide⟩)).trans (U18_arg0 m c),
     (h c _ (Finset.mem_filter.mpr ⟨StableHlo.devRef_mem_tcRefs main_arg1, by decide⟩)).trans (U18_arg1 m c),
     (h c _ (Finset.mem_filter.mpr ⟨StableHlo.devRef_mem_tcRefs main_arg2, by decide⟩)).trans (U18_arg2 m c),
     (h c _ (Finset.mem_filter.mpr ⟨StableHlo.devRef_mem_tcRefs main_arg3, by decide⟩)).trans (U18_arg3 m c),
     (h c _ (Finset.mem_filter.mpr ⟨StableHlo.devRef_mem_tcRefs main_arg4, by decide⟩)).trans (U18_arg4 m c),
     (h c _ (Finset.mem_filter.mpr ⟨StableHlo.devRef_mem_tcRefs main_arg5, by decide⟩)).trans (U18_arg5 m c),
     (h c _ (Finset.mem_filter.mpr ⟨StableHlo.devRef_mem_tcRefs main_arg6, by decide⟩)).trans (U18_arg6 m c),
     (h c _ (Finset.mem_filter.mpr ⟨StableHlo.devRef_mem_tcRefs main_arg7, by decide⟩)).trans (U18_arg7 m c),
     (h c _ (Finset.mem_filter.mpr ⟨StableHlo.devRef_mem_tcRefs main_arg8, by decide⟩)).trans (U18_arg8 m c),
     (h c _ (Finset.mem_filter.mpr ⟨StableHlo.devRef_mem_tcRefs main_arg9, by decide⟩)).trans (U18_arg9 m c),
     (h c _ (Finset.mem_filter.mpr ⟨StableHlo.devRef_mem_tcRefs main_arg10, by decide⟩)).trans (U18_arg10 m c)⟩)

end Cert.KernelIdeal.Fr

end
-- ==== Proof.Ref.OpsList.lean ====
/-
  The reference program's @main as one straight line of tensor operations.

  The printed @main is a sequence of statements some of which call outlined functions (a prefix sum of
  a mask, a clamp, a prefix sum of counts, a floor division, a remainder and a rectifier; some call a
  further function). Calling a function means running its body on the caller's operands, each value of
  the body living in a buffer of the call's record. Substituting each body at its call site, over that
  call's record, gives the list `ops` of 149 operations and no calls, in program order.
  Every operation reads and writes buffers of the TensorCore only (`ops_sub`).
-/
import proofs.«120954_j58265526338342_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- @main's 149 operations in program order, each outlined function's operations in place of its call. -/
abbrev ops : List (HloOp τ sig (Elt F)) :=
  [ StableHlo.nullary main_c (constantI S_ 32 1#32),
    StableHlo.unary main_c main_v0 (broadcastInDim S20000 ![] bcast_S_S20000 : (⟨S_, .i32⟩ : BufTy).Contents (Elt F) → (⟨S20000, .i32⟩ : BufTy).Contents (Elt F)),
    StableHlo.binary main_arg4 main_v0 main_v1 (cmpi .eq : (⟨S20000, .i32⟩ : BufTy).Contents (Elt F) → (⟨S20000, .i32⟩ : BufTy).Contents (Elt F) → (⟨S20000, .i1⟩ : BufTy).Contents (Elt F)),
    StableHlo.TRef.unary (.of main_v1 : StableHlo.TRef sig ⟨S20000, .i1⟩) main_call0.v0 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v0 main_call0.call0.v0 main_call0.call0.v1 (fun x v => Host.reduceWindow IntOp.addi ![20000] ![1] ![19999] ![0] x v reduceWindows_S20000_S20000_w20000s1p19999_0 h_S_),
    StableHlo.nullary main_c_0 (constantI S_ 32 0#32),
    StableHlo.unary main_c_0 main_v3 (broadcastInDim S4096 ![] bcast_S_S4096 : (⟨S_, .i32⟩ : BufTy).Contents (Elt F) → (⟨S4096, .i32⟩ : BufTy).Contents (Elt F)),
    StableHlo.nullary main_c_1 (constantI S_ 32 0#32),
    StableHlo.TRef.unary (.of main_c_1 : StableHlo.TRef sig ⟨S_, .i32⟩) main_call1.v0 id,
    StableHlo.TRef.unary main_call1.v0 main_call1.v1 (broadcastInDim S20000 ![] bcast_S_S20000),
    StableHlo.TRef.binary main_call1.v1 (.of main_v2 : StableHlo.TRef sig ⟨S20000, .i32⟩) main_call1.v2 maxsi,
    StableHlo.nullary main_c_2 (constantI S_ 32 0#32),
    StableHlo.unary main_c_2 main_v5 (broadcastInDim S20000 ![] bcast_S_S20000 : (⟨S_, .i32⟩ : BufTy).Contents (Elt F) → (⟨S20000, .i32⟩ : BufTy).Contents (Elt F)),
    StableHlo.binary main_v4 main_v5 main_v6 (cmpi .slt : (⟨S20000, .i32⟩ : BufTy).Contents (Elt F) → (⟨S20000, .i32⟩ : BufTy).Contents (Elt F) → (⟨S20000, .i1⟩ : BufTy).Contents (Elt F)),
    StableHlo.nullary main_c_3 (constantI S_ 32 4096#32),
    StableHlo.unary main_c_3 main_v7 (broadcastInDim S20000 ![] bcast_S_S20000 : (⟨S_, .i32⟩ : BufTy).Contents (Elt F) → (⟨S20000, .i32⟩ : BufTy).Contents (Elt F)),
    StableHlo.binary main_v4 main_v7 main_v8 (addi : (⟨S20000, .i32⟩ : BufTy).Contents (Elt F) → (⟨S20000, .i32⟩ : BufTy).Contents (Elt F) → (⟨S20000, .i32⟩ : BufTy).Contents (Elt F)),
    StableHlo.ternary main_v6 main_v8 main_v4 main_v9 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    StableHlo.unary main_v9 main_v10 (broadcastInDim S20000x1 ![0] bcast_S20000_S20000x1_0 : (⟨S20000, .i32⟩ : BufTy).Contents (Elt F) → (⟨S20000x1, .i32⟩ : BufTy).Contents (Elt F)),
    StableHlo.nullary main_c_4 (constantI S_ 32 1#32),
    StableHlo.unary main_c_4 main_v11 (broadcastInDim S20000 ![] bcast_S_S20000 : (⟨S_, .i32⟩ : BufTy).Contents (Elt F) → (⟨S20000, .i32⟩ : BufTy).Contents (Elt F)),
    StableHlo.ternary main_v3 main_v10 main_v11 main_v12 ((fun x i u => Host.scatter scatter_S4096_S20000x1_S20000_n_0_0_1 IntOp.addi x i u) : (⟨S4096, .i32⟩ : BufTy).Contents (Elt F) → (⟨S20000x1, .i32⟩ : BufTy).Contents (Elt F) → (⟨S20000, .i32⟩ : BufTy).Contents (Elt F) → (⟨S4096, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v12 : StableHlo.TRef sig ⟨S4096, .i32⟩) main_call2.call0.v0 main_call2.call0.v1 (fun x v => Host.reduceWindow IntOp.addi ![4096] ![1] ![4095] ![0] x v reduceWindows_S4096_S4096_w4096s1p4095_0 h_S_),
    StableHlo.nullary main_c_5 (constantI S_ 32 1#32),
    StableHlo.TRef.unary (.of main_c_5 : StableHlo.TRef sig ⟨S_, .i32⟩) main_call3.v0 (broadcastInDim S4096 ![] bcast_S_S4096),
    StableHlo.TRef.binary (.of main_v13 : StableHlo.TRef sig ⟨S4096, .i32⟩) main_call3.v0 main_call3.v1 Host.divsi,
    StableHlo.TRef.unary (.of main_v13 : StableHlo.TRef sig ⟨S4096, .i32⟩) main_call3.v2 signi,
    StableHlo.TRef.unary (.of main_c_5 : StableHlo.TRef sig ⟨S_, .i32⟩) main_call3.v3 signi,
    StableHlo.TRef.unary main_call3.v3 main_call3.v4 (broadcastInDim S4096 ![] bcast_S_S4096),
    StableHlo.TRef.binary main_call3.v2 main_call3.v4 main_call3.v5 (cmpi .ne),
    StableHlo.TRef.unary (.of main_c_5 : StableHlo.TRef sig ⟨S_, .i32⟩) main_call3.v6 (broadcastInDim S4096 ![] bcast_S_S4096),
    StableHlo.TRef.binary (.of main_v13 : StableHlo.TRef sig ⟨S4096, .i32⟩) main_call3.v6 main_call3.v7 Host.remsi,
    StableHlo.TRef.nullary main_call3.c (constantI S_ 32 0#32),
    StableHlo.TRef.unary main_call3.c main_call3.v8 (broadcastInDim S4096 ![] bcast_S_S4096),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S4096 ![] bcast_S_S4096),
    StableHlo.TRef.binary main_call3.v1 main_call3.v11 main_call3.v12 subi,
    StableHlo.TRef.ternary main_call3.v10 main_call3.v12 main_call3.v1 main_call3.call0.v0 select,
    StableHlo.nullary main_c_6 (constantI S_ 32 20000#32),
    StableHlo.TRef.unary (.of main_c_6 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S4096 ![] bcast_S_S4096),
    StableHlo.TRef.binary (.of main_v14 : StableHlo.TRef sig ⟨S4096, .i32⟩) main_call4.v3 main_call4.v4 Host.remsi,
    StableHlo.TRef.nullary main_call4.c_1 (constantI S_ 32 0#32),
    StableHlo.TRef.unary main_call4.c_1 main_call4.v5 (broadcastInDim S4096 ![] bcast_S_S4096),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S4096 ![] bcast_S_S4096),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S4096 ![] bcast_S_S4096),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S4096 ![] bcast_S_S4096),
    StableHlo.TRef.binary main_call4.v4 main_call4.v13 main_call4.v14 addi,
    StableHlo.TRef.ternary main_call4.v12 main_call4.v14 main_call4.v4 main_call4.v15 select,
    StableHlo.binary main_arg0 main_arg5 main_v16 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.nullary main_c_7 (constantI S_ 32 0#32),
    StableHlo.unary main_c_7 main_v17 (broadcastInDim S320000 ![] bcast_S_S320000 : (⟨S_, .i32⟩ : BufTy).Contents (Elt F) → (⟨S320000, .i32⟩ : BufTy).Contents (Elt F)),
    StableHlo.binary main_arg2 main_v17 main_v18 (cmpi .slt : (⟨S320000, .i32⟩ : BufTy).Contents (Elt F) → (⟨S320000, .i32⟩ : BufTy).Contents (Elt F) → (⟨S320000, .i1⟩ : BufTy).Contents (Elt F)),
    StableHlo.nullary main_c_8 (constantI S_ 32 20000#32),
    StableHlo.unary main_c_8 main_v19 (broadcastInDim S320000 ![] bcast_S_S320000 : (⟨S_, .i32⟩ : BufTy).Contents (Elt F) → (⟨S320000, .i32⟩ : BufTy).Contents (Elt F)),
    StableHlo.binary main_arg2 main_v19 main_v20 (addi : (⟨S320000, .i32⟩ : BufTy).Contents (Elt F) → (⟨S320000, .i32⟩ : BufTy).Contents (Elt F) → (⟨S320000, .i32⟩ : BufTy).Contents (Elt F)),
    StableHlo.ternary main_v18 main_v20 main_arg2 main_v21 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v21 main_v22 (broadcastInDim S320000x1 ![0] bcast_S320000_S320000x1_0 : (⟨S320000, .i32⟩ : BufTy).Contents (Elt F) → (⟨S320000x1, .i32⟩ : BufTy).Contents (Elt F)),
    StableHlo.binary main_v16 main_v22 main_v23 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.unary main_arg3 main_v24 (broadcastInDim S320000x1 ![0] bcast_S320000_S320000x1_0 : (⟨S320000, .f32⟩ : BufTy).Contents (Elt F) → (⟨S320000x1, .f32⟩ : BufTy).Contents (Elt F)),
    StableHlo.unary main_v24 main_v25 (broadcastInDim S320000x256 ![0, 1] bcast_S320000x1_S320000x256_0_1 : (⟨S320000x1, .f32⟩ : BufTy).Contents (Elt F) → (⟨S320000x256, .f32⟩ : BufTy).Contents (Elt F)),
    StableHlo.binary main_v23 main_v25 main_v26 (mulf : (⟨S320000x256, .f32⟩ : BufTy).Contents (Elt F) → (⟨S320000x256, .f32⟩ : BufTy).Contents (Elt F) → (⟨S320000x256, .f32⟩ : BufTy).Contents (Elt F)),
    StableHlo.nullary main_cst (constant S_ .f32 0x00000000#32),
    StableHlo.unary main_cst main_v27 (broadcastInDim S20000x256 ![] bcast_S_S20000x256 : (⟨S_, .f32⟩ : BufTy).Contents (Elt F) → (⟨S20000x256, .f32⟩ : BufTy).Contents (Elt F)),
    StableHlo.unary main_arg1 main_v28 (broadcastInDim S320000x1 ![0] bcast_S320000_S320000x1_0 : (⟨S320000, .i32⟩ : BufTy).Contents (Elt F) → (⟨S320000x1, .i32⟩ : BufTy).Contents (Elt F)),
    StableHlo.ternary main_v27 main_v28 main_v26 main_v29 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_arg6 main_v30 (broadcastInDim S1x256 ![1] bcast_S256_S1x256_1 : (⟨S256, .f32⟩ : BufTy).Contents (Elt F) → (⟨S1x256, .f32⟩ : BufTy).Contents (Elt F)),
    StableHlo.unary main_v30 main_v31 (broadcastInDim S20000x256 ![0, 1] bcast_S1x256_S20000x256_0_1 : (⟨S1x256, .f32⟩ : BufTy).Contents (Elt F) → (⟨S20000x256, .f32⟩ : BufTy).Contents (Elt F)),
    StableHlo.binary main_v29 main_v31 main_v32 (addf : (⟨S20000x256, .f32⟩ : BufTy).Contents (Elt F) → (⟨S20000x256, .f32⟩ : BufTy).Contents (Elt F) → (⟨S20000x256, .f32⟩ : BufTy).Contents (Elt F)),
    StableHlo.TRef.nullary main_call5.cst (constant S_ .f32 0x00000000#32),
    StableHlo.TRef.unary main_call5.cst main_call5.v0 (broadcastInDim S20000x256 ![] bcast_S_S20000x256),
    StableHlo.TRef.binary (.of main_v32 : StableHlo.TRef sig ⟨S20000x256, .f32⟩) main_call5.v0 main_call5.v1 maximumf,
    StableHlo.binary main_v33 main_arg7 main_v34 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.nullary main_c_9 (constantI S_ 32 0#32),
    StableHlo.unary main_c_9 main_v35 (broadcastInDim S320000 ![] bcast_S_S320000 : (⟨S_, .i32⟩ : BufTy).Contents (Elt F) → (⟨S320000, .i32⟩ : BufTy).Contents (Elt F)),
    StableHlo.binary main_arg2 main_v35 main_v36 (cmpi .slt : (⟨S320000, .i32⟩ : BufTy).Contents (Elt F) → (⟨S320000, .i32⟩ : BufTy).Contents (Elt F) → (⟨S320000, .i1⟩ : BufTy).Contents (Elt F)),
    StableHlo.nullary main_c_10 (constantI S_ 32 20000#32),
    StableHlo.unary main_c_10 main_v37 (broadcastInDim S320000 ![] bcast_S_S320000 : (⟨S_, .i32⟩ : BufTy).Contents (Elt F) → (⟨S320000, .i32⟩ : BufTy).Contents (Elt F)),
    StableHlo.binary main_arg2 main_v37 main_v38 (addi : (⟨S320000, .i32⟩ : BufTy).Contents (Elt F) → (⟨S320000, .i32⟩ : BufTy).Contents (Elt F) → (⟨S320000, .i32⟩ : BufTy).Contents (Elt F)),
    StableHlo.ternary main_v36 main_v38 main_arg2 main_v39 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v39 main_v40 (broadcastInDim S320000x1 ![0] bcast_S320000_S320000x1_0 : (⟨S320000, .i32⟩ : BufTy).Contents (Elt F) → (⟨S320000x1, .i32⟩ : BufTy).Contents (Elt F)),
    StableHlo.binary main_v34 main_v40 main_v41 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.unary main_arg3 main_v42 (broadcastInDim S320000x1 ![0] bcast_S320000_S320000x1_0 : (⟨S320000, .f32⟩ : BufTy).Contents (Elt F) → (⟨S320000x1, .f32⟩ : BufTy).Contents (Elt F)),
    StableHlo.unary main_v42 main_v43 (broadcastInDim S320000x256 ![0, 1] bcast_S320000x1_S320000x256_0_1 : (⟨S320000x1, .f32⟩ : BufTy).Contents (Elt F) → (⟨S320000x256, .f32⟩ : BufTy).Contents (Elt F)),
    StableHlo.binary main_v41 main_v43 main_v44 (mulf : (⟨S320000x256, .f32⟩ : BufTy).Contents (Elt F) → (⟨S320000x256, .f32⟩ : BufTy).Contents (Elt F) → (⟨S320000x256, .f32⟩ : BufTy).Contents (Elt F)),
    StableHlo.nullary main_cst_11 (constant S_ .f32 0x00000000#32),
    StableHlo.unary main_cst_11 main_v45 (broadcastInDim S20000x256 ![] bcast_S_S20000x256 : (⟨S_, .f32⟩ : BufTy).Contents (Elt F) → (⟨S20000x256, .f32⟩ : BufTy).Contents (Elt F)),
    StableHlo.unary main_arg1 main_v46 (broadcastInDim S320000x1 ![0] bcast_S320000_S320000x1_0 : (⟨S320000, .i32⟩ : BufTy).Contents (Elt F) → (⟨S320000x1, .i32⟩ : BufTy).Contents (Elt F)),
    StableHlo.ternary main_v45 main_v46 main_v44 main_v47 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_arg8 main_v48 (broadcastInDim S1x256 ![1] bcast_S256_S1x256_1 : (⟨S256, .f32⟩ : BufTy).Contents (Elt F) → (⟨S1x256, .f32⟩ : BufTy).Contents (Elt F)),
    StableHlo.unary main_v48 main_v49 (broadcastInDim S20000x256 ![0, 1] bcast_S1x256_S20000x256_0_1 : (⟨S1x256, .f32⟩ : BufTy).Contents (Elt F) → (⟨S20000x256, .f32⟩ : BufTy).Contents (Elt F)),
    StableHlo.binary main_v47 main_v49 main_v50 (addf : (⟨S20000x256, .f32⟩ : BufTy).Contents (Elt F) → (⟨S20000x256, .f32⟩ : BufTy).Contents (Elt F) → (⟨S20000x256, .f32⟩ : BufTy).Contents (Elt F)),
    StableHlo.nullary main_c_12 (constantI S_ 32 0#32),
    StableHlo.unary main_c_12 main_v51 (broadcastInDim S4096 ![] bcast_S_S4096 : (⟨S_, .i32⟩ : BufTy).Contents (Elt F) → (⟨S4096, .i32⟩ : BufTy).Contents (Elt F)),
    StableHlo.binary main_v15 main_v51 main_v52 (cmpi .slt : (⟨S4096, .i32⟩ : BufTy).Contents (Elt F) → (⟨S4096, .i32⟩ : BufTy).Contents (Elt F) → (⟨S4096, .i1⟩ : BufTy).Contents (Elt F)),
    StableHlo.nullary main_c_13 (constantI S_ 32 20000#32),
    StableHlo.unary main_c_13 main_v53 (broadcastInDim S4096 ![] bcast_S_S4096 : (⟨S_, .i32⟩ : BufTy).Contents (Elt F) → (⟨S4096, .i32⟩ : BufTy).Contents (Elt F)),
    StableHlo.binary main_v15 main_v53 main_v54 (addi : (⟨S4096, .i32⟩ : BufTy).Contents (Elt F) → (⟨S4096, .i32⟩ : BufTy).Contents (Elt F) → (⟨S4096, .i32⟩ : BufTy).Contents (Elt F)),
    StableHlo.ternary main_v52 main_v54 main_v15 main_v55 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v55 main_v56 (broadcastInDim S4096x1 ![0] bcast_S4096_S4096x1_0 : (⟨S4096, .i32⟩ : BufTy).Contents (Elt F) → (⟨S4096x1, .i32⟩ : BufTy).Contents (Elt F)),
    StableHlo.binary main_v50 main_v56 main_v57 ((fun x i => Host.gather gather_S20000x256_S4096x1_S4096x256_1_0_n_n_0_1_1256 x i) : (⟨S20000x256, .f32⟩ : BufTy).Contents (Elt F) → (⟨S4096x1, .i32⟩ : BufTy).Contents (Elt F) → (⟨S4096x256, .f32⟩ : BufTy).Contents (Elt F)),
    StableHlo.binary main_arg0 main_arg9 main_v58 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.nullary main_c_14 (constantI S_ 32 0#32),
    StableHlo.unary main_c_14 main_v59 (broadcastInDim S320000 ![] bcast_S_S320000 : (⟨S_, .i32⟩ : BufTy).Contents (Elt F) → (⟨S320000, .i32⟩ : BufTy).Contents (Elt F)),
    StableHlo.binary main_arg2 main_v59 main_v60 (cmpi .slt : (⟨S320000, .i32⟩ : BufTy).Contents (Elt F) → (⟨S320000, .i32⟩ : BufTy).Contents (Elt F) → (⟨S320000, .i1⟩ : BufTy).Contents (Elt F)),
    StableHlo.nullary main_c_15 (constantI S_ 32 20000#32),
    StableHlo.unary main_c_15 main_v61 (broadcastInDim S320000 ![] bcast_S_S320000 : (⟨S_, .i32⟩ : BufTy).Contents (Elt F) → (⟨S320000, .i32⟩ : BufTy).Contents (Elt F)),
    StableHlo.binary main_arg2 main_v61 main_v62 (addi : (⟨S320000, .i32⟩ : BufTy).Contents (Elt F) → (⟨S320000, .i32⟩ : BufTy).Contents (Elt F) → (⟨S320000, .i32⟩ : BufTy).Contents (Elt F)),
    StableHlo.ternary main_v60 main_v62 main_arg2 main_v63 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v63 main_v64 (broadcastInDim S320000x1 ![0] bcast_S320000_S320000x1_0 : (⟨S320000, .i32⟩ : BufTy).Contents (Elt F) → (⟨S320000x1, .i32⟩ : BufTy).Contents (Elt F)),
    StableHlo.binary main_v58 main_v64 main_v65 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.unary main_arg3 main_v66 (broadcastInDim S320000x1 ![0] bcast_S320000_S320000x1_0 : (⟨S320000, .f32⟩ : BufTy).Contents (Elt F) → (⟨S320000x1, .f32⟩ : BufTy).Contents (Elt F)),
    StableHlo.unary main_v66 main_v67 (broadcastInDim S320000x256 ![0, 1] bcast_S320000x1_S320000x256_0_1 : (⟨S320000x1, .f32⟩ : BufTy).Contents (Elt F) → (⟨S320000x256, .f32⟩ : BufTy).Contents (Elt F)),
    StableHlo.binary main_v65 main_v67 main_v68 (mulf : (⟨S320000x256, .f32⟩ : BufTy).Contents (Elt F) → (⟨S320000x256, .f32⟩ : BufTy).Contents (Elt F) → (⟨S320000x256, .f32⟩ : BufTy).Contents (Elt F)),
    StableHlo.nullary main_cst_16 (constant S_ .f32 0x00000000#32),
    StableHlo.unary main_cst_16 main_v69 (broadcastInDim S20000x256 ![] bcast_S_S20000x256 : (⟨S_, .f32⟩ : BufTy).Contents (Elt F) → (⟨S20000x256, .f32⟩ : BufTy).Contents (Elt F)),
    StableHlo.unary main_arg1 main_v70 (broadcastInDim S320000x1 ![0] bcast_S320000_S320000x1_0 : (⟨S320000, .i32⟩ : BufTy).Contents (Elt F) → (⟨S320000x1, .i32⟩ : BufTy).Contents (Elt F)),
    StableHlo.ternary main_v69 main_v70 main_v68 main_v71 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_arg10 main_v72 (broadcastInDim S1x256 ![1] bcast_S256_S1x256_1 : (⟨S256, .f32⟩ : BufTy).Contents (Elt F) → (⟨S1x256, .f32⟩ : BufTy).Contents (Elt F)),
    StableHlo.unary main_v72 main_v73 (broadcastInDim S20000x256 ![0, 1] bcast_S1x256_S20000x256_0_1 : (⟨S1x256, .f32⟩ : BufTy).Contents (Elt F) → (⟨S20000x256, .f32⟩ : BufTy).Contents (Elt F)),
    StableHlo.binary main_v71 main_v73 main_v74 (addf : (⟨S20000x256, .f32⟩ : BufTy).Contents (Elt F) → (⟨S20000x256, .f32⟩ : BufTy).Contents (Elt F) → (⟨S20000x256, .f32⟩ : BufTy).Contents (Elt F)),
    StableHlo.nullary main_c_17 (constantI S_ 32 0#32),
    StableHlo.unary main_c_17 main_v75 (broadcastInDim S4096 ![] bcast_S_S4096 : (⟨S_, .i32⟩ : BufTy).Contents (Elt F) → (⟨S4096, .i32⟩ : BufTy).Contents (Elt F)),
    StableHlo.binary main_v15 main_v75 main_v76 (cmpi .slt : (⟨S4096, .i32⟩ : BufTy).Contents (Elt F) → (⟨S4096, .i32⟩ : BufTy).Contents (Elt F) → (⟨S4096, .i1⟩ : BufTy).Contents (Elt F)),
    StableHlo.nullary main_c_18 (constantI S_ 32 20000#32),
    StableHlo.unary main_c_18 main_v77 (broadcastInDim S4096 ![] bcast_S_S4096 : (⟨S_, .i32⟩ : BufTy).Contents (Elt F) → (⟨S4096, .i32⟩ : BufTy).Contents (Elt F)),
    StableHlo.binary main_v15 main_v77 main_v78 (addi : (⟨S4096, .i32⟩ : BufTy).Contents (Elt F) → (⟨S4096, .i32⟩ : BufTy).Contents (Elt F) → (⟨S4096, .i32⟩ : BufTy).Contents (Elt F)),
    StableHlo.ternary main_v76 main_v78 main_v15 main_v79 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v79 main_v80 (broadcastInDim S4096x1 ![0] bcast_S4096_S4096x1_0 : (⟨S4096, .i32⟩ : BufTy).Contents (Elt F) → (⟨S4096x1, .i32⟩ : BufTy).Contents (Elt F)),
    StableHlo.binary main_v74 main_v80 main_v81 ((fun x i => Host.gather gather_S20000x256_S4096x1_S4096x256_1_0_n_n_0_1_1256 x i) : (⟨S20000x256, .f32⟩ : BufTy).Contents (Elt F) → (⟨S4096x1, .i32⟩ : BufTy).Contents (Elt F) → (⟨S4096x256, .f32⟩ : BufTy).Contents (Elt F)),
    StableHlo.unary main_v81 main_v82 ((transpose S256x4096 [1, 0] · transposes_S4096x256_S256x4096_1_0) : (⟨S4096x256, .f32⟩ : BufTy).Contents (Elt F) → (⟨S256x4096, .f32⟩ : BufTy).Contents (Elt F)),
    StableHlo.binary main_v81 main_v82 main_v83 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)) ]

set_option maxHeartbeats 40000000 in
/-- Each operation touches TensorCore buffers only. -/
theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub ..⟩

end Cert.ReferenceIdeal.RefRun

end
-- ==== Proof.Ref.MainEq.lean ====
/-
  The reference program's @main is the straight line `ops`.

  @main is printed as two consecutive windows of statements; a statement is either one tensor
  operation or a call of an outlined function, which is the function's body run over the call's
  buffer record, ending in a return. Unfolding the windows and every function at its call turns
  @main into nested sequencings of single operations and returns; sequencing is associative and a
  return is its left unit, so the nest is the right-nested sequence of the same operations in
  program order, which is what `seq ops` unfolds to.

  The signature declares tensor buffers only: none of them scoped, and no semaphore.
-/
import proofs.«120954_j58265526338342_1_alg».proof.Proof.Ref.OpsList

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one hundred and forty-nine sequencings are reassociated: the rewriting recurses once per operation
set_option maxRecDepth 65536 in
set_option maxHeartbeats 40000000 in
/-- @main is the sequential composition of `ops`: the windows and the functions unfolded at their calls, the
    sequencing reassociated and each body's closing return dropped. -/
theorem main_eq (c : Dev nD) : main (F := F) c = seq ops := by
  simp only [main, main_part0, main_part1, fn_cumsum.body, fn_cumsum_0.body, fn_clip.body, fn_cumsum_1.body,
    fn_cumsum_2.body, fn_floor_divide.body, fn_where.body, fn_remainder.body, fn_where_3.body, fn_relu.body,
    seq, bind_assoc, pure_bind]

/-- No TensorCore buffer of the signature is scoped. -/
theorem scopedRefs_eq : (Finset.univ.filter fun b : Ref sig .tc => b.isScoped) = ∅ := by decide

/-- The signature has no semaphore, hence no scoped one. -/
theorem scopedSems_eq : (Finset.univ.filter fun sm : SemLoc sig => sm.isScoped .tc) = ∅ := by decide

end Cert.ReferenceIdeal.RefRun

end
-- ==== Proof.Ref.Segs.lean ====
/-
  The straight line `ops` cut into consecutive stretches, one per stage of the computation, and for each
  stretch the list of the buffers its operations write (each operation writes exactly its result buffer).
-/
import proofs.«120954_j58265526338342_1_alg».proof.Proof.Ref.OpsList

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 1 … 13 of `ops`. -/
abbrev seg1 : List (HloOp τ sig (Elt F)) :=
  [ StableHlo.nullary main_c (constantI S_ 32 1#32),
    StableHlo.unary main_c main_v0 (broadcastInDim S20000 ![] bcast_S_S20000 : (⟨S_, .i32⟩ : BufTy).Contents (Elt F) → (⟨S20000, .i32⟩ : BufTy).Contents (Elt F)),
    StableHlo.binary main_arg4 main_v0 main_v1 (cmpi .eq : (⟨S20000, .i32⟩ : BufTy).Contents (Elt F) → (⟨S20000, .i32⟩ : BufTy).Contents (Elt F) → (⟨S20000, .i1⟩ : BufTy).Contents (Elt F)),
    StableHlo.TRef.unary (.of main_v1 : StableHlo.TRef sig ⟨S20000, .i1⟩) main_call0.v0 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v0 main_call0.call0.v0 main_call0.call0.v1 (fun x v => Host.reduceWindow IntOp.addi ![20000] ![1] ![19999] ![0] x v reduceWindows_S20000_S20000_w20000s1p19999_0 h_S_),
    StableHlo.nullary main_c_0 (constantI S_ 32 0#32),
    StableHlo.unary main_c_0 main_v3 (broadcastInDim S4096 ![] bcast_S_S4096 : (⟨S_, .i32⟩ : BufTy).Contents (Elt F) → (⟨S4096, .i32⟩ : BufTy).Contents (Elt F)),
    StableHlo.nullary main_c_1 (constantI S_ 32 0#32),
    StableHlo.TRef.unary (.of main_c_1 : StableHlo.TRef sig ⟨S_, .i32⟩) main_call1.v0 id,
    StableHlo.TRef.unary main_call1.v0 main_call1.v1 (broadcastInDim S20000 ![] bcast_S_S20000),
    StableHlo.TRef.binary main_call1.v1 (.of main_v2 : StableHlo.TRef sig ⟨S20000, .i32⟩) main_call1.v2 maxsi ]
/-- The buffers `seg1`'s operations write. -/
abbrev seg1_W : List (Ref sig .tc) := [main_c, main_v0, main_v1, main_call0.v0.ref, main_call0.call0.c.ref, main_call0.call0.v0.ref, main_call0.call0.v1.ref, main_c_0, main_v3, main_c_1, main_call1.v0.ref, main_call1.v1.ref, main_call1.v2.ref]
set_option maxHeartbeats 40000000 in
theorem seg1_writes : (seg1 : List (HloOp τ sig (Elt F))).Forall fun op => op.writes ⊆ (seg1_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxHeartbeats 40000000 in
/-- Operations 14 … 27 of `ops`. -/
abbrev seg2 : List (HloOp τ sig (Elt F)) :=
  [ StableHlo.nullary main_c_2 (constantI S_ 32 0#32),
    StableHlo.unary main_c_2 main_v5 (broadcastInDim S20000 ![] bcast_S_S20000 : (⟨S_, .i32⟩ : BufTy).Contents (Elt F) → (⟨S20000, .i32⟩ : BufTy).Contents (Elt F)),
    StableHlo.binary main_v4 main_v5 main_v6 (cmpi .slt : (⟨S20000, .i32⟩ : BufTy).Contents (Elt F) → (⟨S20000, .i32⟩ : BufTy).Contents (Elt F) → (⟨S20000, .i1⟩ : BufTy).Contents (Elt F)),
    StableHlo.nullary main_c_3 (constantI S_ 32 4096#32),
    StableHlo.unary main_c_3 main_v7 (broadcastInDim S20000 ![] bcast_S_S20000 : (⟨S_, .i32⟩ : BufTy).Contents (Elt F) → (⟨S20000, .i32⟩ : BufTy).Contents (Elt F)),
    StableHlo.binary main_v4 main_v7 main_v8 (addi : (⟨S20000, .i32⟩ : BufTy).Contents (Elt F) → (⟨S20000, .i32⟩ : BufTy).Contents (Elt F) → (⟨S20000, .i32⟩ : BufTy).Contents (Elt F)),
    StableHlo.ternary main_v6 main_v8 main_v4 main_v9 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    StableHlo.unary main_v9 main_v10 (broadcastInDim S20000x1 ![0] bcast_S20000_S20000x1_0 : (⟨S20000, .i32⟩ : BufTy).Contents (Elt F) → (⟨S20000x1, .i32⟩ : BufTy).Contents (Elt F)),
    StableHlo.nullary main_c_4 (constantI S_ 32 1#32),
    StableHlo.unary main_c_4 main_v11 (broadcastInDim S20000 ![] bcast_S_S20000 : (⟨S_, .i32⟩ : BufTy).Contents (Elt F) → (⟨S20000, .i32⟩ : BufTy).Contents (Elt F)),
    StableHlo.ternary main_v3 main_v10 main_v11 main_v12 ((fun x i u => Host.scatter scatter_S4096_S20000x1_S20000_n_0_0_1 IntOp.addi x i u) : (⟨S4096, .i32⟩ : BufTy).Contents (Elt F) → (⟨S20000x1, .i32⟩ : BufTy).Contents (Elt F) → (⟨S20000, .i32⟩ : BufTy).Contents (Elt F) → (⟨S4096, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v12 : StableHlo.TRef sig ⟨S4096, .i32⟩) main_call2.call0.v0 main_call2.call0.v1 (fun x v => Host.reduceWindow IntOp.addi ![4096] ![1] ![4095] ![0] x v reduceWindows_S4096_S4096_w4096s1p4095_0 h_S_) ]
/-- The buffers `seg2`'s operations write. -/
abbrev seg2_W : List (Ref sig .tc) := [main_c_2, main_v5, main_v6, main_c_3, main_v7, main_v8, main_v9, main_v10, main_c_4, main_v11, main_v12, main_call2.call0.c.ref, main_call2.call0.v0.ref, main_call2.call0.v1.ref]
set_option maxHeartbeats 40000000 in
theorem seg2_writes : (seg2 : List (HloOp τ sig (Elt F))).Forall fun op => op.writes ⊆ (seg2_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxHeartbeats 40000000 in
/-- Operations 28 … 44 of `ops`. -/
abbrev seg3 : List (HloOp τ sig (Elt F)) :=
  [ StableHlo.nullary main_c_5 (constantI S_ 32 1#32),
    StableHlo.TRef.unary (.of main_c_5 : StableHlo.TRef sig ⟨S_, .i32⟩) main_call3.v0 (broadcastInDim S4096 ![] bcast_S_S4096),
    StableHlo.TRef.binary (.of main_v13 : StableHlo.TRef sig ⟨S4096, .i32⟩) main_call3.v0 main_call3.v1 Host.divsi,
    StableHlo.TRef.unary (.of main_v13 : StableHlo.TRef sig ⟨S4096, .i32⟩) main_call3.v2 signi,
    StableHlo.TRef.unary (.of main_c_5 : StableHlo.TRef sig ⟨S_, .i32⟩) main_call3.v3 signi,
    StableHlo.TRef.unary main_call3.v3 main_call3.v4 (broadcastInDim S4096 ![] bcast_S_S4096),
    StableHlo.TRef.binary main_call3.v2 main_call3.v4 main_call3.v5 (cmpi .ne),
    StableHlo.TRef.unary (.of main_c_5 : StableHlo.TRef sig ⟨S_, .i32⟩) main_call3.v6 (broadcastInDim S4096 ![] bcast_S_S4096),
    StableHlo.TRef.binary (.of main_v13 : StableHlo.TRef sig ⟨S4096, .i32⟩) main_call3.v6 main_call3.v7 Host.remsi,
    StableHlo.TRef.nullary main_call3.c (constantI S_ 32 0#32),
    StableHlo.TRef.unary main_call3.c main_call3.v8 (broadcastInDim S4096 ![] bcast_S_S4096),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S4096 ![] bcast_S_S4096),
    StableHlo.TRef.binary main_call3.v1 main_call3.v11 main_call3.v12 subi,
    StableHlo.TRef.ternary main_call3.v10 main_call3.v12 main_call3.v1 main_call3.call0.v0 select ]
/-- The buffers `seg3`'s operations write. -/
abbrev seg3_W : List (Ref sig .tc) := [main_c_5, main_call3.v0.ref, main_call3.v1.ref, main_call3.v2.ref, main_call3.v3.ref, main_call3.v4.ref, main_call3.v5.ref, main_call3.v6.ref, main_call3.v7.ref, main_call3.c.ref, main_call3.v8.ref, main_call3.v9.ref, main_call3.v10.ref, main_call3.c_0.ref, main_call3.v11.ref, main_call3.v12.ref, main_call3.call0.v0.ref]
set_option maxHeartbeats 40000000 in
theorem seg3_writes : (seg3 : List (HloOp τ sig (Elt F))).Forall fun op => op.writes ⊆ (seg3_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxHeartbeats 40000000 in
/-- Operations 45 … 66 of `ops`. -/
abbrev seg4 : List (HloOp τ sig (Elt F)) :=
  [ StableHlo.nullary main_c_6 (constantI S_ 32 20000#32),
    StableHlo.TRef.unary (.of main_c_6 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S4096 ![] bcast_S_S4096),
    StableHlo.TRef.binary (.of main_v14 : StableHlo.TRef sig ⟨S4096, .i32⟩) main_call4.v3 main_call4.v4 Host.remsi,
    StableHlo.TRef.nullary main_call4.c_1 (constantI S_ 32 0#32),
    StableHlo.TRef.unary main_call4.c_1 main_call4.v5 (broadcastInDim S4096 ![] bcast_S_S4096),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S4096 ![] bcast_S_S4096),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S4096 ![] bcast_S_S4096),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S4096 ![] bcast_S_S4096),
    StableHlo.TRef.binary main_call4.v4 main_call4.v13 main_call4.v14 addi,
    StableHlo.TRef.ternary main_call4.v12 main_call4.v14 main_call4.v4 main_call4.v15 select ]
/-- The buffers `seg4`'s operations write. -/
abbrev seg4_W : List (Ref sig .tc) := [main_c_6, main_call4.v0.ref, main_call4.c.ref, main_call4.v1.ref, main_call4.c_0.ref, main_call4.call0.v0.ref, main_call4.v3.ref, main_call4.v4.ref, main_call4.c_1.ref, main_call4.v5.ref, main_call4.v6.ref, main_call4.c_2.ref, main_call4.v7.ref, main_call4.v8.ref, main_call4.c_3.ref, main_call4.v9.ref, main_call4.v10.ref, main_call4.v11.ref, main_call4.v12.ref, main_call4.v13.ref, main_call4.v14.ref, main_call4.v15.ref]
set_option maxHeartbeats 40000000 in
theorem seg4_writes : (seg4 : List (HloOp τ sig (Elt F))).Forall fun op => op.writes ⊆ (seg4_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxHeartbeats 40000000 in
/-- Operations 67 … 89 of `ops`. -/
abbrev seg5 : List (HloOp τ sig (Elt F)) :=
  [ StableHlo.binary main_arg0 main_arg5 main_v16 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.nullary main_c_7 (constantI S_ 32 0#32),
    StableHlo.unary main_c_7 main_v17 (broadcastInDim S320000 ![] bcast_S_S320000 : (⟨S_, .i32⟩ : BufTy).Contents (Elt F) → (⟨S320000, .i32⟩ : BufTy).Contents (Elt F)),
    StableHlo.binary main_arg2 main_v17 main_v18 (cmpi .slt : (⟨S320000, .i32⟩ : BufTy).Contents (Elt F) → (⟨S320000, .i32⟩ : BufTy).Contents (Elt F) → (⟨S320000, .i1⟩ : BufTy).Contents (Elt F)),
    StableHlo.nullary main_c_8 (constantI S_ 32 20000#32),
    StableHlo.unary main_c_8 main_v19 (broadcastInDim S320000 ![] bcast_S_S320000 : (⟨S_, .i32⟩ : BufTy).Contents (Elt F) → (⟨S320000, .i32⟩ : BufTy).Contents (Elt F)),
    StableHlo.binary main_arg2 main_v19 main_v20 (addi : (⟨S320000, .i32⟩ : BufTy).Contents (Elt F) → (⟨S320000, .i32⟩ : BufTy).Contents (Elt F) → (⟨S320000, .i32⟩ : BufTy).Contents (Elt F)),
    StableHlo.ternary main_v18 main_v20 main_arg2 main_v21 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v21 main_v22 (broadcastInDim S320000x1 ![0] bcast_S320000_S320000x1_0 : (⟨S320000, .i32⟩ : BufTy).Contents (Elt F) → (⟨S320000x1, .i32⟩ : BufTy).Contents (Elt F)),
    StableHlo.binary main_v16 main_v22 main_v23 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.unary main_arg3 main_v24 (broadcastInDim S320000x1 ![0] bcast_S320000_S320000x1_0 : (⟨S320000, .f32⟩ : BufTy).Contents (Elt F) → (⟨S320000x1, .f32⟩ : BufTy).Contents (Elt F)),
    StableHlo.unary main_v24 main_v25 (broadcastInDim S320000x256 ![0, 1] bcast_S320000x1_S320000x256_0_1 : (⟨S320000x1, .f32⟩ : BufTy).Contents (Elt F) → (⟨S320000x256, .f32⟩ : BufTy).Contents (Elt F)),
    StableHlo.binary main_v23 main_v25 main_v26 (mulf : (⟨S320000x256, .f32⟩ : BufTy).Contents (Elt F) → (⟨S320000x256, .f32⟩ : BufTy).Contents (Elt F) → (⟨S320000x256, .f32⟩ : BufTy).Contents (Elt F)),
    StableHlo.nullary main_cst (constant S_ .f32 0x00000000#32),
    StableHlo.unary main_cst main_v27 (broadcastInDim S20000x256 ![] bcast_S_S20000x256 : (⟨S_, .f32⟩ : BufTy).Contents (Elt F) → (⟨S20000x256, .f32⟩ : BufTy).Contents (Elt F)),
    StableHlo.unary main_arg1 main_v28 (broadcastInDim S320000x1 ![0] bcast_S320000_S320000x1_0 : (⟨S320000, .i32⟩ : BufTy).Contents (Elt F) → (⟨S320000x1, .i32⟩ : BufTy).Contents (Elt F)),
    StableHlo.ternary main_v27 main_v28 main_v26 main_v29 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_arg6 main_v30 (broadcastInDim S1x256 ![1] bcast_S256_S1x256_1 : (⟨S256, .f32⟩ : BufTy).Contents (Elt F) → (⟨S1x256, .f32⟩ : BufTy).Contents (Elt F)),
    StableHlo.unary main_v30 main_v31 (broadcastInDim S20000x256 ![0, 1] bcast_S1x256_S20000x256_0_1 : (⟨S1x256, .f32⟩ : BufTy).Contents (Elt F) → (⟨S20000x256, .f32⟩ : BufTy).Contents (Elt F)),
    StableHlo.binary main_v29 main_v31 main_v32 (addf : (⟨S20000x256, .f32⟩ : BufTy).Contents (Elt F) → (⟨S20000x256, .f32⟩ : BufTy).Contents (Elt F) → (⟨S20000x256, .f32⟩ : BufTy).Contents (Elt F)),
    StableHlo.TRef.nullary main_call5.cst (constant S_ .f32 0x00000000#32),
    StableHlo.TRef.unary main_call5.cst main_call5.v0 (broadcastInDim S20000x256 ![] bcast_S_S20000x256),
    StableHlo.TRef.binary (.of main_v32 : StableHlo.TRef sig ⟨S20000x256, .f32⟩) main_call5.v0 main_call5.v1 maximumf ]
/-- The buffers `seg5`'s operations write. -/
abbrev seg5_W : List (Ref sig .tc) := [main_v16, main_c_7, main_v17, main_v18, main_c_8, main_v19, main_v20, main_v21, main_v22, main_v23, main_v24, main_v25, main_v26, main_cst, main_v27, main_v28, main_v29, main_v30, main_v31, main_v32, main_call5.cst.ref, main_call5.v0.ref, main_call5.v1.ref]
set_option maxHeartbeats 40000000 in
theorem seg5_writes : (seg5 : List (HloOp τ sig (Elt F))).Forall fun op => op.writes ⊆ (seg5_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxHeartbeats 40000000 in
/-- Operations 90 … 109 of `ops`. -/
abbrev seg6 : List (HloOp τ sig (Elt F)) :=
  [ StableHlo.binary main_v33 main_arg7 main_v34 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.nullary main_c_9 (constantI S_ 32 0#32),
    StableHlo.unary main_c_9 main_v35 (broadcastInDim S320000 ![] bcast_S_S320000 : (⟨S_, .i32⟩ : BufTy).Contents (Elt F) → (⟨S320000, .i32⟩ : BufTy).Contents (Elt F)),
    StableHlo.binary main_arg2 main_v35 main_v36 (cmpi .slt : (⟨S320000, .i32⟩ : BufTy).Contents (Elt F) → (⟨S320000, .i32⟩ : BufTy).Contents (Elt F) → (⟨S320000, .i1⟩ : BufTy).Contents (Elt F)),
    StableHlo.nullary main_c_10 (constantI S_ 32 20000#32),
    StableHlo.unary main_c_10 main_v37 (broadcastInDim S320000 ![] bcast_S_S320000 : (⟨S_, .i32⟩ : BufTy).Contents (Elt F) → (⟨S320000, .i32⟩ : BufTy).Contents (Elt F)),
    StableHlo.binary main_arg2 main_v37 main_v38 (addi : (⟨S320000, .i32⟩ : BufTy).Contents (Elt F) → (⟨S320000, .i32⟩ : BufTy).Contents (Elt F) → (⟨S320000, .i32⟩ : BufTy).Contents (Elt F)),
    StableHlo.ternary main_v36 main_v38 main_arg2 main_v39 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v39 main_v40 (broadcastInDim S320000x1 ![0] bcast_S320000_S320000x1_0 : (⟨S320000, .i32⟩ : BufTy).Contents (Elt F) → (⟨S320000x1, .i32⟩ : BufTy).Contents (Elt F)),
    StableHlo.binary main_v34 main_v40 main_v41 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.unary main_arg3 main_v42 (broadcastInDim S320000x1 ![0] bcast_S320000_S320000x1_0 : (⟨S320000, .f32⟩ : BufTy).Contents (Elt F) → (⟨S320000x1, .f32⟩ : BufTy).Contents (Elt F)),
    StableHlo.unary main_v42 main_v43 (broadcastInDim S320000x256 ![0, 1] bcast_S320000x1_S320000x256_0_1 : (⟨S320000x1, .f32⟩ : BufTy).Contents (Elt F) → (⟨S320000x256, .f32⟩ : BufTy).Contents (Elt F)),
    StableHlo.binary main_v41 main_v43 main_v44 (mulf : (⟨S320000x256, .f32⟩ : BufTy).Contents (Elt F) → (⟨S320000x256, .f32⟩ : BufTy).Contents (Elt F) → (⟨S320000x256, .f32⟩ : BufTy).Contents (Elt F)),
    StableHlo.nullary main_cst_11 (constant S_ .f32 0x00000000#32),
    StableHlo.unary main_cst_11 main_v45 (broadcastInDim S20000x256 ![] bcast_S_S20000x256 : (⟨S_, .f32⟩ : BufTy).Contents (Elt F) → (⟨S20000x256, .f32⟩ : BufTy).Contents (Elt F)),
    StableHlo.unary main_arg1 main_v46 (broadcastInDim S320000x1 ![0] bcast_S320000_S320000x1_0 : (⟨S320000, .i32⟩ : BufTy).Contents (Elt F) → (⟨S320000x1, .i32⟩ : BufTy).Contents (Elt F)),
    StableHlo.ternary main_v45 main_v46 main_v44 main_v47 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_arg8 main_v48 (broadcastInDim S1x256 ![1] bcast_S256_S1x256_1 : (⟨S256, .f32⟩ : BufTy).Contents (Elt F) → (⟨S1x256, .f32⟩ : BufTy).Contents (Elt F)),
    StableHlo.unary main_v48 main_v49 (broadcastInDim S20000x256 ![0, 1] bcast_S1x256_S20000x256_0_1 : (⟨S1x256, .f32⟩ : BufTy).Contents (Elt F) → (⟨S20000x256, .f32⟩ : BufTy).Contents (Elt F)),
    StableHlo.binary main_v47 main_v49 main_v50 (addf : (⟨S20000x256, .f32⟩ : BufTy).Contents (Elt F) → (⟨S20000x256, .f32⟩ : BufTy).Contents (Elt F) → (⟨S20000x256, .f32⟩ : BufTy).Contents (Elt F)) ]
/-- The buffers `seg6`'s operations write. -/
abbrev seg6_W : List (Ref sig .tc) := [main_v34, main_c_9, main_v35, main_v36, main_c_10, main_v37, main_v38, main_v39, main_v40, main_v41, main_v42, main_v43, main_v44, main_cst_11, main_v45, main_v46, main_v47, main_v48, main_v49, main_v50]
set_option maxHeartbeats 40000000 in
theorem seg6_writes : (seg6 : List (HloOp τ sig (Elt F))).Forall fun op => op.writes ⊆ (seg6_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxHeartbeats 40000000 in
/-- Operations 110 … 118 of `ops`. -/
abbrev seg7 : List (HloOp τ sig (Elt F)) :=
  [ StableHlo.nullary main_c_12 (constantI S_ 32 0#32),
    StableHlo.unary main_c_12 main_v51 (broadcastInDim S4096 ![] bcast_S_S4096 : (⟨S_, .i32⟩ : BufTy).Contents (Elt F) → (⟨S4096, .i32⟩ : BufTy).Contents (Elt F)),
    StableHlo.binary main_v15 main_v51 main_v52 (cmpi .slt : (⟨S4096, .i32⟩ : BufTy).Contents (Elt F) → (⟨S4096, .i32⟩ : BufTy).Contents (Elt F) → (⟨S4096, .i1⟩ : BufTy).Contents (Elt F)),
    StableHlo.nullary main_c_13 (constantI S_ 32 20000#32),
    StableHlo.unary main_c_13 main_v53 (broadcastInDim S4096 ![] bcast_S_S4096 : (⟨S_, .i32⟩ : BufTy).Contents (Elt F) → (⟨S4096, .i32⟩ : BufTy).Contents (Elt F)),
    StableHlo.binary main_v15 main_v53 main_v54 (addi : (⟨S4096, .i32⟩ : BufTy).Contents (Elt F) → (⟨S4096, .i32⟩ : BufTy).Contents (Elt F) → (⟨S4096, .i32⟩ : BufTy).Contents (Elt F)),
    StableHlo.ternary main_v52 main_v54 main_v15 main_v55 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v55 main_v56 (broadcastInDim S4096x1 ![0] bcast_S4096_S4096x1_0 : (⟨S4096, .i32⟩ : BufTy).Contents (Elt F) → (⟨S4096x1, .i32⟩ : BufTy).Contents (Elt F)),
    StableHlo.binary main_v50 main_v56 main_v57 ((fun x i => Host.gather gather_S20000x256_S4096x1_S4096x256_1_0_n_n_0_1_1256 x i) : (⟨S20000x256, .f32⟩ : BufTy).Contents (Elt F) → (⟨S4096x1, .i32⟩ : BufTy).Contents (Elt F) → (⟨S4096x256, .f32⟩ : BufTy).Contents (Elt F)) ]
/-- The buffers `seg7`'s operations write. -/
abbrev seg7_W : List (Ref sig .tc) := [main_c_12, main_v51, main_v52, main_c_13, main_v53, main_v54, main_v55, main_v56, main_v57]
set_option maxHeartbeats 40000000 in
theorem seg7_writes : (seg7 : List (HloOp τ sig (Elt F))).Forall fun op => op.writes ⊆ (seg7_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxHeartbeats 40000000 in
/-- Operations 119 … 138 of `ops`. -/
abbrev seg8 : List (HloOp τ sig (Elt F)) :=
  [ StableHlo.binary main_arg0 main_arg9 main_v58 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.nullary main_c_14 (constantI S_ 32 0#32),
    StableHlo.unary main_c_14 main_v59 (broadcastInDim S320000 ![] bcast_S_S320000 : (⟨S_, .i32⟩ : BufTy).Contents (Elt F) → (⟨S320000, .i32⟩ : BufTy).Contents (Elt F)),
    StableHlo.binary main_arg2 main_v59 main_v60 (cmpi .slt : (⟨S320000, .i32⟩ : BufTy).Contents (Elt F) → (⟨S320000, .i32⟩ : BufTy).Contents (Elt F) → (⟨S320000, .i1⟩ : BufTy).Contents (Elt F)),
    StableHlo.nullary main_c_15 (constantI S_ 32 20000#32),
    StableHlo.unary main_c_15 main_v61 (broadcastInDim S320000 ![] bcast_S_S320000 : (⟨S_, .i32⟩ : BufTy).Contents (Elt F) → (⟨S320000, .i32⟩ : BufTy).Contents (Elt F)),
    StableHlo.binary main_arg2 main_v61 main_v62 (addi : (⟨S320000, .i32⟩ : BufTy).Contents (Elt F) → (⟨S320000, .i32⟩ : BufTy).Contents (Elt F) → (⟨S320000, .i32⟩ : BufTy).Contents (Elt F)),
    StableHlo.ternary main_v60 main_v62 main_arg2 main_v63 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v63 main_v64 (broadcastInDim S320000x1 ![0] bcast_S320000_S320000x1_0 : (⟨S320000, .i32⟩ : BufTy).Contents (Elt F) → (⟨S320000x1, .i32⟩ : BufTy).Contents (Elt F)),
    StableHlo.binary main_v58 main_v64 main_v65 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.unary main_arg3 main_v66 (broadcastInDim S320000x1 ![0] bcast_S320000_S320000x1_0 : (⟨S320000, .f32⟩ : BufTy).Contents (Elt F) → (⟨S320000x1, .f32⟩ : BufTy).Contents (Elt F)),
    StableHlo.unary main_v66 main_v67 (broadcastInDim S320000x256 ![0, 1] bcast_S320000x1_S320000x256_0_1 : (⟨S320000x1, .f32⟩ : BufTy).Contents (Elt F) → (⟨S320000x256, .f32⟩ : BufTy).Contents (Elt F)),
    StableHlo.binary main_v65 main_v67 main_v68 (mulf : (⟨S320000x256, .f32⟩ : BufTy).Contents (Elt F) → (⟨S320000x256, .f32⟩ : BufTy).Contents (Elt F) → (⟨S320000x256, .f32⟩ : BufTy).Contents (Elt F)),
    StableHlo.nullary main_cst_16 (constant S_ .f32 0x00000000#32),
    StableHlo.unary main_cst_16 main_v69 (broadcastInDim S20000x256 ![] bcast_S_S20000x256 : (⟨S_, .f32⟩ : BufTy).Contents (Elt F) → (⟨S20000x256, .f32⟩ : BufTy).Contents (Elt F)),
    StableHlo.unary main_arg1 main_v70 (broadcastInDim S320000x1 ![0] bcast_S320000_S320000x1_0 : (⟨S320000, .i32⟩ : BufTy).Contents (Elt F) → (⟨S320000x1, .i32⟩ : BufTy).Contents (Elt F)),
    StableHlo.ternary main_v69 main_v70 main_v68 main_v71 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_arg10 main_v72 (broadcastInDim S1x256 ![1] bcast_S256_S1x256_1 : (⟨S256, .f32⟩ : BufTy).Contents (Elt F) → (⟨S1x256, .f32⟩ : BufTy).Contents (Elt F)),
    StableHlo.unary main_v72 main_v73 (broadcastInDim S20000x256 ![0, 1] bcast_S1x256_S20000x256_0_1 : (⟨S1x256, .f32⟩ : BufTy).Contents (Elt F) → (⟨S20000x256, .f32⟩ : BufTy).Contents (Elt F)),
    StableHlo.binary main_v71 main_v73 main_v74 (addf : (⟨S20000x256, .f32⟩ : BufTy).Contents (Elt F) → (⟨S20000x256, .f32⟩ : BufTy).Contents (Elt F) → (⟨S20000x256, .f32⟩ : BufTy).Contents (Elt F)) ]
/-- The buffers `seg8`'s operations write. -/
abbrev seg8_W : List (Ref sig .tc) := [main_v58, main_c_14, main_v59, main_v60, main_c_15, main_v61, main_v62, main_v63, main_v64, main_v65, main_v66, main_v67, main_v68, main_cst_16, main_v69, main_v70, main_v71, main_v72, main_v73, main_v74]
set_option maxHeartbeats 40000000 in
theorem seg8_writes : (seg8 : List (HloOp τ sig (Elt F))).Forall fun op => op.writes ⊆ (seg8_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

set_option maxHeartbeats 40000000 in
/-- Operations 139 … 149 of `ops`. -/
abbrev seg9 : List (HloOp τ sig (Elt F)) :=
  [ StableHlo.nullary main_c_17 (constantI S_ 32 0#32),
    StableHlo.unary main_c_17 main_v75 (broadcastInDim S4096 ![] bcast_S_S4096 : (⟨S_, .i32⟩ : BufTy).Contents (Elt F) → (⟨S4096, .i32⟩ : BufTy).Contents (Elt F)),
    StableHlo.binary main_v15 main_v75 main_v76 (cmpi .slt : (⟨S4096, .i32⟩ : BufTy).Contents (Elt F) → (⟨S4096, .i32⟩ : BufTy).Contents (Elt F) → (⟨S4096, .i1⟩ : BufTy).Contents (Elt F)),
    StableHlo.nullary main_c_18 (constantI S_ 32 20000#32),
    StableHlo.unary main_c_18 main_v77 (broadcastInDim S4096 ![] bcast_S_S4096 : (⟨S_, .i32⟩ : BufTy).Contents (Elt F) → (⟨S4096, .i32⟩ : BufTy).Contents (Elt F)),
    StableHlo.binary main_v15 main_v77 main_v78 (addi : (⟨S4096, .i32⟩ : BufTy).Contents (Elt F) → (⟨S4096, .i32⟩ : BufTy).Contents (Elt F) → (⟨S4096, .i32⟩ : BufTy).Contents (Elt F)),
    StableHlo.ternary main_v76 main_v78 main_v15 main_v79 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v79 main_v80 (broadcastInDim S4096x1 ![0] bcast_S4096_S4096x1_0 : (⟨S4096, .i32⟩ : BufTy).Contents (Elt F) → (⟨S4096x1, .i32⟩ : BufTy).Contents (Elt F)),
    StableHlo.binary main_v74 main_v80 main_v81 ((fun x i => Host.gather gather_S20000x256_S4096x1_S4096x256_1_0_n_n_0_1_1256 x i) : (⟨S20000x256, .f32⟩ : BufTy).Contents (Elt F) → (⟨S4096x1, .i32⟩ : BufTy).Contents (Elt F) → (⟨S4096x256, .f32⟩ : BufTy).Contents (Elt F)),
    StableHlo.unary main_v81 main_v82 ((transpose S256x4096 [1, 0] · transposes_S4096x256_S256x4096_1_0) : (⟨S4096x256, .f32⟩ : BufTy).Contents (Elt F) → (⟨S256x4096, .f32⟩ : BufTy).Contents (Elt F)),
    StableHlo.binary main_v81 main_v82 main_v83 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)) ]
/-- The buffers `seg9`'s operations write. -/
abbrev seg9_W : List (Ref sig .tc) := [main_c_17, main_v75, main_v76, main_c_18, main_v77, main_v78, main_v79, main_v80, main_v81, main_v82, main_v83]
set_option maxHeartbeats 40000000 in
theorem seg9_writes : (seg9 : List (HloOp τ sig (Elt F))).Forall fun op => op.writes ⊆ (seg9_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

end Cert.ReferenceIdeal.RefRun

end
-- ==== Proof.Ref.Fold.lean ====
/-
  The fold of the reference program's operations, read at the buffers that matter.

  The list `ops` is cut into nine consecutive stretches, one per stage: the running count of the
  labelled nodes; the histogram of the counts and its prefix sum; the floor division by one; the
  remainder by the node count; the first layer with its rectifier; the second layer; its rows at the
  index table; the third layer; its rows at the table and their Gram matrix. Folding the whole list is
  folding the stretches one after the other (`fold_eq`).

  A stretch is read from ANY contents `W` of the buffers it starts from: the buffer its last operation
  writes holds the stage's named term of `W` at the stage's inputs (`read_*`), by running the fold over the
  stretch's literal operations. A buffer that no operation of a stretch writes is carried through it
  (`carry*`), in particular the eleven argument buffers, which no operation of the program writes
  (`Kept`). Chaining the stages from the inside out gives the two results as `out57` and `out83` of the
  arguments' contents, each step a rewriting with one stage's lemma, so that no step ever compares two
  expanded terms.
-/
import proofs.«120954_j58265526338342_1_alg».proof.Proof.Ref.Segs
import proofs.«120954_j58265526338342_1_alg».proof.Proof.Ref.Terms

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Folding two lists of operations one after the other is folding their concatenation. -/
theorem after_after (l₁ l₂ : List (HloOp τ sig (Elt F))) (W : Valuation τ sig (Elt F)) :
    after l₂ (after l₁ W) = after (l₁ ++ l₂) W := by
  induction l₁ generalizing W with
  | nil => rfl
  | cons op l ih => simp only [List.cons_append, after_cons, ih]

/-- The straight line is its nine stretches in order. -/
theorem ops_eq : (ops : List (HloOp τ sig (Elt F)))
    = seg1 ++ (seg2 ++ (seg3 ++ (seg4 ++ (seg5 ++ (seg6 ++ (seg7 ++ (seg8 ++ seg9))))))) := rfl

/-- Folding the straight line is folding the stretches one after the other. -/
theorem fold_eq (V : Valuation τ sig (Elt F)) : after ops V = (after seg9 (after seg8 (after seg7 (after seg6 (after seg5 (after seg4 (after seg3 (after seg2 (after seg1 V))))))))) := by
  rw [ops_eq]
  simp only [← after_after]

/-! ## What a stretch leaves alone -/

theorem carry1 (W : Valuation τ sig (Elt F)) {r : Ref sig .tc} (h : r ∉ seg1_W) :
    after seg1 W (Proc.devRef .tc r) = W (Proc.devRef .tc r) := after_of_writes_sub seg1 W seg1_writes h
theorem carry2 (W : Valuation τ sig (Elt F)) {r : Ref sig .tc} (h : r ∉ seg2_W) :
    after seg2 W (Proc.devRef .tc r) = W (Proc.devRef .tc r) := after_of_writes_sub seg2 W seg2_writes h
theorem carry3 (W : Valuation τ sig (Elt F)) {r : Ref sig .tc} (h : r ∉ seg3_W) :
    after seg3 W (Proc.devRef .tc r) = W (Proc.devRef .tc r) := after_of_writes_sub seg3 W seg3_writes h
theorem carry4 (W : Valuation τ sig (Elt F)) {r : Ref sig .tc} (h : r ∉ seg4_W) :
    after seg4 W (Proc.devRef .tc r) = W (Proc.devRef .tc r) := after_of_writes_sub seg4 W seg4_writes h
theorem carry5 (W : Valuation τ sig (Elt F)) {r : Ref sig .tc} (h : r ∉ seg5_W) :
    after seg5 W (Proc.devRef .tc r) = W (Proc.devRef .tc r) := after_of_writes_sub seg5 W seg5_writes h
theorem carry6 (W : Valuation τ sig (Elt F)) {r : Ref sig .tc} (h : r ∉ seg6_W) :
    after seg6 W (Proc.devRef .tc r) = W (Proc.devRef .tc r) := after_of_writes_sub seg6 W seg6_writes h
theorem carry7 (W : Valuation τ sig (Elt F)) {r : Ref sig .tc} (h : r ∉ seg7_W) :
    after seg7 W (Proc.devRef .tc r) = W (Proc.devRef .tc r) := after_of_writes_sub seg7 W seg7_writes h
theorem carry8 (W : Valuation τ sig (Elt F)) {r : Ref sig .tc} (h : r ∉ seg8_W) :
    after seg8 W (Proc.devRef .tc r) = W (Proc.devRef .tc r) := after_of_writes_sub seg8 W seg8_writes h
theorem carry9 (W : Valuation τ sig (Elt F)) {r : Ref sig .tc} (h : r ∉ seg9_W) :
    after seg9 W (Proc.devRef .tc r) = W (Proc.devRef .tc r) := after_of_writes_sub seg9 W seg9_writes h

/-- A buffer that no operation of the program writes. -/
abbrev Kept (r : Ref sig .tc) : Prop :=
  r ∉ seg1_W ∧ r ∉ seg2_W ∧ r ∉ seg3_W ∧ r ∉ seg4_W ∧ r ∉ seg5_W ∧ r ∉ seg6_W ∧ r ∉ seg7_W ∧ r ∉ seg8_W ∧ r ∉ seg9_W

theorem kept_arg0 : Kept main_arg0 := by decide
theorem kept_arg1 : Kept main_arg1 := by decide
theorem kept_arg2 : Kept main_arg2 := by decide
theorem kept_arg3 : Kept main_arg3 := by decide
theorem kept_arg4 : Kept main_arg4 := by decide
theorem kept_arg5 : Kept main_arg5 := by decide
theorem kept_arg6 : Kept main_arg6 := by decide
theorem kept_arg7 : Kept main_arg7 := by decide
theorem kept_arg8 : Kept main_arg8 := by decide
theorem kept_arg9 : Kept main_arg9 := by decide
theorem kept_arg10 : Kept main_arg10 := by decide

/-- Such a buffer holds its launch contents after the first four stretches, -/
theorem keep4 {r : Ref sig .tc} (h : Kept r) (V : Valuation τ sig (Elt F)) : (after seg4 (after seg3 (after seg2 (after seg1 V)))) (Proc.devRef .tc r) = V (Proc.devRef .tc r) :=
  ((carry4 _ h.2.2.2.1).trans ((carry3 _ h.2.2.1).trans ((carry2 _ h.2.1).trans (carry1 _ h.1))))
/-- the first five, -/
theorem keep5 {r : Ref sig .tc} (h : Kept r) (V : Valuation τ sig (Elt F)) : (after seg5 (after seg4 (after seg3 (after seg2 (after seg1 V))))) (Proc.devRef .tc r) = V (Proc.devRef .tc r) :=
  ((carry5 _ h.2.2.2.2.1).trans ((carry4 _ h.2.2.2.1).trans ((carry3 _ h.2.2.1).trans ((carry2 _ h.2.1).trans (carry1 _ h.1)))))
/-- the first seven, -/
theorem keep7 {r : Ref sig .tc} (h : Kept r) (V : Valuation τ sig (Elt F)) : (after seg7 (after seg6 (after seg5 (after seg4 (after seg3 (after seg2 (after seg1 V))))))) (Proc.devRef .tc r) = V (Proc.devRef .tc r) :=
  ((carry7 _ h.2.2.2.2.2.2.1).trans ((carry6 _ h.2.2.2.2.2.1).trans ((carry5 _ h.2.2.2.2.1).trans ((carry4 _ h.2.2.2.1).trans ((carry3 _ h.2.2.1).trans ((carry2 _ h.2.1).trans (carry1 _ h.1)))))))
/-- and all nine. -/
theorem keep9 {r : Ref sig .tc} (h : Kept r) (V : Valuation τ sig (Elt F)) : (after seg9 (after seg8 (after seg7 (after seg6 (after seg5 (after seg4 (after seg3 (after seg2 (after seg1 V))))))))) (Proc.devRef .tc r) = V (Proc.devRef .tc r) :=
  ((carry9 _ h.2.2.2.2.2.2.2.2).trans ((carry8 _ h.2.2.2.2.2.2.2.1).trans ((carry7 _ h.2.2.2.2.2.2.1).trans ((carry6 _ h.2.2.2.2.2.1).trans ((carry5 _ h.2.2.2.2.1).trans ((carry4 _ h.2.2.2.1).trans ((carry3 _ h.2.2.1).trans ((carry2 _ h.2.1).trans (carry1 _ h.1)))))))))

/-! ## What each stretch computes -/

/-- The running count of the labelled nodes, clamped below at zero. -/
theorem read_rank (W : Valuation τ sig (Elt F)) : after seg1 W (Proc.devRef .tc main_v4) = rank (W (Proc.devRef .tc main_arg4)) := by
  simp only [seg1]
  after_results_simp
  try simp only [cast_cast, cast_eq]
  rfl

/-- The empty histogram, set up in the first stretch. -/
theorem read_bins (W : Valuation τ sig (Elt F)) :
    after seg1 W (Proc.devRef .tc main_v3) = broadcastInDim S4096 ![] bcast_S_S4096 (constantI S_ 32 0#32) := by
  simp only [seg1]
  after_results_simp

/-- The histogram of the counts, into bins that start empty, and its prefix sum. -/
theorem read_cum (W : Valuation τ sig (Elt F))
    (hbins : W (Proc.devRef .tc main_v3) = broadcastInDim S4096 ![] bcast_S_S4096 (constantI S_ 32 0#32)) :
    after seg2 W (Proc.devRef .tc main_v13) = cum (W (Proc.devRef .tc main_v4)) := by
  simp only [seg2]
  after_results_simp
  try simp only [cast_cast, cast_eq]
  rw [hbins]
  rfl

/-- The floor division by one. -/
theorem read_quot (W : Valuation τ sig (Elt F)) :
    after seg3 W (Proc.devRef .tc main_v14) = floorDiv (W (Proc.devRef .tc main_v13)) (constantI S_ 32 1#32) := by
  simp only [seg3]
  after_results_simp
  try simp only [cast_cast, cast_eq]
  rfl

/-- The remainder by the node count. -/
theorem read_rem (W : Valuation τ sig (Elt F)) :
    after seg4 W (Proc.devRef .tc main_v15) = floorRem (W (Proc.devRef .tc main_v14)) (constantI S_ 32 20000#32) := by
  simp only [seg4]
  after_results_simp
  try simp only [cast_cast, cast_eq]
  rfl

/-- The first layer: the propagation of the first product, then the rectifier. -/
theorem read_layer1 (W : Valuation τ sig (Elt F)) :
    after seg5 W (Proc.devRef .tc main_v33)
      = relu (gcn (mm (W (Proc.devRef .tc main_arg0)) (W (Proc.devRef .tc main_arg5))) (W (Proc.devRef .tc main_arg1)) (W (Proc.devRef .tc main_arg2)) (W (Proc.devRef .tc main_arg3)) (W (Proc.devRef .tc main_arg6))) := by
  simp only [seg5]
  after_results_simp
  try simp only [cast_cast, cast_eq]
  rfl

/-- The second layer: the propagation of the product of the first layer's output. -/
theorem read_layer2 (W : Valuation τ sig (Elt F)) :
    after seg6 W (Proc.devRef .tc main_v50)
      = gcn (mm (W (Proc.devRef .tc main_v33)) (W (Proc.devRef .tc main_arg7))) (W (Proc.devRef .tc main_arg1)) (W (Proc.devRef .tc main_arg2)) (W (Proc.devRef .tc main_arg3)) (W (Proc.devRef .tc main_arg8)) := by
  simp only [seg6]
  after_results_simp
  try simp only [cast_cast, cast_eq]
  rfl

/-- The second layer's rows at the index table. -/
theorem read_rows (W : Valuation τ sig (Elt F)) :
    after seg7 W (Proc.devRef .tc main_v57) = rows (W (Proc.devRef .tc main_v50)) (W (Proc.devRef .tc main_v15)) := by
  simp only [seg7]
  after_results_simp
  try simp only [cast_cast, cast_eq]
  rfl

/-- The third layer: a propagation of its own product of the features. -/
theorem read_layer3 (W : Valuation τ sig (Elt F)) :
    after seg8 W (Proc.devRef .tc main_v74)
      = gcn (mm (W (Proc.devRef .tc main_arg0)) (W (Proc.devRef .tc main_arg9))) (W (Proc.devRef .tc main_arg1)) (W (Proc.devRef .tc main_arg2)) (W (Proc.devRef .tc main_arg3)) (W (Proc.devRef .tc main_arg10)) := by
  simp only [seg8]
  after_results_simp
  try simp only [cast_cast, cast_eq]
  rfl

/-- The third layer's rows at the table, times their own transpose. -/
theorem read_gram (W : Valuation τ sig (Elt F)) :
    after seg9 W (Proc.devRef .tc main_v83)
      = Host.dotGeneral dot_S4096x256_S256x4096_S4096x4096_1_0_0_1_n_n none (rows (W (Proc.devRef .tc main_v74)) (W (Proc.devRef .tc main_v15)))
          (transpose S256x4096 [1, 0] (rows (W (Proc.devRef .tc main_v74)) (W (Proc.devRef .tc main_v15))) transposes_S4096x256_S256x4096_1_0) := by
  simp only [seg9]
  after_results_simp
  try simp only [cast_cast, cast_eq]
  rfl

/-! ## The stages chained -/

/-- The index table after the first four stretches: each stage read from the one before. -/
theorem table (V : Valuation τ sig (Elt F)) : (after seg4 (after seg3 (after seg2 (after seg1 V)))) (Proc.devRef .tc main_v15) = idx (V (Proc.devRef .tc main_arg4)) := by
  rw [read_rem, read_quot, read_cum _ (read_bins _), read_rank]
  rfl

/-- The first result buffer holds `out57` of the arguments' contents. -/
theorem fold_v57 (V : Valuation τ sig (Elt F)) :
    after ops V (Proc.devRef .tc main_v57) = out57 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [fold_eq, carry9 (r := main_v57) _ (by decide), carry8 (r := main_v57) _ (by decide), read_rows, read_layer2, read_layer1,
    carry6 (r := main_v15) _ (by decide), carry5 (r := main_v15) _ (by decide), table,
    keep5 kept_arg7 V, keep5 kept_arg1 V, keep5 kept_arg2 V, keep5 kept_arg3 V, keep5 kept_arg8 V,
    keep4 kept_arg0 V, keep4 kept_arg5 V, keep4 kept_arg1 V, keep4 kept_arg2 V, keep4 kept_arg3 V, keep4 kept_arg6 V]
  rfl

/-- The second result buffer holds `out83` of the arguments' contents. -/
theorem fold_v83 (V : Valuation τ sig (Elt F)) :
    after ops V (Proc.devRef .tc main_v83) = out83 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [fold_eq, read_gram, read_layer3,
    carry8 (r := main_v15) _ (by decide), carry7 (r := main_v15) _ (by decide), carry6 (r := main_v15) _ (by decide),
    carry5 (r := main_v15) _ (by decide), table,
    keep7 kept_arg0 V, keep7 kept_arg9 V, keep7 kept_arg1 V, keep7 kept_arg2 V, keep7 kept_arg3 V, keep7 kept_arg10 V]
  rfl

/-! ## The arguments, which no operation writes -/

theorem fold_arg0 (V : Valuation τ sig (Elt F)) : after ops V (Proc.devRef .tc main_arg0) = V (Proc.devRef .tc main_arg0) := by
  rw [fold_eq]; exact keep9 kept_arg0 V
theorem fold_arg1 (V : Valuation τ sig (Elt F)) : after ops V (Proc.devRef .tc main_arg1) = V (Proc.devRef .tc main_arg1) := by
  rw [fold_eq]; exact keep9 kept_arg1 V
theorem fold_arg2 (V : Valuation τ sig (Elt F)) : after ops V (Proc.devRef .tc main_arg2) = V (Proc.devRef .tc main_arg2) := by
  rw [fold_eq]; exact keep9 kept_arg2 V
theorem fold_arg3 (V : Valuation τ sig (Elt F)) : after ops V (Proc.devRef .tc main_arg3) = V (Proc.devRef .tc main_arg3) := by
  rw [fold_eq]; exact keep9 kept_arg3 V
theorem fold_arg4 (V : Valuation τ sig (Elt F)) : after ops V (Proc.devRef .tc main_arg4) = V (Proc.devRef .tc main_arg4) := by
  rw [fold_eq]; exact keep9 kept_arg4 V
theorem fold_arg5 (V : Valuation τ sig (Elt F)) : after ops V (Proc.devRef .tc main_arg5) = V (Proc.devRef .tc main_arg5) := by
  rw [fold_eq]; exact keep9 kept_arg5 V
theorem fold_arg6 (V : Valuation τ sig (Elt F)) : after ops V (Proc.devRef .tc main_arg6) = V (Proc.devRef .tc main_arg6) := by
  rw [fold_eq]; exact keep9 kept_arg6 V
theorem fold_arg7 (V : Valuation τ sig (Elt F)) : after ops V (Proc.devRef .tc main_arg7) = V (Proc.devRef .tc main_arg7) := by
  rw [fold_eq]; exact keep9 kept_arg7 V
theorem fold_arg8 (V : Valuation τ sig (Elt F)) : after ops V (Proc.devRef .tc main_arg8) = V (Proc.devRef .tc main_arg8) := by
  rw [fold_eq]; exact keep9 kept_arg8 V
theorem fold_arg9 (V : Valuation τ sig (Elt F)) : after ops V (Proc.devRef .tc main_arg9) = V (Proc.devRef .tc main_arg9) := by
  rw [fold_eq]; exact keep9 kept_arg9 V
theorem fold_arg10 (V : Valuation τ sig (Elt F)) : after ops V (Proc.devRef .tc main_arg10) = V (Proc.devRef .tc main_arg10) := by
  rw [fold_eq]; exact keep9 kept_arg10 V

end Cert.ReferenceIdeal.RefRun

end
-- ==== Proof.Ref.Run.lean ====
/-
  The reference program's run.

  @main is a straight line of tensor operations over buffers of one TensorCore, none of them scoped,
  with no semaphore: from any memory with zero counters every weakly fair execution terminates
  without a fault, and each buffer ends at the fold of the operations over the launch contents.
  Read at the two result buffers the fold is the pair of graph-convolution terms `out57`, `out83`
  of the eleven argument arrays; read at an argument buffer, which no operation writes, it is the
  launch contents. The frame claim is the run with the two result equations dropped.
-/
import proofs.«120954_j58265526338342_1_alg».proof.Proof.Ref.MainEq
import proofs.«120954_j58265526338342_1_alg».proof.Proof.Ref.Fold

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- On the device, for any float values, from any memory with zero counters: every weakly fair execution of
    @main terminates with the two results at `out57` and `out83` of the arguments' launch contents, and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v57) = out57 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v83) = out83 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v57).trans (fold_v57 _), (h c main_v83).trans (fold_v83 _),
      (h c main_arg0).trans (fold_arg0 _),
      (h c main_arg1).trans (fold_arg1 _),
      (h c main_arg2).trans (fold_arg2 _),
      (h c main_arg3).trans (fold_arg3 _),
      (h c main_arg4).trans (fold_arg4 _),
      (h c main_arg5).trans (fold_arg5 _),
      (h c main_arg6).trans (fold_arg6 _),
      (h c main_arg7).trans (fold_arg7 _),
      (h c main_arg8).trans (fold_arg8 _),
      (h c main_arg9).trans (fold_arg9 _),
      (h c main_arg10).trans (fold_arg10 _)⟩)
    (run_seq scopedRefs_eq scopedSems_eq defs main (fun _ => ops) main_eq (fun _ => ops_sub) m ρ)

/-- The frame: every weakly fair execution of @main terminates without a fault and the arguments end unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2.2) (run m ρ)

end Cert.ReferenceIdeal.RefRun

end
-- ==== Proof.lean ====
/-
  The certificate's five claims.

  The kernel program is a graph-convolution decoder whose three dense products and final Gram matrix run as
  kernel regions, with the gathers, scatter-adds, bias additions, the rectifier and the index table as host
  operations between them; the reference computes the same graph with `dot_general` in place of the regions.
  Frames: each kernel program runs as a list of segments (its regions and host stretches), none of which
  writes an argument; the reference is one straight line of host operations. Over the extended reals a region's
  result array, written back block by block, is the matrix product of its operands — the sum over the
  contracted axis of the products of the entries, which is what `dot_general` computes — and the host operations
  on both sides are the same functions of the same operands, so the two programs end with equal results.
  The ideal pass rewrote nothing, so the kernel's idealization is its own text.
-/
import proofs.«120954_j58265526338342_1_alg».proof.Defs
import proofs.«120954_j58265526338342_1_alg».proof.Proof.Gen.Kernel
import proofs.«120954_j58265526338342_1_alg».proof.Proof.Gen.KernelIdeal
import proofs.«120954_j58265526338342_1_alg».proof.Proof.Gen.ReferenceIdeal
import proofs.«120954_j58265526338342_1_alg».proof.Proof.Gen.Pre_finite_inputs
import proofs.«120954_j58265526338342_1_alg».proof.Proof.K.Frame
import proofs.«120954_j58265526338342_1_alg».proof.Proof.KI.Frame
import proofs.«120954_j58265526338342_1_alg».proof.Proof.KI.Results
import proofs.«120954_j58265526338342_1_alg».proof.Proof.Ref.Run
import Idealize.ShloMosaic.Adequacy
import Idealize.ShloMosaic.Init

noncomputable section

namespace Cert.Proof

open Idealize.ShloMosaic Idealize.SL.Sem

/-- The word-level kernel program runs to the end and leaves its arguments alone. -/
theorem frame_kernel : Cert.frame_Kernel := fun m ρ _ => Cert.Kernel.Fr.frame m ρ

/-- So does its idealization. -/
theorem frame_kernel_ideal : Cert.frame_KernelIdeal := fun m ρ _ => Cert.KernelIdeal.Fr.frame m ρ

/-- And the reference. -/
theorem frame_reference : Cert.frame_ReferenceIdeal := fun m ρ _ => Cert.ReferenceIdeal.RefRun.frame m ρ

/-- Over the extended reals both programs end at the same two terms of arguments that agree. -/
theorem algebraic : Cert.algebraic_KernelIdeal_ReferenceIdeal := by
  intro m ρ m' ρ' _ hagree
  refine ⟨_, _, Cert.KernelIdeal.Fr.run_results m ρ, ?_⟩
  refine (θ_run Cert.ReferenceIdeal.defs _ _).mono (fun r h c => ⟨(h c).1.trans ?_, (h c).2.1.trans ?_, (h c).2.2⟩)
    (Cert.ReferenceIdeal.RefRun.run (F := Ideal) m' ρ')
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
